-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v55_2)) (v2 : (c : Dev Cert.KernelIdeal.nD) → Buf (Elt Ideal) ((c.tc : Thread Cert.KernelIdeal.nD Cert.KernelIdeal.τ).loc Cert.KernelIdeal.main_v55_0)) (v3 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v55_2) = v1 c
          ∧ r.2.mem ((c.tc : Thread Cert.KernelIdeal.nD Cert.KernelIdeal.τ).loc Cert.KernelIdeal.main_v55_0) = v2 c
          ∧ r.2.mem ((c.tc : Thread Cert.KernelIdeal.nD Cert.KernelIdeal.τ).loc Cert.KernelIdeal.main_v55_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S720896x3 : Shape := ⟨2, ![720896, 3]⟩
abbrev S2x1376256 : Shape := ⟨2, ![2, 1376256]⟩
abbrev S32768x56 : Shape := ⟨2, ![32768, 56]⟩
abbrev S3x32 : Shape := ⟨2, ![3, 32]⟩
abbrev S32 : Shape := ⟨1, ![32]⟩
abbrev S704x1024 : Shape := ⟨2, ![704, 1024]⟩
abbrev S1024 : Shape := ⟨1, ![1024]⟩
abbrev S1024x56 : Shape := ⟨2, ![1024, 56]⟩
abbrev S56 : Shape := ⟨1, ![56]⟩
abbrev S56x1024 : Shape := ⟨2, ![56, 1024]⟩
abbrev S1024x704 : Shape := ⟨2, ![1024, 704]⟩
abbrev S704 : Shape := ⟨1, ![704]⟩
abbrev S32x3 : Shape := ⟨2, ![32, 3]⟩
abbrev S3 : Shape := ⟨1, ![3]⟩
abbrev S_ : Shape := ⟨0, ![]⟩

class Facts : Prop where
  bcast_S_S720896x3 : S_.BroadcastsInDim S720896x3 (![] : Fin 0 → Fin S720896x3.rank)
  reducesTo_S720896x3_S_d0_1 : S720896x3.ReducesTo [0, 1] S_
  h_S_ : 0 < S_.numel
  bcast_S_S32768x56 : S_.BroadcastsInDim S32768x56 (![] : Fin 0 → Fin S32768x56.rank)
  reducesTo_S32768x56_S_d0_1 : S32768x56.ReducesTo [0, 1] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S704x1024 : S_.BroadcastsInDim S704x1024 (![] : Fin 0 → Fin S704x1024.rank)
  reducesTo_S704x1024_S_d0_1 : S704x1024.ReducesTo [0, 1] S_
  bcast_S_S1024 : S_.BroadcastsInDim S1024 (![] : Fin 0 → Fin S1024.rank)
  reducesTo_S1024_S_d0 : S1024.ReducesTo [0] S_
  bcast_S_S1024x56 : S_.BroadcastsInDim S1024x56 (![] : Fin 0 → Fin S1024x56.rank)
  reducesTo_S1024x56_S_d0_1 : S1024x56.ReducesTo [0, 1] S_
  bcast_S_S56 : S_.BroadcastsInDim S56 (![] : Fin 0 → Fin S56.rank)
  reducesTo_S56_S_d0 : S56.ReducesTo [0] S_
  bcast_S_S56x1024 : S_.BroadcastsInDim S56x1024 (![] : Fin 0 → Fin S56x1024.rank)
  reducesTo_S56x1024_S_d0_1 : S56x1024.ReducesTo [0, 1] S_
  bcast_S_S1024x704 : S_.BroadcastsInDim S1024x704 (![] : Fin 0 → Fin S1024x704.rank)
  reducesTo_S1024x704_S_d0_1 : S1024x704.ReducesTo [0, 1] S_
  bcast_S_S704 : S_.BroadcastsInDim S704 (![] : Fin 0 → Fin S704.rank)
  reducesTo_S704_S_d0 : S704.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S32x3 .f32) (main_arg16 : FVec F S3 .f32) (main_v63 : IVec S_ 1) (main_v67 : IVec S_ 1) : IVec S_ 1 :=
  let main_v68 : IVec S_ 1 := andi main_v63 main_v67
  let main_v69 : FVec F S32x3 .f32 := Host.absf main_arg15
  let main_cst_26 : FVec F S_ .f32 := constant S_ .f32 0x7F800000#32
  let main_v70 : FVec F S32x3 .f32 := broadcastInDim S32x3 ![] bcast_S_S32x3 main_cst_26
  let main_v71 : IVec S32x3 1 := cmpf .olt main_v69 main_v70
  let main_c_27 : IVec S_ 1 := constantI S_ 1 1#1
  let main_v72 : IVec S_ 1 := (fun x v => Host.reduce IntOp.andi x v reducesTo_S32x3_S_d0_1 h_S_) main_v71 main_c_27
  let main_v73 : IVec S_ 1 := andi main_v68 main_v72
  let main_v74 : FVec F S3 .f32 := Host.absf main_arg16
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg12 : FVec F S1024 .f32) (main_arg13 : FVec F S1024x704 .f32) (main_arg14 : FVec F S704 .f32) (main_arg15 : FVec F S32x3 .f32) (main_arg16 : FVec F S3 .f32) (main_v48 : IVec S_ 1) (main_v49 : FVec F S56x1024 .f32) (main_v50 : FVec F S56x1024 .f32) : IVec S_ 1 :=
  let main_v51 : IVec S56x1024 1 := cmpf .olt main_v49 main_v50
  let main_c_19 : IVec S_ 1 := constantI S_ 1 1#1
  let main_v52 : IVec S_ 1 := (fun x v => Host.reduce IntOp.andi x v reducesTo_S56x1024_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x704 .f32 := Host.absf main_arg13
  let main_cst_22 : FVec F S_ .f32 := constant S_ .f32 0x7F800000#32
  let main_v60 : FVec F S1024x704 .f32 := broadcastInDim S1024x704 ![] bcast_S_S1024x704 main_cst_22
  let main_v61 : IVec S1024x704 1 := cmpf .olt main_v59 main_v60
  let main_c_23 : IVec S_ 1 := constantI S_ 1 1#1
  let main_v62 : IVec S_ 1 := (fun x v => Host.reduce IntOp.andi x v reducesTo_S1024x704_S_d0_1 h_S_) main_v61 main_c_23
  let main_v63 : IVec S_ 1 := andi main_v58 main_v62
  let main_v64 : FVec F S704 .f32 := Host.absf main_arg14
  let main_cst_24 : FVec F S_ .f32 := constant S_ .f32 0x7F800000#32
  let main_v65 : FVec F S704 .f32 := broadcastInDim S704 ![] bcast_S_S704 main_cst_24
  let main_v66 : IVec S704 1 := cmpf .olt main_v64 main_v65
  let main_c_25 : IVec S_ 1 := constantI S_ 1 1#1
  let main_v67 : IVec S_ 1 := (fun x v => Host.reduce IntOp.andi x v reducesTo_S704_S_d0 h_S_) main_v66 main_c_25
  fn_part4 (F := F) main_arg15 main_arg16 main_v63 main_v67

def fn_part2 {F : FTy → Type} [FloatOps F] (main_arg8 : FVec F S56 .f32) (main_arg9 : FVec F S1024x56 .f32) (main_arg10 : FVec F S56 .f32) (main_arg11 : FVec F S56x1024 .f32) (main_arg12 : FVec F S1024 .f32) (main_arg13 : FVec F S1024x704 .f32) (main_arg14 : FVec F S704 .f32) (main_arg15 : FVec F S32x3 .f32) (main_arg16 : FVec F S3 .f32) (main_v33 : IVec S_ 1) : IVec S_ 1 :=
  let main_v34 : FVec F S56 .f32 := Host.absf main_arg8
  let main_cst_12 : FVec F S_ .f32 := constant S_ .f32 0x7F800000#32
  let main_v35 : FVec F S56 .f32 := broadcastInDim S56 ![] bcast_S_S56 main_cst_12
  let main_v36 : IVec S56 1 := cmpf .olt main_v34 main_v35
  let main_c_13 : IVec S_ 1 := constantI S_ 1 1#1
  let main_v37 : IVec S_ 1 := (fun x v => Host.reduce IntOp.andi x v reducesTo_S56_S_d0 h_S_) main_v36 main_c_13
  let main_v38 : IVec S_ 1 := andi main_v33 main_v37
  let main_v39 : FVec F S1024x56 .f32 := Host.absf main_arg9
  let main_cst_14 : FVec F S_ .f32 := constant S_ .f32 0x7F800000#32
  let main_v40 : FVec F S1024x56 .f32 := broadcastInDim S1024x56 ![] bcast_S_S1024x56 main_cst_14
  let main_v41 : IVec S1024x56 1 := cmpf .olt main_v39 main_v40
  let main_c_15 : IVec S_ 1 := constantI S_ 1 1#1
  let main_v42 : IVec S_ 1 := (fun x v => Host.reduce IntOp.andi x v reducesTo_S1024x56_S_d0_1 h_S_) main_v41 main_c_15
  let main_v43 : IVec S_ 1 := andi main_v38 main_v42
  let main_v44 : FVec F S56 .f32 := Host.absf main_arg10
  let main_cst_16 : FVec F S_ .f32 := constant S_ .f32 0x7F800000#32
  let main_v45 : FVec F S56 .f32 := broadcastInDim S56 ![] bcast_S_S56 main_cst_16
  let main_v46 : IVec S56 1 := cmpf .olt main_v44 main_v45
  let main_c_17 : IVec S_ 1 := constantI S_ 1 1#1
  let main_v47 : IVec S_ 1 := (fun x v => Host.reduce IntOp.andi x v reducesTo_S56_S_d0 h_S_) main_v46 main_c_17
  let main_v48 : IVec S_ 1 := andi main_v43 main_v47
  let main_v49 : FVec F S56x1024 .f32 := Host.absf main_arg11
  let main_cst_18 : FVec F S_ .f32 := constant S_ .f32 0x7F800000#32
  let main_v50 : FVec F S56x1024 .f32 := broadcastInDim S56x1024 ![] bcast_S_S56x1024 main_cst_18
  fn_part3 (F := F) main_arg12 main_arg13 main_arg14 main_arg15 main_arg16 main_v48 main_v49 main_v50

def fn_part1 {F : FTy → Type} [FloatOps F] (main_arg5 : FVec F S704x1024 .f32) (main_arg6 : FVec F S1024 .f32) (main_arg7 : FVec F S1024x56 .f32) (main_arg8 : FVec F S56 .f32) (main_arg9 : FVec F S1024x56 .f32) (main_arg10 : FVec F S56 .f32) (main_arg11 : FVec F S56x1024 .f32) (main_arg12 : FVec F S1024 .f32) (main_arg13 : FVec F S1024x704 .f32) (main_arg14 : FVec F S704 .f32) (main_arg15 : FVec F S32x3 .f32) (main_arg16 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S704x1024 .f32 := Host.absf main_arg5
  let main_cst_6 : FVec F S_ .f32 := constant S_ .f32 0x7F800000#32
  let main_v20 : FVec F S704x1024 .f32 := broadcastInDim S704x1024 ![] bcast_S_S704x1024 main_cst_6
  let main_v21 : IVec S704x1024 1 := cmpf .olt main_v19 main_v20
  let main_c_7 : IVec S_ 1 := constantI S_ 1 1#1
  let main_v22 : IVec S_ 1 := (fun x v => Host.reduce IntOp.andi x v reducesTo_S704x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x56 .f32 := Host.absf main_arg7
  let main_cst_10 : FVec F S_ .f32 := constant S_ .f32 0x7F800000#32
  let main_v30 : FVec F S1024x56 .f32 := broadcastInDim S1024x56 ![] bcast_S_S1024x56 main_cst_10
  let main_v31 : IVec S1024x56 1 := cmpf .olt main_v29 main_v30
  let main_c_11 : IVec S_ 1 := constantI S_ 1 1#1
  let main_v32 : IVec S_ 1 := (fun x v => Host.reduce IntOp.andi x v reducesTo_S1024x56_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S720896x3 .f32) (main_arg1 : IVec S2x1376256 32) (main_arg2 : FVec F S32768x56 .f32) (main_arg3 : FVec F S3x32 .f32) (main_arg4 : FVec F S32 .f32) (main_arg5 : FVec F S704x1024 .f32) (main_arg6 : FVec F S1024 .f32) (main_arg7 : FVec F S1024x56 .f32) (main_arg8 : FVec F S56 .f32) (main_arg9 : FVec F S1024x56 .f32) (main_arg10 : FVec F S56 .f32) (main_arg11 : FVec F S56x1024 .f32) (main_arg12 : FVec F S1024 .f32) (main_arg13 : FVec F S1024x704 .f32) (main_arg14 : FVec F S704 .f32) (main_arg15 : FVec F S32x3 .f32) (main_arg16 : FVec F S3 .f32) : IVec S_ 1 :=
  let main_v0 : FVec F S720896x3 .f32 := Host.absf main_arg0
  let main_cst : FVec F S_ .f32 := constant S_ .f32 0x7F800000#32
  let main_v1 : FVec F S720896x3 .f32 := broadcastInDim S720896x3 ![] bcast_S_S720896x3 main_cst
  let main_v2 : IVec S720896x3 1 := cmpf .olt main_v0 main_v1
  let main_c : IVec S_ 1 := constantI S_ 1 1#1
  let main_v3 : IVec S_ 1 := (fun x v => Host.reduce IntOp.andi x v reducesTo_S720896x3_S_d0_1 h_S_) main_v2 main_c
  let main_v4 : FVec F S32768x56 .f32 := Host.absf main_arg2
  let main_cst_0 : FVec F S_ .f32 := constant S_ .f32 0x7F800000#32
  let main_v5 : FVec F S32768x56 .f32 := broadcastInDim S32768x56 ![] bcast_S_S32768x56 main_cst_0
  let main_v6 : IVec S32768x56 1 := cmpf .olt main_v4 main_v5
  let main_c_1 : IVec S_ 1 := constantI S_ 1 1#1
  let main_v7 : IVec S_ 1 := (fun x v => Host.reduce IntOp.andi x v reducesTo_S32768x56_S_d0_1 h_S_) main_v6 main_c_1
  let main_v8 : IVec S_ 1 := andi main_v3 main_v7
  let main_v9 : FVec F S3x32 .f32 := Host.absf main_arg3
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S720896x3 : Shape := ⟨2, ![720896, 3]⟩
abbrev S2x1376256 : Shape := ⟨2, ![2, 1376256]⟩
abbrev S32768x56 : Shape := ⟨2, ![32768, 56]⟩
abbrev S3x32 : Shape := ⟨2, ![3, 32]⟩
abbrev S32 : Shape := ⟨1, ![32]⟩
abbrev S704x1024 : Shape := ⟨2, ![704, 1024]⟩
abbrev S1024 : Shape := ⟨1, ![1024]⟩
abbrev S1024x56 : Shape := ⟨2, ![1024, 56]⟩
abbrev S56 : Shape := ⟨1, ![56]⟩
abbrev S56x1024 : Shape := ⟨2, ![56, 1024]⟩
abbrev S1024x704 : Shape := ⟨2, ![1024, 704]⟩
abbrev S704 : Shape := ⟨1, ![704]⟩
abbrev S32x3 : Shape := ⟨2, ![32, 3]⟩
abbrev S3 : Shape := ⟨1, ![3]⟩
abbrev S1x1376256 : Shape := ⟨2, ![1, 1376256]⟩
abbrev S1376256 : Shape := ⟨1, ![1376256]⟩
abbrev S720896 : Shape := ⟨1, ![720896]⟩
abbrev S2097152 : Shape := ⟨1, ![2097152]⟩
abbrev S_ : Shape := ⟨0, ![]⟩
abbrev S2097152x1 : Shape := ⟨2, ![2097152, 1]⟩
abbrev S2097152x3 : Shape := ⟨2, ![2097152, 3]⟩
abbrev S720896x32 : Shape := ⟨2, ![720896, 32]⟩
abbrev S1x32 : Shape := ⟨2, ![1, 32]⟩
abbrev S32768x704 : Shape := ⟨2, ![32768, 704]⟩
abbrev S1x1024 : Shape := ⟨2, ![1, 1024]⟩
abbrev S1x56 : Shape := ⟨2, ![1, 56]⟩
abbrev S1x704 : Shape := ⟨2, ![1, 704]⟩
abbrev S1024x1024 : Shape := ⟨2, ![1024, 1024]⟩
abbrev S1x3 : Shape := ⟨2, ![1, 3]⟩

abbrev nBuf : Space → Nat
  | .hbm => 110
  | .vmem => 22
  | .smem => 0
  | _ => 0

abbrev bufTy : (tb : Table) → Fin (tcTables nBuf tb) → BufTy
  | .hbm, ⟨0, _⟩ => ⟨S720896x3, .f32⟩
  | .hbm, ⟨1, _⟩ => ⟨S2x1376256, .i32⟩
  | .hbm, ⟨2, _⟩ => ⟨S32768x56, .f32⟩
  | .hbm, ⟨3, _⟩ => ⟨S3x32, .f32⟩
  | .hbm, ⟨4, _⟩ => ⟨S32, .f32⟩
  | .hbm, ⟨5, _⟩ => ⟨S704x1024, .f32⟩
  | .hbm, ⟨6, _⟩ => ⟨S1024, .f32⟩
  | .hbm, ⟨7, _⟩ => ⟨S1024x56, .f32⟩
  | .hbm, ⟨8, _⟩ => ⟨S56, .f32⟩
  | .hbm, ⟨9, _⟩ => ⟨S1024x56, .f32⟩
  | .hbm, ⟨10, _⟩ => ⟨S56, .f32⟩
  | .hbm, ⟨11, _⟩ => ⟨S56x1024, .f32⟩
  | .hbm, ⟨12, _⟩ => ⟨S1024, .f32⟩
  | .hbm, ⟨13, _⟩ => ⟨S1024x704, .f32⟩
  | .hbm, ⟨14, _⟩ => ⟨S704, .f32⟩
  | .hbm, ⟨15, _⟩ => ⟨S32x3, .f32⟩
  | .hbm, ⟨16, _⟩ => ⟨S3, .f32⟩
  | .hbm, ⟨17, _⟩ => ⟨S1x1376256, .i32⟩
  | .hbm, ⟨18, _⟩ => ⟨S1376256, .i32⟩
  | .hbm, ⟨19, _⟩ => ⟨S1x1376256, .i32⟩
  | .hbm, ⟨20, _⟩ => ⟨S1376256, .i32⟩
  | .hbm, ⟨21, _⟩ => ⟨S720896, .i32⟩
  | .hbm, ⟨22, _⟩ => ⟨S2097152, .i32⟩
  | .hbm, ⟨23, _⟩ => ⟨S2097152, .i32⟩
  | .hbm, ⟨24, _⟩ => ⟨S_, .f32⟩
  | .hbm, ⟨25, _⟩ => ⟨S2097152, .f32⟩
  | .hbm, ⟨26, _⟩ => ⟨S_, .f32⟩
  | .hbm, ⟨27, _⟩ => ⟨S720896, .f32⟩
  | .hbm, ⟨28, _⟩ => ⟨S2097152x1, .i32⟩
  | .hbm, ⟨29, _⟩ => ⟨S720896, .f32⟩
  | .hbm, ⟨30, _⟩ => ⟨S_, .f32⟩
  | .hbm, ⟨31, _⟩ => ⟨S720896, .f32⟩
  | .hbm, ⟨32, _⟩ => ⟨S720896, .i1⟩
  | .hbm, ⟨33, _⟩ => ⟨S720896, .f32⟩
  | .hbm, ⟨34, _⟩ => ⟨S_, .f32⟩
  | .hbm, ⟨35, _⟩ => ⟨S_, .f32⟩
  | .hbm, ⟨36, _⟩ => ⟨S720896, .f32⟩
  | .hbm, ⟨37, _⟩ => ⟨S720896, .f32⟩
  | .hbm, ⟨38, _⟩ => ⟨S_, .i32⟩
  | .hbm, ⟨39, _⟩ => ⟨S2097152, .i32⟩
  | .hbm, ⟨40, _⟩ => ⟨S2097152, .i1⟩
  | .hbm, ⟨41, _⟩ => ⟨S_, .i32⟩
  | .hbm, ⟨42, _⟩ => ⟨S2097152, .i32⟩
  | .hbm, ⟨43, _⟩ => ⟨S2097152, .i32⟩
  | .hbm, ⟨44, _⟩ => ⟨S2097152, .i32⟩
  | .hbm, ⟨45, _⟩ => ⟨S2097152x1, .i32⟩
  | .hbm, ⟨46, _⟩ => ⟨S2097152, .f32⟩
  | .hbm, ⟨47, _⟩ => ⟨S_, .i32⟩
  | .hbm, ⟨48, _⟩ => ⟨S2097152, .i32⟩
  | .hbm, ⟨49, _⟩ => ⟨S2097152, .i1⟩
  | .hbm, ⟨50, _⟩ => ⟨S_, .i32⟩
  | .hbm, ⟨51, _⟩ => ⟨S2097152, .i32⟩
  | .hbm, ⟨52, _⟩ => ⟨S2097152, .i32⟩
  | .hbm, ⟨53, _⟩ => ⟨S2097152, .i32⟩
  | .hbm, ⟨54, _⟩ => ⟨S2097152x1, .i32⟩
  | .hbm, ⟨55, _⟩ => ⟨S2097152, .f32⟩
  | .hbm, ⟨56, _⟩ => ⟨S2097152, .f32⟩
  | .hbm, ⟨57, _⟩ => ⟨S_, .i32⟩
  | .hbm, ⟨58, _⟩ => ⟨S2097152, .i32⟩
  | .hbm, ⟨59, _⟩ => ⟨S2097152, .i1⟩
  | .hbm, ⟨60, _⟩ => ⟨S_, .i32⟩
  | .hbm, ⟨61, _⟩ => ⟨S2097152, .i32⟩
  | .hbm, ⟨62, _⟩ => ⟨S2097152, .i32⟩
  | .hbm, ⟨63, _⟩ => ⟨S2097152, .i32⟩
  | .hbm, ⟨64, _⟩ => ⟨S2097152x1, .i32⟩
  | .hbm, ⟨65, _⟩ => ⟨S2097152x3, .f32⟩
  | .hbm, ⟨66, _⟩ => ⟨S2097152x1, .f32⟩
  | .hbm, ⟨67, _⟩ => ⟨S2097152x3, .f32⟩
  | .hbm, ⟨68, _⟩ => ⟨S2097152x3, .f32⟩
  | .hbm, ⟨69, _⟩ => ⟨S_, .f32⟩
  | .hbm, ⟨70, _⟩ => ⟨S720896x3, .f32⟩
  | .hbm, ⟨71, _⟩ => ⟨S2097152x1, .i32⟩
  | .hbm, ⟨72, _⟩ => ⟨S720896x3, .f32⟩
  | .hbm, ⟨73, _⟩ => ⟨S720896x32, .f32⟩
  | .hbm, ⟨74, _⟩ => ⟨S1x32, .f32⟩
  | .hbm, ⟨75, _⟩ => ⟨S720896x32, .f32⟩
  | .hbm, ⟨76, _⟩ => ⟨S720896x32, .f32⟩
  | .hbm, ⟨77, _⟩ => ⟨S32768x704, .f32⟩
  | .hbm, ⟨78, _⟩ => ⟨S704x1024, .bf16⟩
  | .hbm, ⟨79, _⟩ => ⟨S1024x704, .bf16⟩
  | .hbm, ⟨80, _⟩ => ⟨S1x1024, .f32⟩
  | .hbm, ⟨81, _⟩ => ⟨S1x56, .f32⟩
  | .hbm, ⟨82, _⟩ => ⟨S1x56, .f32⟩
  | .hbm, ⟨83, _⟩ => ⟨S1x1024, .f32⟩
  | .hbm, ⟨84, _⟩ => ⟨S1x704, .f32⟩
  | .hbm, ⟨85, _⟩ => ⟨S32768x56, .f32⟩
  | .hbm, ⟨86, _⟩ => ⟨S32768x56, .f32⟩
  | .hbm, ⟨87, _⟩ => ⟨S32768x56, .f32⟩
  | .hbm, ⟨88, _⟩ => ⟨S32768x704, .f32⟩
  | .hbm, ⟨89, _⟩ => ⟨S720896x32, .f32⟩
  | .hbm, ⟨90, _⟩ => ⟨S720896x3, .f32⟩
  | .hbm, ⟨91, _⟩ => ⟨S_, .i32⟩
  | .hbm, ⟨92, _⟩ => ⟨S2097152, .i32⟩
  | .hbm, ⟨93, _⟩ => ⟨S2097152, .i1⟩
  | .hbm, ⟨94, _⟩ => ⟨S_, .i32⟩
  | .hbm, ⟨95, _⟩ => ⟨S2097152, .i32⟩
  | .hbm, ⟨96, _⟩ => ⟨S2097152, .i32⟩
  | .hbm, ⟨97, _⟩ => ⟨S2097152, .i32⟩
  | .hbm, ⟨98, _⟩ => ⟨S2097152x1, .i32⟩
  | .hbm, ⟨99, _⟩ => ⟨S2097152x3, .f32⟩
  | .hbm, ⟨100, _⟩ => ⟨S2097152x1, .f32⟩
  | .hbm, ⟨101, _⟩ => ⟨S2097152x3, .f32⟩
  | .hbm, ⟨102, _⟩ => ⟨S2097152x3, .f32⟩
  | .hbm, ⟨103, _⟩ => ⟨S_, .f32⟩
  | .hbm, ⟨104, _⟩ => ⟨S720896x3, .f32⟩
  | .hbm, ⟨105, _⟩ => ⟨S2097152x1, .i32⟩
  | .hbm, ⟨106, _⟩ => ⟨S720896x3, .f32⟩
  | .hbm, ⟨107, _⟩ => ⟨S1x3, .f32⟩
  | .hbm, ⟨108, _⟩ => ⟨S720896x3, .f32⟩
  | .hbm, ⟨109, _⟩ => ⟨S720896x3, .f32⟩
  | .local _ .vmem, ⟨0, _⟩ => ⟨S1024x704, .f32⟩
  | .local _ .vmem, ⟨1, _⟩ => ⟨S1024x704, .f32⟩
  | .local _ .vmem, ⟨2, _⟩ => ⟨S1024x56, .f32⟩
  | .local _ .vmem, ⟨3, _⟩ => ⟨S1024x56, .f32⟩
  | .local _ .vmem, ⟨4, _⟩ => ⟨S704x1024, .bf16⟩
  | .local _ .vmem, ⟨5, _⟩ => ⟨S1x1024, .f32⟩
  | .local _ .vmem, ⟨6, _⟩ => ⟨S1024x56, .f32⟩
  | .local _ .vmem, ⟨7, _⟩ => ⟨S1x56, .f32⟩
  | .local _ .vmem, ⟨8, _⟩ => ⟨S1024x56, .f32⟩
  | .local _ .vmem, ⟨9, _⟩ => ⟨S1x56, .f32⟩
  | .local _ .vmem, ⟨10, _⟩ => ⟨S56x1024, .f32⟩
  | .local _ .vmem, ⟨11, _⟩ => ⟨S1x1024, .f32⟩
  | .local _ .vmem, ⟨12, _⟩ => ⟨S1024x704, .bf16⟩
  | .local _ .vmem, ⟨13, _⟩ => ⟨S1x704, .f32⟩
  | .local _ .vmem, ⟨14, _⟩ => ⟨S1024x56, .f32⟩
  | .local _ .vmem, ⟨15, _⟩ => ⟨S1024x56, .f32⟩
  | .local _ .vmem, ⟨16, _⟩ => ⟨S1024x56, .f32⟩
  | .local _ .vmem, ⟨17, _⟩ => ⟨S1024x56, .f32⟩
  | .local _ .vmem, ⟨18, _⟩ => ⟨S1024x56, .f32⟩
  | .local _ .vmem, ⟨19, _⟩ => ⟨S1024x56, .f32⟩
  | .local _ .vmem, ⟨20, _⟩ => ⟨S1024x704, .f32⟩
  | .local _ .vmem, ⟨21, _⟩ => ⟨S1024x704, .f32⟩
  | _, _ => ⟨S720896x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_c_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55_0 : Ref sig .tc := ⟨.hbm, 85, rfl⟩
abbrev main_v55_1 : Ref sig .tc := ⟨.hbm, 86, rfl⟩
abbrev main_v55_2 : Ref sig .tc := ⟨.hbm, 87, rfl⟩
abbrev main_v55_3 : Ref sig .tc := ⟨.hbm, 88, rfl⟩
abbrev main_v56 : Ref sig .tc := ⟨.hbm, 89, rfl⟩
abbrev main_v57 : Ref sig .tc := ⟨.hbm, 90, rfl⟩
abbrev main_c_9 : Ref sig .tc := ⟨.hbm, 91, rfl⟩
abbrev main_v58 : Ref sig .tc := ⟨.hbm, 92, rfl⟩
abbrev main_v59 : Ref sig .tc := ⟨.hbm, 93, rfl⟩
abbrev main_c_10 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S56x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x704 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x56 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x56 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x56 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1376256_S1x1376256_0_0 : S2x1376256.Slices ![0, 0] S1x1376256
  shapeCasts_S1x1376256_S1376256 : S1x1376256.ShapeCasts S1376256
  slices_S2x1376256_S1x1376256_1_0 : S2x1376256.Slices ![1, 0] S1x1376256
  concatenates_S1376256_S720896_S2097152_d0 : Shape.Concatenates [S1376256, S720896] S2097152 0
  bcast_S_S2097152 : S_.BroadcastsInDim S2097152 (![] : Fin 0 → Fin S2097152.rank)
  bcast_S_S720896 : S_.BroadcastsInDim S720896 (![] : Fin 0 → Fin S720896.rank)
  bcast_S2097152_S2097152x1_0 : S2097152.BroadcastsInDim S2097152x1 (![0] : Fin 1 → Fin S2097152x1.rank)
  bcast_S2097152x1_S2097152x3_0_1 : S2097152x1.BroadcastsInDim S2097152x3 (![0, 1] : Fin 2 → Fin S2097152x3.rank)
  bcast_S_S720896x3 : S_.BroadcastsInDim S720896x3 (![] : Fin 0 → Fin S720896x3.rank)
  bcast_S32_S1x32_1 : S32.BroadcastsInDim S1x32 (![1] : Fin 1 → Fin S1x32.rank)
  bcast_S1x32_S720896x32_0_1 : S1x32.BroadcastsInDim S720896x32 (![0, 1] : Fin 2 → Fin S720896x32.rank)
  shapeCasts_S720896x32_S32768x704 : S720896x32.ShapeCasts S32768x704
  bitsLt_bf16_f32 : FTy.bits .bf16 < FTy.bits .f32
  shapeCasts_S1024_S1x1024 : S1024.ShapeCasts S1x1024
  shapeCasts_S56_S1x56 : S56.ShapeCasts S1x56
  shapeCasts_S704_S1x704 : S704.ShapeCasts S1x704
  inb_S1024x704_S1024x704_0_0 : ∀ a, (![0, 0] : Fin 2 → Nat) a + S1024x704.size a ≤ S1024x704.size a
  h_S1024x704 : 0 < S1024x704.numel
  shapeCasts_S1024x704_S1024x704 : S1024x704.ShapeCasts S1024x704
  inb_S704x1024_S704x1024_0_0 : ∀ a, (![0, 0] : Fin 2 → Nat) a + S704x1024.size a ≤ S704x1024.size a
  h_S704x1024 : 0 < S704x1024.numel
  shapeCasts_S704x1024_S704x1024 : S704x1024.ShapeCasts S704x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x56_S1024x56_0_0 : ∀ a, (![0, 0] : Fin 2 → Nat) a + S1024x56.size a ≤ S1024x56.size a
  h_S1024x56 : 0 < S1024x56.numel
  inb_S1x56_S1x56_0_0 : ∀ a, (![0, 0] : Fin 2 → Nat) a + S1x56.size a ≤ S1x56.size a
  h_S1x56 : 0 < S1x56.numel
  shapeCasts_S1x56_S1x56 : S1x56.ShapeCasts S1x56
  broadcasts_S1x56_S1024x56 : S1x56.Broadcasts S1024x56
  inb_S56x1024_S56x1024_0_0 : ∀ a, (![0, 0] : Fin 2 → Nat) a + S56x1024.size a ≤ S56x1024.size a
  h_S56x1024 : 0 < S56x1024.numel
  inb_S1x704_S1x704_0_0 : ∀ a, (![0, 0] : Fin 2 → Nat) a + S1x704.size a ≤ S1x704.size a
  h_S1x704 : 0 < S1x704.numel
  shapeCasts_S1x704_S1x704 : S1x704.ShapeCasts S1x704
  broadcasts_S1x704_S1024x704 : S1x704.Broadcasts S1024x704
  shapeCasts_S32768x704_S720896x32 : S32768x704.ShapeCasts S720896x32
  bcast_S3_S1x3_1 : S3.BroadcastsInDim S1x3 (![1] : Fin 1 → Fin S1x3.rank)
  bcast_S1x3_S720896x3_0_1 : S1x3.BroadcastsInDim S720896x3 (![0, 1] : Fin 2 → Fin S720896x3.rank)
  scatter_S720896_S2097152x1_S2097152_n_0_0_1_wf : ScatterDims.WF S720896 S2097152x1 S2097152 [] [0] [0] 1
  gather_S720896_S2097152x1_S2097152_n_0_n_n_0_1_1_wf : GatherDims.WF S720896 S2097152x1 S2097152 [] [0] [] [0] [] 1 ![1]
  gather_S720896x3_S2097152x1_S2097152x3_1_0_n_n_0_1_13_wf : GatherDims.WF S720896x3 S2097152x1 S2097152x3 [1] [0] [] [0] [] 1 ![1, 3]
  scatter_S720896x3_S2097152x1_S2097152x3_1_0_0_1_wf : ScatterDims.WF S720896x3 S2097152x1 S2097152x3 [1] [0] [0] 1
  dot_S720896x3_S3x32_S720896x32_1_0_0_1_n_n_wf : DotDims.WF S720896x3 S3x32 S720896x32 [1] [0] [0] [1] [] []
  dot_S1024x704_S704x1024_S1024x1024_1_0_0_1_n_n_wf : DotDims.WF S1024x704 S704x1024 S1024x1024 [1] [0] [0] [1] [] []
  dot_S1024x1024_S1024x56_S1024x56_1_0_0_1_n_n_wf : DotDims.WF S1024x1024 S1024x56 S1024x56 [1] [0] [0] [1] [] []
  dot_S1024x56_S56x1024_S1024x1024_1_0_0_1_n_n_wf : DotDims.WF S1024x56 S56x1024 S1024x1024 [1] [0] [0] [1] [] []
  dot_S1024x1024_S1024x704_S1024x704_1_0_0_1_n_n_wf : DotDims.WF S1024x1024 S1024x704 S1024x704 [1] [0] [0] [1] [] []
  dot_S720896x32_S32x3_S720896x3_1_0_0_1_n_n_wf : DotDims.WF S720896x32 S32x3 S720896x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x704.size a ≤ S32768x704.size a
  hwx0_0 : ∀ i : grid0.Coords, EltTy.bits .f32 = 32 ∨ (Rect.block (s := S32768x704) S1024x704.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x56.size a ≤ S32768x56.size a
  hwx0_1 : ∀ i : grid0.Coords, EltTy.bits .f32 = 32 ∨ (Rect.block (s := S32768x56) S1024x56.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S704x1024.size a ≤ S704x1024.size a
  hwx0_2 : ∀ i : grid0.Coords, EltTy.bits .bf16 = 32 ∨ (Rect.block (s := S704x1024) S704x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x56.size a ≤ S1024x56.size a
  hwx0_4 : ∀ i : grid0.Coords, EltTy.bits .f32 = 32 ∨ (Rect.block (s := S1024x56) S1024x56.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x56.size a ≤ S1x56.size a
  hwx0_5 : ∀ i : grid0.Coords, EltTy.bits .f32 = 32 ∨ (Rect.block (s := S1x56) S1x56.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x56.size a ≤ S1024x56.size a
  hwx0_6 : ∀ i : grid0.Coords, EltTy.bits .f32 = 32 ∨ (Rect.block (s := S1024x56) S1024x56.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x56.size a ≤ S1x56.size a
  hwx0_7 : ∀ i : grid0.Coords, EltTy.bits .f32 = 32 ∨ (Rect.block (s := S1x56) S1x56.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S56x1024.size a ≤ S56x1024.size a
  hwx0_8 : ∀ i : grid0.Coords, EltTy.bits .f32 = 32 ∨ (Rect.block (s := S56x1024) S56x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x704.size a ≤ S1024x704.size a
  hwx0_10 : ∀ i : grid0.Coords, EltTy.bits .bf16 = 32 ∨ (Rect.block (s := S1024x704) S1024x704.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x704.size a ≤ S1x704.size a
  hwx0_11 : ∀ i : grid0.Coords, EltTy.bits .f32 = 32 ∨ (Rect.block (s := S1x704) S1x704.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x56.size a ≤ S32768x56.size a
  hwx0_12 : ∀ i : grid0.Coords, EltTy.bits .f32 = 32 ∨ (Rect.block (s := S32768x56) S1024x56.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x56.size a ≤ S32768x56.size a
  hwx0_13 : ∀ i : grid0.Coords, EltTy.bits .f32 = 32 ∨ (Rect.block (s := S32768x56) S1024x56.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x56.size a ≤ S32768x56.size a
  hwx0_14 : ∀ i : grid0.Coords, EltTy.bits .f32 = 32 ∨ (Rect.block (s := S32768x56) S1024x56.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x704.size a ≤ S32768x704.size a
  hwx0_15 : ∀ i : grid0.Coords, EltTy.bits .f32 = 32 ∨ (Rect.block (s := S32768x704) S1024x704.size (cc0_transform_15 i) (hinb0_15 i)).WholeWords (EltTy.packing .f32)

variable [Facts₀]

def scatter_S720896_S2097152x1_S2097152_n_0_0_1 : ScatterDims S720896 S2097152x1 S2097152 where
  updateWindowDims := []
  insertedWindowDims := [0]
  scatterDimsToOperandDims := [0]
  indexVectorDim := 1
  wf := scatter_S720896_S2097152x1_S2097152_n_0_0_1_wf
def gather_S720896_S2097152x1_S2097152_n_0_n_n_0_1_1 : GatherDims S720896 S2097152x1 S2097152 where
  offsetDims := []
  collapsedSliceDims := [0]
  operandBatchingDims := []
  startIndicesBatchingDims := []
  startIndexMap := [0]
  indexVectorDim := 1
  sliceSizes := ![1]
  wf := gather_S720896_S2097152x1_S2097152_n_0_n_n_0_1_1_wf
def gather_S720896x3_S2097152x1_S2097152x3_1_0_n_n_0_1_13 : GatherDims S720896x3 S2097152x1 S2097152x3 where
  offsetDims := [1]
  collapsedSliceDims := [0]
  operandBatchingDims := []
  startIndicesBatchingDims := []
  startIndexMap := [0]
  indexVectorDim := 1
  sliceSizes := ![1, 3]
  wf := gather_S720896x3_S2097152x1_S2097152x3_1_0_n_n_0_1_13_wf
def scatter_S720896x3_S2097152x1_S2097152x3_1_0_0_1 : ScatterDims S720896x3 S2097152x1 S2097152x3 where
  updateWindowDims := [1]
  insertedWindowDims := [0]
  scatterDimsToOperandDims := [0]
  indexVectorDim := 1
  wf := scatter_S720896x3_S2097152x1_S2097152x3_1_0_0_1_wf
def dot_S720896x3_S3x32_S720896x32_1_0_0_1_n_n : DotDims S720896x3 S3x32 S720896x32 where
  lhsContracting := [1]
  rhsContracting := [0]
  lhsNonContracting := [0]
  rhsNonContracting := [1]
  lhsBatch := []
  rhsBatch := []
  wf := dot_S720896x3_S3x32_S720896x32_1_0_0_1_n_n_wf
def dot_S1024x704_S704x1024_S1024x1024_1_0_0_1_n_n : DotDims S1024x704 S704x1024 S1024x1024 where
  lhsContracting := [1]
  rhsContracting := [0]
  lhsNonContracting := [0]
  rhsNonContracting := [1]
  lhsBatch := []
  rhsBatch := []
  wf := dot_S1024x704_S704x1024_S1024x1024_1_0_0_1_n_n_wf
def dot_S1024x1024_S1024x56_S1024x56_1_0_0_1_n_n : DotDims S1024x1024 S1024x56 S1024x56 where
  lhsContracting := [1]
  rhsContracting := [0]
  lhsNonContracting := [0]
  rhsNonContracting := [1]
  lhsBatch := []
  rhsBatch := []
  wf := dot_S1024x1024_S1024x56_S1024x56_1_0_0_1_n_n_wf
def dot_S1024x56_S56x1024_S1024x1024_1_0_0_1_n_n : DotDims S1024x56 S56x1024 S1024x1024 where
  lhsContracting := [1]
  rhsContracting := [0]
  lhsNonContracting := [0]
  rhsNonContracting := [1]
  lhsBatch := []
  rhsBatch := []
  wf := dot_S1024x56_S56x1024_S1024x1024_1_0_0_1_n_n_wf
def dot_S1024x1024_S1024x704_S1024x704_1_0_0_1_n_n : DotDims S1024x1024 S1024x704 S1024x704 where
  lhsContracting := [1]
  rhsContracting := [0]
  lhsNonContracting := [0]
  rhsNonContracting := [1]
  lhsBatch := []
  rhsBatch := []
  wf := dot_S1024x1024_S1024x704_S1024x704_1_0_0_1_n_n_wf
def dot_S720896x32_S32x3_S720896x3_1_0_0_1_n_n : DotDims S720896x32 S32x3 S720896x3 where
  lhsContracting := [1]
  rhsContracting := [0]
  lhsNonContracting := [0]
  rhsNonContracting := [1]
  lhsBatch := []
  rhsBatch := []
  wf := dot_S720896x32_S32x3_S720896x3_1_0_0_1_n_n_wf

abbrev win0_0 : Pipeline.Window sig grid0 :=
  Pipeline.Window.ofSpec (Memref.whole main_v47) S1024x704.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S704x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024x56.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x56.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S1024x56.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x56.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S56x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S1024x704.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S1x704.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v55_0) S1024x56.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v55_1) S1024x56.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v55_2) S1024x56.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v55_3) S1024x704.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S720896x3 : Shape := ⟨2, ![720896, 3]⟩
abbrev S2x1376256 : Shape := ⟨2, ![2, 1376256]⟩
abbrev S32768x56 : Shape := ⟨2, ![32768, 56]⟩
abbrev S3x32 : Shape := ⟨2, ![3, 32]⟩
abbrev S32 : Shape := ⟨1, ![32]⟩
abbrev S704x1024 : Shape := ⟨2, ![704, 1024]⟩
abbrev S1024 : Shape := ⟨1, ![1024]⟩
abbrev S1024x56 : Shape := ⟨2, ![1024, 56]⟩
abbrev S56 : Shape := ⟨1, ![56]⟩
abbrev S56x1024 : Shape := ⟨2, ![56, 1024]⟩
abbrev S1024x704 : Shape := ⟨2, ![1024, 704]⟩
abbrev S704 : Shape := ⟨1, ![704]⟩
abbrev S32x3 : Shape := ⟨2, ![32, 3]⟩
abbrev S3 : Shape := ⟨1, ![3]⟩
abbrev S1x1376256 : Shape := ⟨2, ![1, 1376256]⟩
abbrev S1376256 : Shape := ⟨1, ![1376256]⟩
abbrev S720896x32 : Shape := ⟨2, ![720896, 32]⟩
abbrev S720896 : Shape := ⟨1, ![720896]⟩
abbrev S2097152 : Shape := ⟨1, ![2097152]⟩
abbrev S_ : Shape := ⟨0, ![]⟩
abbrev S2097152x1 : Shape := ⟨2, ![2097152, 1]⟩
abbrev S2097152x32 : Shape := ⟨2, ![2097152, 32]⟩
abbrev S1x32 : Shape := ⟨2, ![1, 32]⟩
abbrev S32768x704 : Shape := ⟨2, ![32768, 704]⟩
abbrev S32768x1024 : Shape := ⟨2, ![32768, 1024]⟩
abbrev S1x1024 : Shape := ⟨2, ![1, 1024]⟩
abbrev S1x56 : Shape := ⟨2, ![1, 56]⟩
abbrev S1x704 : Shape := ⟨2, ![1, 704]⟩
abbrev S2097152x3 : Shape := ⟨2, ![2097152, 3]⟩
abbrev S1x3 : Shape := ⟨2, ![1, 3]⟩

abbrev nBuf : Space → Nat
  | .hbm => 170
  | .vmem => 0
  | .smem => 0
  | _ => 0

abbrev hbmTy0_0 (i : Nat) : BufTy := match i % 128 with
  | 0 => ⟨S720896x3, .f32⟩
  | 1 => ⟨S2x1376256, .i32⟩
  | 2 => ⟨S32768x56, .f32⟩
  | 3 => ⟨S3x32, .f32⟩
  | 4 => ⟨S32, .f32⟩
  | 5 => ⟨S704x1024, .f32⟩
  | 6 => ⟨S1024, .f32⟩
  | 7 => ⟨S1024x56, .f32⟩
  | 8 => ⟨S56, .f32⟩
  | 9 => ⟨S1024x56, .f32⟩
  | 10 => ⟨S56, .f32⟩
  | 11 => ⟨S56x1024, .f32⟩
  | 12 => ⟨S1024, .f32⟩
  | 13 => ⟨S1024x704, .f32⟩
  | 14 => ⟨S704, .f32⟩
  | 15 => ⟨S32x3, .f32⟩
  | 16 => ⟨S3, .f32⟩
  | 17 => ⟨S1x1376256, .i32⟩
  | 18 => ⟨S1376256, .i32⟩
  | 19 => ⟨S1x1376256, .i32⟩
  | 20 => ⟨S1376256, .i32⟩
  | 21 => ⟨S720896x32, .f32⟩
  | 22 => ⟨S720896, .i32⟩
  | 23 => ⟨S2097152, .i32⟩
  | 24 => ⟨S2097152, .i32⟩
  | 25 => ⟨S_, .f32⟩
  | 26 => ⟨S2097152, .f32⟩
  | 27 => ⟨S_, .f32⟩
  | 28 => ⟨S720896, .f32⟩
  | 29 => ⟨S2097152x1, .i32⟩
  | 30 => ⟨S720896, .f32⟩
  | 31 => ⟨S_, .f32⟩
  | 32 => ⟨S720896, .f32⟩
  | 33 => ⟨S720896, .i1⟩
  | 34 => ⟨S720896, .f32⟩
  | 35 => ⟨S_, .f32⟩
  | 36 => ⟨S_, .f32⟩
  | 37 => ⟨S720896, .f32⟩
  | 38 => ⟨S720896, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152, .f32⟩
  | 48 => ⟨S_, .i32⟩
  | 49 => ⟨S2097152, .i32⟩
  | 50 => ⟨S2097152, .i1⟩
  | 51 => ⟨S_, .i32⟩
  | 52 => ⟨S2097152, .i32⟩
  | 53 => ⟨S2097152, .i32⟩
  | 54 => ⟨S2097152, .i32⟩
  | 55 => ⟨S2097152x1, .i32⟩
  | 56 => ⟨S2097152, .f32⟩
  | 57 => ⟨S2097152, .f32⟩
  | 58 => ⟨S_, .i32⟩
  | 59 => ⟨S2097152, .i32⟩
  | 60 => ⟨S2097152, .i1⟩
  | 61 => ⟨S_, .i32⟩
  | 62 => ⟨S2097152, .i32⟩
  | 63 => ⟨S2097152, .i32⟩
  | 64 => ⟨S2097152, .i32⟩
  | 65 => ⟨S2097152x1, .i32⟩
  | 66 => ⟨S2097152x32, .f32⟩
  | 67 => ⟨S2097152x1, .f32⟩
  | 68 => ⟨S2097152x32, .f32⟩
  | 69 => ⟨S2097152x32, .f32⟩
  | 70 => ⟨S_, .f32⟩
  | 71 => ⟨S720896x32, .f32⟩
  | 72 => ⟨S2097152x1, .i32⟩
  | 73 => ⟨S720896x32, .f32⟩
  | 74 => ⟨S1x32, .f32⟩
  | 75 => ⟨S720896x32, .f32⟩
  | 76 => ⟨S720896x32, .f32⟩
  | 77 => ⟨S32768x704, .f32⟩
  | 78 => ⟨S32768x1024, .f32⟩
  | 79 => ⟨S1x1024, .f32⟩
  | 80 => ⟨S32768x1024, .f32⟩
  | 81 => ⟨S32768x1024, .f32⟩
  | 82 => ⟨S_, .f32⟩
  | 83 => ⟨S32768x1024, .f32⟩
  | 84 => ⟨S32768x1024, .f32⟩
  | 85 => ⟨S32768x56, .f32⟩
  | 86 => ⟨S1x56, .f32⟩
  | 87 => ⟨S32768x56, .f32⟩
  | 88 => ⟨S32768x56, .f32⟩
  | 89 => ⟨S32768x56, .f32⟩
  | 90 => ⟨S1x56, .f32⟩
  | 91 => ⟨S32768x56, .f32⟩
  | 92 => ⟨S32768x56, .f32⟩
  | 93 => ⟨S_, .f32⟩
  | 94 => ⟨S32768x56, .f32⟩
  | 95 => ⟨S32768x56, .f32⟩
  | 96 => ⟨S32768x56, .f32⟩
  | 97 => ⟨S32768x56, .f32⟩
  | 98 => ⟨S32768x56, .f32⟩
  | 99 => ⟨S32768x1024, .f32⟩
  | 100 => ⟨S1x1024, .f32⟩
  | 101 => ⟨S32768x1024, .f32⟩
  | 102 => ⟨S32768x1024, .f32⟩
  | 103 => ⟨S_, .f32⟩
  | 104 => ⟨S32768x1024, .f32⟩
  | 105 => ⟨S32768x1024, .f32⟩
  | 106 => ⟨S32768x704, .f32⟩
  | 107 => ⟨S1x704, .f32⟩
  | 108 => ⟨S32768x704, .f32⟩
  | 109 => ⟨S32768x704, .f32⟩
  | 110 => ⟨S_, .f32⟩
  | 111 => ⟨S32768x704, .f32⟩
  | 112 => ⟨S32768x704, .f32⟩
  | 113 => ⟨S720896x32, .f32⟩
  | 114 => ⟨S720896x3, .f32⟩
  | 115 => ⟨S720896, .i32⟩
  | 116 => ⟨S2097152, .i32⟩
  | 117 => ⟨S2097152, .i32⟩
  | 118 => ⟨S_, .f32⟩
  | 119 => ⟨S2097152, .f32⟩
  | 120 => ⟨S_, .f32⟩
  | 121 => ⟨S720896, .f32⟩
  | 122 => ⟨S2097152x1, .i32⟩
  | 123 => ⟨S720896, .f32⟩
  | 124 => ⟨S_, .f32⟩
  | 125 => ⟨S720896, .f32⟩
  | 126 => ⟨S720896, .i1⟩
  | 127 => ⟨S720896, .f32⟩
  | _ => ⟨S720896x3, .f32⟩

abbrev hbmTy0_1 (i : Nat) : BufTy := match i % 128 with
  | 0 => ⟨S_, .f32⟩
  | 1 => ⟨S_, .f32⟩
  | 2 => ⟨S720896, .f32⟩
  | 3 => ⟨S720896, .f32⟩
  | 4 => ⟨S_, .i32⟩
  | 5 => ⟨S2097152, .i32⟩
  | 6 => ⟨S2097152, .i1⟩
  | 7 => ⟨S_, .i32⟩
  | 8 => ⟨S2097152, .i32⟩
  | 9 => ⟨S2097152, .i32⟩
  | 10 => ⟨S2097152, .i32⟩
  | 11 => ⟨S2097152x1, .i32⟩
  | 12 => ⟨S2097152, .f32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S2097152x1, .i32⟩
  | 21 => ⟨S2097152, .f32⟩
  | 22 => ⟨S2097152, .f32⟩
  | 23 => ⟨S_, .i32⟩
  | 24 => ⟨S2097152, .i32⟩
  | 25 => ⟨S2097152, .i1⟩
  | 26 => ⟨S_, .i32⟩
  | 27 => ⟨S2097152, .i32⟩
  | 28 => ⟨S2097152, .i32⟩
  | 29 => ⟨S2097152, .i32⟩
  | 30 => ⟨S2097152x1, .i32⟩
  | 31 => ⟨S2097152x3, .f32⟩
  | 32 => ⟨S2097152x1, .f32⟩
  | 33 => ⟨S2097152x3, .f32⟩
  | 34 => ⟨S2097152x3, .f32⟩
  | 35 => ⟨S_, .f32⟩
  | 36 => ⟨S720896x3, .f32⟩
  | 37 => ⟨S2097152x1, .i32⟩
  | 38 => ⟨S720896x3, .f32⟩
  | 39 => ⟨S1x3, .f32⟩
  | 40 => ⟨S720896x3, .f32⟩
  | 41 => ⟨S720896x3, .f32⟩
  | _ => ⟨S720896x3, .f32⟩

abbrev hbmTy (i : Nat) : BufTy := match i / 128 with
  | 0 => hbmTy0_0 i
  | 1 => hbmTy0_1 i
  | _ => ⟨S720896x3, .f32⟩

abbrev bufTy : (tb : Table) → Fin (tcTables nBuf tb) → BufTy
  | .hbm, ⟨i, _⟩ => hbmTy i
  | _, _ => ⟨S720896x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_cst : Ref sig .tc := ⟨.hbm, 82, rfl⟩
abbrev main_call1_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call2_cst : Ref sig .tc := ⟨.hbm, 103, rfl⟩
abbrev main_call2_v0 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_cst : Ref sig .tc := ⟨.hbm, 110, rfl⟩
abbrev main_call3_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_10 : Ref sig .tc := ⟨.hbm, 118, rfl⟩
abbrev main_v81 : Ref sig .tc := ⟨.hbm, 119, rfl⟩
abbrev main_cst_11 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_12 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_13 : Ref sig .tc := ⟨.hbm, 128, rfl⟩
abbrev main_call4_v0 : Ref sig .tc := ⟨.hbm, 129, rfl⟩
abbrev main_call4_v1 : Ref sig .tc := ⟨.hbm, 130, rfl⟩
abbrev main_v88 : Ref sig .tc := ⟨.hbm, 131, rfl⟩
abbrev main_c_14 : Ref sig .tc := ⟨.hbm, 132, rfl⟩
abbrev main_v89 : Ref sig .tc := ⟨.hbm, 133, rfl⟩
abbrev main_v90 : Ref sig .tc := ⟨.hbm, 134, rfl⟩
abbrev main_c_15 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_16 : Ref sig .tc := ⟨.hbm, 141, rfl⟩
abbrev main_v96 : Ref sig .tc := ⟨.hbm, 142, rfl⟩
abbrev main_v97 : Ref sig .tc := ⟨.hbm, 143, rfl⟩
abbrev main_c_17 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_18 : Ref sig .tc := ⟨.hbm, 151, rfl⟩
abbrev main_v104 : Ref sig .tc := ⟨.hbm, 152, rfl⟩
abbrev main_v105 : Ref sig .tc := ⟨.hbm, 153, rfl⟩
abbrev main_c_19 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_20 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩

abbrev nD : Nat := 1
abbrev τ : Topo := Topo.v7x

variable {F : FTy → Type} [FloatOps F]

class Facts₀ : Prop where
  slices_S2x1376256_S1x1376256_0_0 : S2x1376256.Slices ![0, 0] S1x1376256
  shapeCasts_S1x1376256_S1376256 : S1x1376256.ShapeCasts S1376256
  slices_S2x1376256_S1x1376256_1_0 : S2x1376256.Slices ![1, 0] S1x1376256
  concatenates_S1376256_S720896_S2097152_d0 : Shape.Concatenates [S1376256, S720896] S2097152 0
  bcast_S_S2097152 : S_.BroadcastsInDim S2097152 (![] : Fin 0 → Fin S2097152.rank)
  bcast_S_S720896 : S_.BroadcastsInDim S720896 (![] : Fin 0 → Fin S720896.rank)
  bcast_S2097152_S2097152x1_0 : S2097152.BroadcastsInDim S2097152x1 (![0] : Fin 1 → Fin S2097152x1.rank)
  bcast_S2097152x1_S2097152x32_0_1 : S2097152x1.BroadcastsInDim S2097152x32 (![0, 1] : Fin 2 → Fin S2097152x32.rank)
  bcast_S_S720896x32 : S_.BroadcastsInDim S720896x32 (![] : Fin 0 → Fin S720896x32.rank)
  bcast_S32_S1x32_1 : S32.BroadcastsInDim S1x32 (![1] : Fin 1 → Fin S1x32.rank)
  bcast_S1x32_S720896x32_0_1 : S1x32.BroadcastsInDim S720896x32 (![0, 1] : Fin 2 → Fin S720896x32.rank)
  shapeCasts_S720896x32_S32768x704 : S720896x32.ShapeCasts S32768x704
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S56_S1x56_1 : S56.BroadcastsInDim S1x56 (![1] : Fin 1 → Fin S1x56.rank)
  bcast_S1x56_S32768x56_0_1 : S1x56.BroadcastsInDim S32768x56 (![0, 1] : Fin 2 → Fin S32768x56.rank)
  bcast_S_S32768x56 : S_.BroadcastsInDim S32768x56 (![] : Fin 0 → Fin S32768x56.rank)
  bcast_S704_S1x704_1 : S704.BroadcastsInDim S1x704 (![1] : Fin 1 → Fin S1x704.rank)
  bcast_S1x704_S32768x704_0_1 : S1x704.BroadcastsInDim S32768x704 (![0, 1] : Fin 2 → Fin S32768x704.rank)
  bcast_S_S32768x704 : S_.BroadcastsInDim S32768x704 (![] : Fin 0 → Fin S32768x704.rank)
  shapeCasts_S32768x704_S720896x32 : S32768x704.ShapeCasts S720896x32
  bcast_S2097152x1_S2097152x3_0_1 : S2097152x1.BroadcastsInDim S2097152x3 (![0, 1] : Fin 2 → Fin S2097152x3.rank)
  bcast_S_S720896x3 : S_.BroadcastsInDim S720896x3 (![] : Fin 0 → Fin S720896x3.rank)
  bcast_S3_S1x3_1 : S3.BroadcastsInDim S1x3 (![1] : Fin 1 → Fin S1x3.rank)
  bcast_S1x3_S720896x3_0_1 : S1x3.BroadcastsInDim S720896x3 (![0, 1] : Fin 2 → Fin S720896x3.rank)
  dot_S720896x3_S3x32_S720896x32_1_0_0_1_n_n_wf : DotDims.WF S720896x3 S3x32 S720896x32 [1] [0] [0] [1] [] []
  scatter_S720896_S2097152x1_S2097152_n_0_0_1_wf : ScatterDims.WF S720896 S2097152x1 S2097152 [] [0] [0] 1
  gather_S720896_S2097152x1_S2097152_n_0_n_n_0_1_1_wf : GatherDims.WF S720896 S2097152x1 S2097152 [] [0] [] [0] [] 1 ![1]
  gather_S720896x32_S2097152x1_S2097152x32_1_0_n_n_0_1_132_wf : GatherDims.WF S720896x32 S2097152x1 S2097152x32 [1] [0] [] [0] [] 1 ![1, 32]
  scatter_S720896x32_S2097152x1_S2097152x32_1_0_0_1_wf : ScatterDims.WF S720896x32 S2097152x1 S2097152x32 [1] [0] [0] 1
  dot_S32768x704_S704x1024_S32768x1024_1_0_0_1_n_n_wf : DotDims.WF S32768x704 S704x1024 S32768x1024 [1] [0] [0] [1] [] []
  dot_S32768x1024_S1024x56_S32768x56_1_0_0_1_n_n_wf : DotDims.WF S32768x1024 S1024x56 S32768x56 [1] [0] [0] [1] [] []
  dot_S32768x56_S56x1024_S32768x1024_1_0_0_1_n_n_wf : DotDims.WF S32768x56 S56x1024 S32768x1024 [1] [0] [0] [1] [] []
  dot_S32768x1024_S1024x704_S32768x704_1_0_0_1_n_n_wf : DotDims.WF S32768x1024 S1024x704 S32768x704 [1] [0] [0] [1] [] []
  dot_S720896x32_S32x3_S720896x3_1_0_0_1_n_n_wf : DotDims.WF S720896x32 S32x3 S720896x3 [1] [0] [0] [1] [] []
  gather_S720896x3_S2097152x1_S2097152x3_1_0_n_n_0_1_13_wf : GatherDims.WF S720896x3 S2097152x1 S2097152x3 [1] [0] [] [0] [] 1 ![1, 3]
  scatter_S720896x3_S2097152x1_S2097152x3_1_0_0_1_wf : ScatterDims.WF S720896x3 S2097152x1 S2097152x3 [1] [0] [0] 1

variable [Facts₀]

def dot_S720896x3_S3x32_S720896x32_1_0_0_1_n_n : DotDims S720896x3 S3x32 S720896x32 where
  lhsContracting := [1]
  rhsContracting := [0]
  lhsNonContracting := [0]
  rhsNonContracting := [1]
  lhsBatch := []
  rhsBatch := []
  wf := dot_S720896x3_S3x32_S720896x32_1_0_0_1_n_n_wf
def scatter_S720896_S2097152x1_S2097152_n_0_0_1 : ScatterDims S720896 S2097152x1 S2097152 where
  updateWindowDims := []
  insertedWindowDims := [0]
  scatterDimsToOperandDims := [0]
  indexVectorDim := 1
  wf := scatter_S720896_S2097152x1_S2097152_n_0_0_1_wf
def gather_S720896_S2097152x1_S2097152_n_0_n_n_0_1_1 : GatherDims S720896 S2097152x1 S2097152 where
  offsetDims := []
  collapsedSliceDims := [0]
  operandBatchingDims := []
  startIndicesBatchingDims := []
  startIndexMap := [0]
  indexVectorDim := 1
  sliceSizes := ![1]
  wf := gather_S720896_S2097152x1_S2097152_n_0_n_n_0_1_1_wf
def gather_S720896x32_S2097152x1_S2097152x32_1_0_n_n_0_1_132 : GatherDims S720896x32 S2097152x1 S2097152x32 where
  offsetDims := [1]
  collapsedSliceDims := [0]
  operandBatchingDims := []
  startIndicesBatchingDims := []
  startIndexMap := [0]
  indexVectorDim := 1
  sliceSizes := ![1, 32]
  wf := gather_S720896x32_S2097152x1_S2097152x32_1_0_n_n_0_1_132_wf
def scatter_S720896x32_S2097152x1_S2097152x32_1_0_0_1 : ScatterDims S720896x32 S2097152x1 S2097152x32 where
  updateWindowDims := [1]
  insertedWindowDims := [0]
  scatterDimsToOperandDims := [0]
  indexVectorDim := 1
  wf := scatter_S720896x32_S2097152x1_S2097152x32_1_0_0_1_wf
def dot_S32768x704_S704x1024_S32768x1024_1_0_0_1_n_n : DotDims S32768x704 S704x1024 S32768x1024 where
  lhsContracting := [1]
  rhsContracting := [0]
  lhsNonContracting := [0]
  rhsNonContracting := [1]
  lhsBatch := []
  rhsBatch := []
  wf := dot_S32768x704_S704x1024_S32768x1024_1_0_0_1_n_n_wf
def dot_S32768x1024_S1024x56_S32768x56_1_0_0_1_n_n : DotDims S32768x1024 S1024x56 S32768x56 where
  lhsContracting := [1]
  rhsContracting := [0]
  lhsNonContracting := [0]
  rhsNonContracting := [1]
  lhsBatch := []
  rhsBatch := []
  wf := dot_S32768x1024_S1024x56_S32768x56_1_0_0_1_n_n_wf
def dot_S32768x56_S56x1024_S32768x1024_1_0_0_1_n_n : DotDims S32768x56 S56x1024 S32768x1024 where
  lhsContracting := [1]
  rhsContracting := [0]
  lhsNonContracting := [0]
  rhsNonContracting := [1]
  lhsBatch := []
  rhsBatch := []
  wf := dot_S32768x56_S56x1024_S32768x1024_1_0_0_1_n_n_wf
def dot_S32768x1024_S1024x704_S32768x704_1_0_0_1_n_n : DotDims S32768x1024 S1024x704 S32768x704 where
  lhsContracting := [1]
  rhsContracting := [0]
  lhsNonContracting := [0]
  rhsNonContracting := [1]
  lhsBatch := []
  rhsBatch := []
  wf := dot_S32768x1024_S1024x704_S32768x704_1_0_0_1_n_n_wf
def dot_S720896x32_S32x3_S720896x3_1_0_0_1_n_n : DotDims S720896x32 S32x3 S720896x3 where
  lhsContracting := [1]
  rhsContracting := [0]
  lhsNonContracting := [0]
  rhsNonContracting := [1]
  lhsBatch := []
  rhsBatch := []
  wf := dot_S720896x32_S32x3_S720896x3_1_0_0_1_n_n_wf
def gather_S720896x3_S2097152x1_S2097152x3_1_0_n_n_0_1_13 : GatherDims S720896x3 S2097152x1 S2097152x3 where
  offsetDims := [1]
  collapsedSliceDims := [0]
  operandBatchingDims := []
  startIndicesBatchingDims := []
  startIndexMap := [0]
  indexVectorDim := 1
  sliceSizes := ![1, 3]
  wf := gather_S720896x3_S2097152x1_S2097152x3_1_0_n_n_0_1_13_wf
def scatter_S720896x3_S2097152x1_S2097152x3_1_0_0_1 : ScatterDims S720896x3 S2097152x1 S2097152x3 where
  updateWindowDims := [1]
  insertedWindowDims := [0]
  scatterDimsToOperandDims := [0]
  indexVectorDim := 1
  wf := scatter_S720896x3_S2097152x1_S2097152x3_1_0_0_1_wf

class Facts : Prop extends Facts₀ where

variable [Facts]
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.MlpRow.lean ====
/-
  The encoder–decoder on ONE row of the batch, on the extended reals.

  Every layer between the two graph layers acts on each row of the batch by itself. For a row h (704 features) and its
  noise row ε (56 entries):

      e   = relu (h · W_e1 + b_e1)                      (1024)
      μ   = e · W_μ + b_μ                               (56)
      λ   = e · W_λ + b_λ                               (56)      (the log-variance)
      z   = μ + ε · exp (½ · λ)                         (56)
      d₁  = relu (z · W_d1 + b_d1)                      (1024)
      d₂  = relu (d₁ · W_d2 + b_d2)                     (704)

  relu a = max a 0 and ½ are kept as the words the programs print them with (the same two words on both sides, so
  neither is ever evaluated). These are definitions only: the two programs are each shown to compute exactly these
  functions, row by row, so no law of arithmetic on the extended reals is needed between the graph layers.
-/
import proofs.«122469_j14886356648528_2_alg».proof.Proof.LibDenseRow

noncomputable section

open scoped BigOperators

namespace Cert.MlpRow

open Idealize.ShloMosaic Cert.LibDenseRow

/-- `max a 0`, the zero spelt as the programs spell it. -/
def relu (a : EReal) : EReal := max a (Ideal.ofBits .f32 0x00000000#32)

/-- One half, as the programs spell it. -/
def half : EReal := Ideal.ofBits .f32 0x3F000000#32

/-- The weights and biases of the five layers, read by coordinates. -/
structure Weights where
  We1 : Fin 704 → Fin 1024 → EReal
  be1 : Fin 1024 → EReal
  Wmu : Fin 1024 → Fin 56 → EReal
  bmu : Fin 56 → EReal
  Wlv : Fin 1024 → Fin 56 → EReal
  blv : Fin 56 → EReal
  Wd1 : Fin 56 → Fin 1024 → EReal
  bd1 : Fin 1024 → EReal
  Wd2 : Fin 1024 → Fin 704 → EReal
  bd2 : Fin 704 → EReal

variable (P : Weights)

/-- The encoder's hidden row. -/
def hidden (h : Fin 704 → EReal) (j : Fin 1024) : EReal := relu (affine h P.We1 P.be1 j)
/-- The mean of the latent row. -/
def mean (h : Fin 704 → EReal) (l : Fin 56) : EReal := affine (hidden P h) P.Wmu P.bmu l
/-- Its log-variance. -/
def logvar (h : Fin 704 → EReal) (l : Fin 56) : EReal := affine (hidden P h) P.Wlv P.blv l
/-- The sampled latent row: mean plus noise times the standard deviation. -/
def latent (h : Fin 704 → EReal) (ep : Fin 56 → EReal) (l : Fin 56) : EReal :=
  mean P h l + ep l * Ideal.exp (half * logvar P h l)
/-- The decoder's hidden row. -/
def decHidden (h : Fin 704 → EReal) (ep : Fin 56 → EReal) (j : Fin 1024) : EReal :=
  relu (affine (latent P h ep) P.Wd1 P.bd1 j)
/-- The decoded row. -/
def decoded (h : Fin 704 → EReal) (ep : Fin 56 → EReal) (k : Fin 704) : EReal :=
  relu (affine (decHidden P h ep) P.Wd2 P.bd2 k)

end Cert.MlpRow

end
-- ==== Proof.MlpBlock.lean ====
/-
  The kernel body's four stores, read at an entry.

  At a grid point the body holds a block of 1024 rows of the features (and of the noise) and the whole of every weight
  matrix and bias row. Each value it stores is, at entry (p, q), the encoder–decoder's row function (MlpRow) of row p
  of the feature block alone: the mean, the log-variance, the latent and the decoded row. The weights enter through
  their coordinates only (`P` with one hypothesis per array), so the same lemmas serve whatever arrays the loaded
  blocks turn out to be. A matrix product into a zero accumulator is a plain sum over the shared axis, a bias row
  broadcast down the rows reads its column, and a change of float format is the identity on the extended reals; no
  law of arithmetic is used.
-/
import proofs.«122469_j14886356648528_2_alg».proof.Proof.Gen.KernelIdeal.Skeleton
import proofs.«122469_j14886356648528_2_alg».proof.Proof.MlpRow

noncomputable section

open scoped BigOperators

namespace Cert.KernelIdeal.MlpBlock

open Idealize.ShloMosaic Idealize.ShloMosaic.ValueIdx Cert.KernelIdeal Cert.KernelIdeal.Gen Cert.LibDenseRow Cert.MlpRow

variable (P : Weights)

/-- The encoder's hidden block: relu of the feature block times the first weight matrix plus its bias row. -/
theorem hidden_apply (v0 : Vec Ideal S1024x704 .f32) (v3 : Vec Ideal S704x1024 .bf16) (v6 : Vec Ideal S1x1024 .f32)
    (hW : ∀ k j, v3 (ix2 k j) = P.We1 k j) (hb : ∀ j, v6 (ix2 0 j) = P.be1 j) (p : Fin 1024) (j : Fin 1024) :
    k0_pay2 (F := Ideal) v0 v3 v6 (ix2 p j) = MlpRow.hidden P (fun k => v0 (ix2 p k)) j := by
  unfold k0_pay2 MlpRow.hidden relu affine
  try dsimp only
  simp only [shapeCast_self]
  show max (matmul (F := Ideal) (φ₁ := .bf16) (φ₂ := .bf16) dot_S1024x704_S704x1024_S1024x1024_1_0_0_1_n_n none (truncf .bf16 v0 bitsLt_bf16_f32) v3
        (constant S1024x1024 .f32 0x00000000#32) (ix2 p j)
      + broadcastTo S1024x1024 v6 broadcasts_S1x1024_S1024x1024 (ix2 p j)) (Ideal.ofBits .f32 0x00000000#32) = _
  rw [show matmul (F := Ideal) (φ₁ := .bf16) (φ₂ := .bf16) dot_S1024x704_S704x1024_S1024x1024_1_0_0_1_n_n none (truncf .bf16 v0 bitsLt_bf16_f32) v3
        (constant S1024x1024 .f32 0x00000000#32) (ix2 p j) = ∑ k : Fin 704, v0 (ix2 p k) * v3 (ix2 k j)
      from matmul_zero_apply 1024 704 1024 none _ _ p j,
    biasRow_apply 1024 1024 v6 _ p j]
  simp only [hW, hb]

/-- A 56-wide head on the hidden block: the hidden block times a weight matrix plus a bias row. -/
theorem head_apply (v0 : Vec Ideal S1024x704 .f32) (v3 : Vec Ideal S704x1024 .bf16) (v6 : Vec Ideal S1x1024 .f32)
    (hW : ∀ k j, v3 (ix2 k j) = P.We1 k j) (hb : ∀ j, v6 (ix2 0 j) = P.be1 j)
    (w : Vec Ideal S1024x56 .f32) (b : Vec Ideal S1x56 .f32) (p : Fin 1024) (l : Fin 56) :
    addf (matmul (F := Ideal) (φ₁ := .f32) (φ₂ := .f32) dot_S1024x1024_S1024x56_S1024x56_1_0_0_1_n_n none (k0_pay2 (F := Ideal) v0 v3 v6) w
        (constant S1024x56 .f32 0x00000000#32)) (broadcastTo S1024x56 b broadcasts_S1x56_S1024x56) (ix2 p l)
      = affine (MlpRow.hidden P (fun k => v0 (ix2 p k))) (fun j l => w (ix2 j l)) (fun l => b (ix2 0 l)) l := by
  unfold affine
  show matmul (F := Ideal) (φ₁ := .f32) (φ₂ := .f32) dot_S1024x1024_S1024x56_S1024x56_1_0_0_1_n_n none (k0_pay2 (F := Ideal) v0 v3 v6) w
        (constant S1024x56 .f32 0x00000000#32) (ix2 p l) + broadcastTo S1024x56 b broadcasts_S1x56_S1024x56 (ix2 p l) = _
  rw [show matmul (F := Ideal) (φ₁ := .f32) (φ₂ := .f32) dot_S1024x1024_S1024x56_S1024x56_1_0_0_1_n_n none (k0_pay2 (F := Ideal) v0 v3 v6) w
        (constant S1024x56 .f32 0x00000000#32) (ix2 p l) = ∑ j : Fin 1024, k0_pay2 (F := Ideal) v0 v3 v6 (ix2 p j) * w (ix2 j l)
      from matmul_zero_apply 1024 1024 56 none _ _ p l,
    biasRow_apply 1024 56 b _ p l]
  simp only [hidden_apply P v0 v3 v6 hW hb p]

/-- The stored mean. -/
theorem mean_apply (v0 : Vec Ideal S1024x704 .f32) (v3 : Vec Ideal S704x1024 .bf16) (v6 : Vec Ideal S1x1024 .f32)
    (v12 : Vec Ideal S1024x56 .f32) (v14 : Vec Ideal S1x56 .f32)
    (hW : ∀ k j, v3 (ix2 k j) = P.We1 k j) (hb : ∀ j, v6 (ix2 0 j) = P.be1 j)
    (hWmu : ∀ j l, v12 (ix2 j l) = P.Wmu j l) (hbmu : ∀ l, v14 (ix2 0 l) = P.bmu l) (p : Fin 1024) (l : Fin 56) :
    k0_pay3 (F := Ideal) v0 v3 v6 v12 v14 (ix2 p l) = mean P (fun k => v0 (ix2 p k)) l := by
  unfold k0_pay3 mean
  try dsimp only
  simp only [shapeCast_self]
  refine (head_apply P v0 v3 v6 hW hb v12 v14 p l).trans ?_
  simp only [hWmu, hbmu]

/-- The stored log-variance. -/
theorem logvar_apply (v0 : Vec Ideal S1024x704 .f32) (v3 : Vec Ideal S704x1024 .bf16) (v6 : Vec Ideal S1x1024 .f32)
    (v18 : Vec Ideal S1024x56 .f32) (v20 : Vec Ideal S1x56 .f32)
    (hW : ∀ k j, v3 (ix2 k j) = P.We1 k j) (hb : ∀ j, v6 (ix2 0 j) = P.be1 j)
    (hWlv : ∀ j l, v18 (ix2 j l) = P.Wlv j l) (hblv : ∀ l, v20 (ix2 0 l) = P.blv l) (p : Fin 1024) (l : Fin 56) :
    k0_pay4 (F := Ideal) v0 v3 v6 v18 v20 (ix2 p l) = logvar P (fun k => v0 (ix2 p k)) l := by
  unfold k0_pay4 logvar
  try dsimp only
  simp only [shapeCast_self]
  refine (head_apply P v0 v3 v6 hW hb v18 v20 p l).trans ?_
  simp only [hWlv, hblv]

/-- The stored latent: the mean plus the noise block times the exponential of half the log-variance. -/
theorem latent_apply (v0 : Vec Ideal S1024x704 .f32) (v3 : Vec Ideal S704x1024 .bf16) (v6 : Vec Ideal S1x1024 .f32)
    (v12 : Vec Ideal S1024x56 .f32) (v14 : Vec Ideal S1x56 .f32) (v18 : Vec Ideal S1024x56 .f32) (v20 : Vec Ideal S1x56 .f32)
    (v24 : Vec Ideal S1024x56 .f32)
    (hW : ∀ k j, v3 (ix2 k j) = P.We1 k j) (hb : ∀ j, v6 (ix2 0 j) = P.be1 j)
    (hWmu : ∀ j l, v12 (ix2 j l) = P.Wmu j l) (hbmu : ∀ l, v14 (ix2 0 l) = P.bmu l)
    (hWlv : ∀ j l, v18 (ix2 j l) = P.Wlv j l) (hblv : ∀ l, v20 (ix2 0 l) = P.blv l) (p : Fin 1024) (l : Fin 56) :
    k0_pay5 (F := Ideal) v0 v3 v6 v12 v14 v18 v20 v24 (ix2 p l)
      = latent P (fun k => v0 (ix2 p k)) (fun l => v24 (ix2 p l)) l := by
  unfold k0_pay5 latent half
  try dsimp only
  show k0_pay3 (F := Ideal) v0 v3 v6 v12 v14 (ix2 p l)
      + v24 (ix2 p l) * Ideal.exp (Ideal.ofBits .f32 0x3F000000#32 * k0_pay4 (F := Ideal) v0 v3 v6 v18 v20 (ix2 p l)) = _
  rw [mean_apply P v0 v3 v6 v12 v14 hW hb hWmu hbmu p l, logvar_apply P v0 v3 v6 v18 v20 hW hb hWlv hblv p l]

/-- The stored decoded block, from ANY pre-bias decoder hidden block `v31` that is, row by row, a row `z` times the
    decoder's first weight matrix. -/
theorem decoded_apply (z : Fin 56 → EReal) (v31 : FVec Ideal S1024x1024 .f32) (v32 : Vec Ideal S1x1024 .f32)
    (v39 : Vec Ideal S1024x704 .bf16) (v42 : Vec Ideal S1x704 .f32) (p : Fin 1024)
    (h31 : ∀ j, v31 (ix2 p j) = ∑ l, z l * P.Wd1 l j) (hbd1 : ∀ j, v32 (ix2 0 j) = P.bd1 j)
    (hWd2 : ∀ j k, v39 (ix2 j k) = P.Wd2 j k) (hbd2 : ∀ k, v42 (ix2 0 k) = P.bd2 k) (k : Fin 704) :
    k0_pay1 (F := Ideal) v31 v32 v39 v42 (ix2 p k)
      = relu (affine (fun j => relu (affine z P.Wd1 P.bd1 j)) P.Wd2 P.bd2 k) := by
  unfold k0_pay1 relu affine
  try dsimp only
  simp only [shapeCast_self]
  show max (matmul (F := Ideal) (φ₁ := .bf16) (φ₂ := .bf16) dot_S1024x1024_S1024x704_S1024x704_1_0_0_1_n_n none
        (truncf .bf16 (maximumf (addf v31 (broadcastTo S1024x1024 v32 broadcasts_S1x1024_S1024x1024))
          (broadcast S1024x1024 (Scalar.ofBits .f32 0x00000000#32))) bitsLt_bf16_f32) v39
        (constant S1024x704 .f32 0x00000000#32) (ix2 p k)
      + broadcastTo S1024x704 v42 broadcasts_S1x704_S1024x704 (ix2 p k)) (Ideal.ofBits .f32 0x00000000#32) = _
  rw [show matmul (F := Ideal) (φ₁ := .bf16) (φ₂ := .bf16) dot_S1024x1024_S1024x704_S1024x704_1_0_0_1_n_n none
        (truncf .bf16 (maximumf (addf v31 (broadcastTo S1024x1024 v32 broadcasts_S1x1024_S1024x1024))
          (broadcast S1024x1024 (Scalar.ofBits .f32 0x00000000#32))) bitsLt_bf16_f32) v39
        (constant S1024x704 .f32 0x00000000#32) (ix2 p k)
      = ∑ j : Fin 1024, max (v31 (ix2 p j) + broadcastTo S1024x1024 v32 broadcasts_S1x1024_S1024x1024 (ix2 p j))
          (Ideal.ofBits .f32 0x00000000#32) * v39 (ix2 j k)
      from matmul_zero_apply 1024 1024 704 none _ _ p k,
    biasRow_apply 1024 704 v42 _ p k]
  simp only [biasRow_apply 1024 1024 v32 _ p, h31, hbd1, hWd2, hbd2]

/-- The pre-bias decoder hidden block the body computes: the latent block times the decoder's first weight matrix. -/
theorem decHiddenPre_apply (v0 : Vec Ideal S1024x704 .f32) (v3 : Vec Ideal S704x1024 .bf16) (v6 : Vec Ideal S1x1024 .f32)
    (v12 : Vec Ideal S1024x56 .f32) (v14 : Vec Ideal S1x56 .f32) (v18 : Vec Ideal S1024x56 .f32) (v20 : Vec Ideal S1x56 .f32)
    (v24 : Vec Ideal S1024x56 .f32) (v30 : Vec Ideal S56x1024 .f32)
    (hW : ∀ k j, v3 (ix2 k j) = P.We1 k j) (hb : ∀ j, v6 (ix2 0 j) = P.be1 j)
    (hWmu : ∀ j l, v12 (ix2 j l) = P.Wmu j l) (hbmu : ∀ l, v14 (ix2 0 l) = P.bmu l)
    (hWlv : ∀ j l, v18 (ix2 j l) = P.Wlv j l) (hblv : ∀ l, v20 (ix2 0 l) = P.blv l)
    (hWd1 : ∀ l j, v30 (ix2 l j) = P.Wd1 l j) (p : Fin 1024) (j : Fin 1024) :
    k0_pay6 (F := Ideal) v0 v3 v6 v12 v14 v18 v20 v24 v30 (ix2 p j)
      = ∑ l, latent P (fun k => v0 (ix2 p k)) (fun l => v24 (ix2 p l)) l * P.Wd1 l j := by
  unfold k0_pay6
  try dsimp only
  rw [show matmul (F := Ideal) (φ₁ := .f32) (φ₂ := .f32) dot_S1024x56_S56x1024_S1024x1024_1_0_0_1_n_n none (k0_pay5 (F := Ideal) v0 v3 v6 v12 v14 v18 v20 v24) v30
        (constant S1024x1024 .f32 0x00000000#32) (ix2 p j)
      = ∑ l : Fin 56, k0_pay5 (F := Ideal) v0 v3 v6 v12 v14 v18 v20 v24 (ix2 p l) * v30 (ix2 l j)
      from matmul_zero_apply 1024 56 1024 none _ _ p j]
  simp only [latent_apply P v0 v3 v6 v12 v14 v18 v20 v24 hW hb hWmu hbmu hWlv hblv p, hWd1]

end Cert.KernelIdeal.MlpBlock

end
-- ==== Proof.MlpWhole.lean ====
/-
  The four arrays between the two graph layers, as whole-array functions.

  With H the [32768, 704] array of node features gathered by pose, E the [32768, 56] noise and P the layers' weights,
  row r of each result is the encoder–decoder's row function (MlpRow) of row r of H (and of E):

      mean(r, l) = mean_P(H r) l,   logvar(r, l) = logvar_P(H r) l,
      latent(r, l) = latent_P(H r, E r) l,   decoded(r, k) = decoded_P(H r, E r) k.

  Both programs are shown to leave exactly these arrays, so the four are stated once, over literal shapes.
-/
import proofs.«122469_j14886356648528_2_alg».proof.Proof.MlpRow
import Idealize.ShloMosaic.Lib.ValueIdx

noncomputable section

namespace Cert.MlpWhole

open Idealize.ShloMosaic Idealize.ShloMosaic.ValueIdx Cert.MlpRow

/-- An array of two axes from a function of its two coordinates. -/
def ofCoords {α : Type} {A B : Nat} (f : Fin A → Fin B → α) : (⟨2, ![A, B]⟩ : Shape).Idx → α :=
  fun i => f ⟨(i 0).val, idx2_lt0 i⟩ ⟨(i 1).val, idx2_lt1 i⟩

/-- It reads the function at the coordinates. -/
theorem ofCoords_ix2 {α : Type} {A B : Nat} (f : Fin A → Fin B → α) (a : Fin A) (b : Fin B) :
    ofCoords f (ix2 a b) = f a b := rfl

/-- Row `r` of a two-axis array. -/
abbrev rowOf {α : Type} {A B : Nat} (H : (⟨2, ![A, B]⟩ : Shape).Idx → α) (r : Fin A) : Fin B → α := fun k => H (ix2 r k)

variable (P : Weights) (H : (⟨2, ![32768, 704]⟩ : Shape).Idx → EReal) (E : (⟨2, ![32768, 56]⟩ : Shape).Idx → EReal)

/-- The mean array. -/
def meanArr : (⟨2, ![32768, 56]⟩ : Shape).Idx → EReal := ofCoords fun r l => mean P (rowOf H r) l
/-- The log-variance array. -/
def logvarArr : (⟨2, ![32768, 56]⟩ : Shape).Idx → EReal := ofCoords fun r l => logvar P (rowOf H r) l
/-- The latent array. -/
def latentArr : (⟨2, ![32768, 56]⟩ : Shape).Idx → EReal := ofCoords fun r l => latent P (rowOf H r) (rowOf E r) l
/-- The decoded array. -/
def decodedArr : (⟨2, ![32768, 704]⟩ : Shape).Idx → EReal := ofCoords fun r k => decoded P (rowOf H r) (rowOf E r) k

end Cert.MlpWhole

end
-- ==== Proof.KernelRegion.lean ====
/-
  What the kernel's region leaves in its four result arrays.

  The grid has 32 points; point t holds rows [1024·t, 1024·t + 1024) of the features and of the noise, the whole of each
  weight matrix and bias row, and writes back rows [1024·t, 1024·t + 1024) of each result. A block's entry (p, q) is the
  array's entry (1024·t + p, q), so by the body's stores read at an entry (MlpBlock) what point t writes back is block t
  of ONE whole-array function of the arrays the region finds (MlpWhole), and since the 32 blocks tile the array, each
  result array ends holding that function.
-/
import proofs.«122469_j14886356648528_2_alg».proof.Proof.Gen.KernelIdeal.Frame
import proofs.«122469_j14886356648528_2_alg».proof.Proof.MlpBlock
import proofs.«122469_j14886356648528_2_alg».proof.Proof.MlpWhole
import Idealize.ShloMosaic.Lib.Pipeline.Value

set_option maxRecDepth 16384

noncomputable section

open scoped BigOperators

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibDenseRow Cert.MlpRow Cert.MlpWhole Cert.KernelIdeal.MlpBlock

variable (m : (ℓ : Loc nD τ sig) → Buf (Elt Ideal) ℓ) (ρ : Dev nD → PrngReg)

/-- The offsets of a whole-block load or store are zero on both axes. -/
theorem zeros2 : (![0, 0] : Fin 2 → Nat) = fun _ => 0 := funext fun a => by fin_cases a <;> rfl

/-- The printed index maps of the six row-blocked windows, decided over the 32 points: at point t each is at block (t, 0). -/
theorem index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The printed index maps of the ten whole-array windows, decided over the 32 points: each is at block (0, 0). -/
theorem index_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- A point is below 32. -/
theorem point_lt (t : Fin cfg0.N) : t.val < 32 := t.isLt

/-- The array row that row `p` of point `t`'s block is. -/
def rowAt (t : Fin cfg0.N) (p : Fin 1024) : Fin 32768 := ⟨t.val * 1024 + p.val, by have := point_lt t; have := p.isLt; omega⟩

/-! ## The arrays the region finds

Each of the twelve arrays the region reads is named once and never opened again: what it holds is the business of the
host operations before the region, and nothing here depends on it. -/

/-- The array behind window 0, as the region finds it. -/
@[irreducible] def arr0 (c : Dev nD) : S32768x704.Idx → Elt Ideal .f32 := V m c (Pipeline.arrRef spec0 0)
theorem arr0_def (c : Dev nD) : arr0 m c = V m c (Pipeline.arrRef spec0 0) := by unfold arr0; rfl

/-- The array behind window 1, as the region finds it. -/
@[irreducible] def arr1 (c : Dev nD) : S32768x56.Idx → Elt Ideal .f32 := V m c (Pipeline.arrRef spec0 1)
theorem arr1_def (c : Dev nD) : arr1 m c = V m c (Pipeline.arrRef spec0 1) := by unfold arr1; rfl

/-- The array behind window 2, as the region finds it. -/
@[irreducible] def arr2 (c : Dev nD) : S704x1024.Idx → Elt Ideal .bf16 := V m c (Pipeline.arrRef spec0 2)
theorem arr2_def (c : Dev nD) : arr2 m c = V m c (Pipeline.arrRef spec0 2) := by unfold arr2; rfl

/-- The array behind window 3, as the region finds it. -/
@[irreducible] def arr3 (c : Dev nD) : S1x1024.Idx → Elt Ideal .f32 := V m c (Pipeline.arrRef spec0 3)
theorem arr3_def (c : Dev nD) : arr3 m c = V m c (Pipeline.arrRef spec0 3) := by unfold arr3; rfl

/-- The array behind window 4, as the region finds it. -/
@[irreducible] def arr4 (c : Dev nD) : S1024x56.Idx → Elt Ideal .f32 := V m c (Pipeline.arrRef spec0 4)
theorem arr4_def (c : Dev nD) : arr4 m c = V m c (Pipeline.arrRef spec0 4) := by unfold arr4; rfl

/-- The array behind window 5, as the region finds it. -/
@[irreducible] def arr5 (c : Dev nD) : S1x56.Idx → Elt Ideal .f32 := V m c (Pipeline.arrRef spec0 5)
theorem arr5_def (c : Dev nD) : arr5 m c = V m c (Pipeline.arrRef spec0 5) := by unfold arr5; rfl

/-- The array behind window 6, as the region finds it. -/
@[irreducible] def arr6 (c : Dev nD) : S1024x56.Idx → Elt Ideal .f32 := V m c (Pipeline.arrRef spec0 6)
theorem arr6_def (c : Dev nD) : arr6 m c = V m c (Pipeline.arrRef spec0 6) := by unfold arr6; rfl

/-- The array behind window 7, as the region finds it. -/
@[irreducible] def arr7 (c : Dev nD) : S1x56.Idx → Elt Ideal .f32 := V m c (Pipeline.arrRef spec0 7)
theorem arr7_def (c : Dev nD) : arr7 m c = V m c (Pipeline.arrRef spec0 7) := by unfold arr7; rfl

/-- The array behind window 8, as the region finds it. -/
@[irreducible] def arr8 (c : Dev nD) : S56x1024.Idx → Elt Ideal .f32 := V m c (Pipeline.arrRef spec0 8)
theorem arr8_def (c : Dev nD) : arr8 m c = V m c (Pipeline.arrRef spec0 8) := by unfold arr8; rfl

/-- The array behind window 9, as the region finds it. -/
@[irreducible] def arr9 (c : Dev nD) : S1x1024.Idx → Elt Ideal .f32 := V m c (Pipeline.arrRef spec0 9)
theorem arr9_def (c : Dev nD) : arr9 m c = V m c (Pipeline.arrRef spec0 9) := by unfold arr9; rfl

/-- The array behind window 10, as the region finds it. -/
@[irreducible] def arr10 (c : Dev nD) : S1024x704.Idx → Elt Ideal .bf16 := V m c (Pipeline.arrRef spec0 10)
theorem arr10_def (c : Dev nD) : arr10 m c = V m c (Pipeline.arrRef spec0 10) := by unfold arr10; rfl

/-- The array behind window 11, as the region finds it. -/
@[irreducible] def arr11 (c : Dev nD) : S1x704.Idx → Elt Ideal .f32 := V m c (Pipeline.arrRef spec0 11)
theorem arr11_def (c : Dev nD) : arr11 m c = V m c (Pipeline.arrRef spec0 11) := by unfold arr11; rfl

/-- The layers' weights as the region finds them: the arrays behind the ten whole-array windows. -/
def regionWeights (c : Dev nD) : Weights where
  We1 k j := arr2 m c (ix2 k j)
  be1 j := arr3 m c (ix2 0 j)
  Wmu k j := arr4 m c (ix2 k j)
  bmu j := arr5 m c (ix2 0 j)
  Wlv k j := arr6 m c (ix2 k j)
  blv j := arr7 m c (ix2 0 j)
  Wd1 k j := arr8 m c (ix2 k j)
  bd1 j := arr9 m c (ix2 0 j)
  Wd2 k j := arr10 m c (ix2 k j)
  bd2 j := arr11 m c (ix2 0 j)

/-- Entry (p, q) of point t's block of window 0 is the array's entry (1024·t + p, q). -/
theorem emb0 (t : Fin cfg0.N) (p : Fin 1024) (q : Fin 704) :
    ((cfg0.win 0).blk t).view.emb (ix2 p q) = ix2 (rowAt t p) q := by
  obtain ⟨e0, e1, e2, e3, e4, e5, e6, e7, e8, e9, e10, e11⟩ := index_rows t
  funext a; apply Fin.ext
  match a with
  | ⟨0, _⟩ => show win0_0.index t (0 : Fin 2) * 1024 + 1 * p.val = t.val * 1024 + p.val; omega
  | ⟨1, _⟩ => show win0_0.index t (1 : Fin 2) * 704 + 1 * q.val = q.val; omega

/-- Entry (p, q) of point t's block of window 1 is the array's entry (1024·t + p, q). -/
theorem emb1 (t : Fin cfg0.N) (p : Fin 1024) (q : Fin 56) :
    ((cfg0.win 1).blk t).view.emb (ix2 p q) = ix2 (rowAt t p) q := by
  obtain ⟨e0, e1, e2, e3, e4, e5, e6, e7, e8, e9, e10, e11⟩ := index_rows t
  funext a; apply Fin.ext
  match a with
  | ⟨0, _⟩ => show win0_1.index t (0 : Fin 2) * 1024 + 1 * p.val = t.val * 1024 + p.val; omega
  | ⟨1, _⟩ => show win0_1.index t (1 : Fin 2) * 56 + 1 * q.val = q.val; omega

/-- Entry (p, q) of point t's block of window 12 is the array's entry (1024·t + p, q). -/
theorem emb12 (t : Fin cfg0.N) (p : Fin 1024) (q : Fin 56) :
    ((cfg0.win 12).blk t).view.emb (ix2 p q) = ix2 (rowAt t p) q := by
  obtain ⟨e0, e1, e2, e3, e4, e5, e6, e7, e8, e9, e10, e11⟩ := index_rows t
  funext a; apply Fin.ext
  match a with
  | ⟨0, _⟩ => show win0_12.index t (0 : Fin 2) * 1024 + 1 * p.val = t.val * 1024 + p.val; omega
  | ⟨1, _⟩ => show win0_12.index t (1 : Fin 2) * 56 + 1 * q.val = q.val; omega

/-- Entry (p, q) of point t's block of window 13 is the array's entry (1024·t + p, q). -/
theorem emb13 (t : Fin cfg0.N) (p : Fin 1024) (q : Fin 56) :
    ((cfg0.win 13).blk t).view.emb (ix2 p q) = ix2 (rowAt t p) q := by
  obtain ⟨e0, e1, e2, e3, e4, e5, e6, e7, e8, e9, e10, e11⟩ := index_rows t
  funext a; apply Fin.ext
  match a with
  | ⟨0, _⟩ => show win0_13.index t (0 : Fin 2) * 1024 + 1 * p.val = t.val * 1024 + p.val; omega
  | ⟨1, _⟩ => show win0_13.index t (1 : Fin 2) * 56 + 1 * q.val = q.val; omega

/-- Entry (p, q) of point t's block of window 14 is the array's entry (1024·t + p, q). -/
theorem emb14 (t : Fin cfg0.N) (p : Fin 1024) (q : Fin 56) :
    ((cfg0.win 14).blk t).view.emb (ix2 p q) = ix2 (rowAt t p) q := by
  obtain ⟨e0, e1, e2, e3, e4, e5, e6, e7, e8, e9, e10, e11⟩ := index_rows t
  funext a; apply Fin.ext
  match a with
  | ⟨0, _⟩ => show win0_14.index t (0 : Fin 2) * 1024 + 1 * p.val = t.val * 1024 + p.val; omega
  | ⟨1, _⟩ => show win0_14.index t (1 : Fin 2) * 56 + 1 * q.val = q.val; omega

/-- Entry (p, q) of point t's block of window 15 is the array's entry (1024·t + p, q). -/
theorem emb15 (t : Fin cfg0.N) (p : Fin 1024) (q : Fin 704) :
    ((cfg0.win 15).blk t).view.emb (ix2 p q) = ix2 (rowAt t p) q := by
  obtain ⟨e0, e1, e2, e3, e4, e5, e6, e7, e8, e9, e10, e11⟩ := index_rows t
  funext a; apply Fin.ext
  match a with
  | ⟨0, _⟩ => show win0_15.index t (0 : Fin 2) * 1024 + 1 * p.val = t.val * 1024 + p.val; omega
  | ⟨1, _⟩ => show win0_15.index t (1 : Fin 2) * 704 + 1 * q.val = q.val; omega

/-- Window 2 holds its whole array at every point. -/
theorem emb2 (t : Fin cfg0.N) (a : Fin 704) (b : Fin 1024) :
    ((cfg0.win 2).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_2.index t (0 : Fin 2) * 704 + 1 * a.val = a.val; omega
  | ⟨1, _⟩ => show win0_2.index t (1 : Fin 2) * 1024 + 1 * b.val = b.val; omega

/-- Window 3 holds its whole array at every point. -/
theorem emb3 (t : Fin cfg0.N) (a : Fin 1) (b : Fin 1024) :
    ((cfg0.win 3).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_3.index t (0 : Fin 2) * 1 + 1 * a.val = a.val; omega
  | ⟨1, _⟩ => show win0_3.index t (1 : Fin 2) * 1024 + 1 * b.val = b.val; omega

/-- Window 4 holds its whole array at every point. -/
theorem emb4 (t : Fin cfg0.N) (a : Fin 1024) (b : Fin 56) :
    ((cfg0.win 4).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_4.index t (0 : Fin 2) * 1024 + 1 * a.val = a.val; omega
  | ⟨1, _⟩ => show win0_4.index t (1 : Fin 2) * 56 + 1 * b.val = b.val; omega

/-- Window 5 holds its whole array at every point. -/
theorem emb5 (t : Fin cfg0.N) (a : Fin 1) (b : Fin 56) :
    ((cfg0.win 5).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_5.index t (0 : Fin 2) * 1 + 1 * a.val = a.val; omega
  | ⟨1, _⟩ => show win0_5.index t (1 : Fin 2) * 56 + 1 * b.val = b.val; omega

/-- Window 6 holds its whole array at every point. -/
theorem emb6 (t : Fin cfg0.N) (a : Fin 1024) (b : Fin 56) :
    ((cfg0.win 6).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_6.index t (0 : Fin 2) * 1024 + 1 * a.val = a.val; omega
  | ⟨1, _⟩ => show win0_6.index t (1 : Fin 2) * 56 + 1 * b.val = b.val; omega

/-- Window 7 holds its whole array at every point. -/
theorem emb7 (t : Fin cfg0.N) (a : Fin 1) (b : Fin 56) :
    ((cfg0.win 7).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_7.index t (0 : Fin 2) * 1 + 1 * a.val = a.val; omega
  | ⟨1, _⟩ => show win0_7.index t (1 : Fin 2) * 56 + 1 * b.val = b.val; omega

/-- Window 8 holds its whole array at every point. -/
theorem emb8 (t : Fin cfg0.N) (a : Fin 56) (b : Fin 1024) :
    ((cfg0.win 8).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_8.index t (0 : Fin 2) * 56 + 1 * a.val = a.val; omega
  | ⟨1, _⟩ => show win0_8.index t (1 : Fin 2) * 1024 + 1 * b.val = b.val; omega

/-- Window 9 holds its whole array at every point. -/
theorem emb9 (t : Fin cfg0.N) (a : Fin 1) (b : Fin 1024) :
    ((cfg0.win 9).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_9.index t (0 : Fin 2) * 1 + 1 * a.val = a.val; omega
  | ⟨1, _⟩ => show win0_9.index t (1 : Fin 2) * 1024 + 1 * b.val = b.val; omega

/-- Window 10 holds its whole array at every point. -/
theorem emb10 (t : Fin cfg0.N) (a : Fin 1024) (b : Fin 704) :
    ((cfg0.win 10).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_10.index t (0 : Fin 2) * 1024 + 1 * a.val = a.val; omega
  | ⟨1, _⟩ => show win0_10.index t (1 : Fin 2) * 704 + 1 * b.val = b.val; omega

/-- Window 11 holds its whole array at every point. -/
theorem emb11 (t : Fin cfg0.N) (a : Fin 1) (b : Fin 704) :
    ((cfg0.win 11).blk t).view.emb (ix2 a b) = ix2 a b := by
  obtain ⟨f0, f1, f2, f3, f4, f5, f6, f7, f8, f9, f10, f11, f12, f13, f14, f15, f16, f17, f18, f19⟩ := index_whole t
  funext d; apply Fin.ext
  match d with
  | ⟨0, _⟩ => show win0_11.index t (0 : Fin 2) * 1 + 1 * a.val = a.val; omega
  | ⟨1, _⟩ => show win0_11.index t (1 : Fin 2) * 704 + 1 * b.val = b.val; omega

/-- The block of window 0 at point t, read at an entry. -/
theorem iblk0_apply (c : Dev nD) (t : Fin cfg0.N) (p : Fin 1024) (q : Fin 704) :
    iblk m c 0 t (ix2 p q) = arr0 m c (ix2 (rowAt t p) q) := by
  rw [arr0_def]
  unfold iblk
  rw [View.read_apply, emb0, cast_eq]

/-- The block of window 1 at point t, read at an entry. -/
theorem iblk1_apply (c : Dev nD) (t : Fin cfg0.N) (p : Fin 1024) (q : Fin 56) :
    iblk m c 1 t (ix2 p q) = arr1 m c (ix2 (rowAt t p) q) := by
  rw [arr1_def]
  unfold iblk
  rw [View.read_apply, emb1, cast_eq]

/-- The block of window 2 at any point is its array. -/
theorem iblk2_apply (c : Dev nD) (t : Fin cfg0.N) (a : Fin 704) (b : Fin 1024) :
    iblk m c 2 t (ix2 a b) = arr2 m c (ix2 a b) := by
  rw [arr2_def]
  unfold iblk
  rw [View.read_apply, emb2, cast_eq]

/-- The block of window 3 at any point is its array. -/
theorem iblk3_apply (c : Dev nD) (t : Fin cfg0.N) (a : Fin 1) (b : Fin 1024) :
    iblk m c 3 t (ix2 a b) = arr3 m c (ix2 a b) := by
  rw [arr3_def]
  unfold iblk
  rw [View.read_apply, emb3, cast_eq]

/-- The block of window 4 at any point is its array. -/
theorem iblk4_apply (c : Dev nD) (t : Fin cfg0.N) (a : Fin 1024) (b : Fin 56) :
    iblk m c 4 t (ix2 a b) = arr4 m c (ix2 a b) := by
  rw [arr4_def]
  unfold iblk
  rw [View.read_apply, emb4, cast_eq]

/-- The block of window 5 at any point is its array. -/
theorem iblk5_apply (c : Dev nD) (t : Fin cfg0.N) (a : Fin 1) (b : Fin 56) :
    iblk m c 5 t (ix2 a b) = arr5 m c (ix2 a b) := by
  rw [arr5_def]
  unfold iblk
  rw [View.read_apply, emb5, cast_eq]

/-- The block of window 6 at any point is its array. -/
theorem iblk6_apply (c : Dev nD) (t : Fin cfg0.N) (a : Fin 1024) (b : Fin 56) :
    iblk m c 6 t (ix2 a b) = arr6 m c (ix2 a b) := by
  rw [arr6_def]
  unfold iblk
  rw [View.read_apply, emb6, cast_eq]

/-- The block of window 7 at any point is its array. -/
theorem iblk7_apply (c : Dev nD) (t : Fin cfg0.N) (a : Fin 1) (b : Fin 56) :
    iblk m c 7 t (ix2 a b) = arr7 m c (ix2 a b) := by
  rw [arr7_def]
  unfold iblk
  rw [View.read_apply, emb7, cast_eq]

/-- The block of window 8 at any point is its array. -/
theorem iblk8_apply (c : Dev nD) (t : Fin cfg0.N) (a : Fin 56) (b : Fin 1024) :
    iblk m c 8 t (ix2 a b) = arr8 m c (ix2 a b) := by
  rw [arr8_def]
  unfold iblk
  rw [View.read_apply, emb8, cast_eq]

/-- The block of window 9 at any point is its array. -/
theorem iblk9_apply (c : Dev nD) (t : Fin cfg0.N) (a : Fin 1) (b : Fin 1024) :
    iblk m c 9 t (ix2 a b) = arr9 m c (ix2 a b) := by
  rw [arr9_def]
  unfold iblk
  rw [View.read_apply, emb9, cast_eq]

/-- The block of window 10 at any point is its array. -/
theorem iblk10_apply (c : Dev nD) (t : Fin cfg0.N) (a : Fin 1024) (b : Fin 704) :
    iblk m c 10 t (ix2 a b) = arr10 m c (ix2 a b) := by
  rw [arr10_def]
  unfold iblk
  rw [View.read_apply, emb10, cast_eq]

/-- The block of window 11 at any point is its array. -/
theorem iblk11_apply (c : Dev nD) (t : Fin cfg0.N) (a : Fin 1) (b : Fin 704) :
    iblk m c 11 t (ix2 a b) = arr11 m c (ix2 a b) := by
  rw [arr11_def]
  unfold iblk
  rw [View.read_apply, emb11, cast_eq]

/-! ## The mean (window 12) -/

/-- What point t writes back of the mean is block t of the mean array of what the region finds. -/
theorem flushed12_eq (c : Dev nD) (t : Fin cfg0.N) :
    (dats m 0 c).flushed 12 t = ((cfg0.win 12).blk t).view.read (Elt Ideal) (meanArr (regionWeights m c) (arr0 m c)) := by
  show (cfg0.win 12).cut (grid0.coords t) ((dats m 0 c).after 12 t) = _
  rw [after0_12]
  unfold out0_12
  rw [View.canon_unit_zero zeros2]
  simp only [View.ld_unit_zero (S := S1024x704) zeros2, View.ld_unit_zero (S := S704x1024) zeros2, View.ld_unit_zero (S := S1x1024) zeros2, View.ld_unit_zero (S := S1024x56) zeros2, View.ld_unit_zero (S := S1x56) zeros2, View.ld_unit_zero (S := S56x1024) zeros2, View.ld_unit_zero (S := S1x704) zeros2]
  refine funext fun (y : S1024x56.Idx) => ?_
  obtain ⟨p, q, rfl⟩ : ∃ (p : Fin 1024) (q : Fin 56), y = ix2 p q := ⟨y 0, y 1, eq_ix2 y⟩
  rw [View.read_apply, emb12, cast_eq]
  show k0_pay3 (F := Ideal) (iblk m c 0 t) (iblk m c 2 t) (iblk m c 3 t) (iblk m c 4 t) (iblk m c 5 t) (ix2 p q) = _
  refine (mean_apply (regionWeights m c) (iblk m c 0 t) (iblk m c 2 t) (iblk m c 3 t) (iblk m c 4 t) (iblk m c 5 t)
    (fun k j => iblk2_apply m c t k j) (fun j => iblk3_apply m c t 0 j) (fun j l => iblk4_apply m c t j l) (fun l => iblk5_apply m c t 0 l) p q).trans ?_
  unfold meanArr
  rw [ofCoords_ix2]
  simp only [iblk0_apply m c t]

/-- An index of the mean array is in point t's block iff each coordinate is in the block's range on its axis. -/
theorem mem_blk12 (t : Fin cfg0.N) (i : S32768x56.Idx) :
    i ∈ ((cfg0.win 12).blk t).view.set ↔ ∀ a : Fin 2, win0_12.index t a * S1024x56.size a ≤ (i a).val
      ∧ (i a).val < win0_12.index t a * S1024x56.size a + S1024x56.size a := by
  show i ∈ ((View.whole main_v55_0).slice (win0_12.rect t)).set ↔ _
  rw [View.set_slice_whole, Rect.mem_set_unit]
  exact Iff.rfl

/-- Row r of the mean array lies in the block of point r / 1024: the 32 blocks tile the array. -/
theorem cover12 (i : S32768x56.Idx) :
    ∃ t : Fin cfg0.N, (cfg0.win 12).flush t = true ∧ i ∈ ((cfg0.win 12).blk t).view.set := by
  have hi0 : (i 0).val < 32768 := idx2_lt0 i
  have hi1 : (i 1).val < 56 := idx2_lt1 i
  have ht : (i 0).val / 1024 < 32 := by omega
  obtain ⟨e0, e1, e2, e3, e4, e5, e6, e7, e8, e9, e10, e11⟩ := index_rows (⟨(i 0).val / 1024, ht⟩ : Fin cfg0.N)
  refine ⟨⟨(i 0).val / 1024, ht⟩, flush0_12 _, ?_⟩
  rw [mem_blk12]
  intro a
  match a with
  | ⟨0, _⟩ =>
    show win0_12.index ⟨(i 0).val / 1024, ht⟩ (0 : Fin 2) * 1024 ≤ (i 0).val
      ∧ (i 0).val < win0_12.index ⟨(i 0).val / 1024, ht⟩ (0 : Fin 2) * 1024 + 1024
    have hv : ((⟨(i 0).val / 1024, ht⟩ : Fin cfg0.N) : ℕ) = (i 0).val / 1024 := rfl
    omega
  | ⟨1, _⟩ =>
    show win0_12.index ⟨(i 0).val / 1024, ht⟩ (1 : Fin 2) * 56 ≤ (i 1).val
      ∧ (i 1).val < win0_12.index ⟨(i 0).val / 1024, ht⟩ (1 : Fin 2) * 56 + 56
    omega

/-- THE ARRAY after the region: the mean array of the features and the weights the region finds. -/
theorem final12 (c : Dev nD) : (dats m 0 c).arrAt 12 cfg0.N = meanArr (regionWeights m c) (arr0 m c) :=
  (dats m 0 c).arrAt_eq_of_cover 12 _ (fun t _ => flushed12_eq m c t) cover12

/-! ## The log-variance (window 13) -/

/-- What point t writes back of the log-variance is block t of the log-variance array of what the region finds. -/
theorem flushed13_eq (c : Dev nD) (t : Fin cfg0.N) :
    (dats m 0 c).flushed 13 t = ((cfg0.win 13).blk t).view.read (Elt Ideal) (logvarArr (regionWeights m c) (arr0 m c)) := by
  show (cfg0.win 13).cut (grid0.coords t) ((dats m 0 c).after 13 t) = _
  rw [after0_13]
  unfold out0_13
  rw [View.canon_unit_zero zeros2]
  simp only [View.ld_unit_zero (S := S1024x704) zeros2, View.ld_unit_zero (S := S704x1024) zeros2, View.ld_unit_zero (S := S1x1024) zeros2, View.ld_unit_zero (S := S1024x56) zeros2, View.ld_unit_zero (S := S1x56) zeros2, View.ld_unit_zero (S := S56x1024) zeros2, View.ld_unit_zero (S := S1x704) zeros2]
  refine funext fun (y : S1024x56.Idx) => ?_
  obtain ⟨p, q, rfl⟩ : ∃ (p : Fin 1024) (q : Fin 56), y = ix2 p q := ⟨y 0, y 1, eq_ix2 y⟩
  rw [View.read_apply, emb13, cast_eq]
  show k0_pay4 (F := Ideal) (iblk m c 0 t) (iblk m c 2 t) (iblk m c 3 t) (iblk m c 6 t) (iblk m c 7 t) (ix2 p q) = _
  refine (logvar_apply (regionWeights m c) (iblk m c 0 t) (iblk m c 2 t) (iblk m c 3 t) (iblk m c 6 t) (iblk m c 7 t)
    (fun k j => iblk2_apply m c t k j) (fun j => iblk3_apply m c t 0 j) (fun j l => iblk6_apply m c t j l) (fun l => iblk7_apply m c t 0 l) p q).trans ?_
  unfold logvarArr
  rw [ofCoords_ix2]
  simp only [iblk0_apply m c t]

/-- An index of the log-variance array is in point t's block iff each coordinate is in the block's range on its axis. -/
theorem mem_blk13 (t : Fin cfg0.N) (i : S32768x56.Idx) :
    i ∈ ((cfg0.win 13).blk t).view.set ↔ ∀ a : Fin 2, win0_13.index t a * S1024x56.size a ≤ (i a).val
      ∧ (i a).val < win0_13.index t a * S1024x56.size a + S1024x56.size a := by
  show i ∈ ((View.whole main_v55_1).slice (win0_13.rect t)).set ↔ _
  rw [View.set_slice_whole, Rect.mem_set_unit]
  exact Iff.rfl

/-- Row r of the log-variance array lies in the block of point r / 1024: the 32 blocks tile the array. -/
theorem cover13 (i : S32768x56.Idx) :
    ∃ t : Fin cfg0.N, (cfg0.win 13).flush t = true ∧ i ∈ ((cfg0.win 13).blk t).view.set := by
  have hi0 : (i 0).val < 32768 := idx2_lt0 i
  have hi1 : (i 1).val < 56 := idx2_lt1 i
  have ht : (i 0).val / 1024 < 32 := by omega
  obtain ⟨e0, e1, e2, e3, e4, e5, e6, e7, e8, e9, e10, e11⟩ := index_rows (⟨(i 0).val / 1024, ht⟩ : Fin cfg0.N)
  refine ⟨⟨(i 0).val / 1024, ht⟩, flush0_13 _, ?_⟩
  rw [mem_blk13]
  intro a
  match a with
  | ⟨0, _⟩ =>
    show win0_13.index ⟨(i 0).val / 1024, ht⟩ (0 : Fin 2) * 1024 ≤ (i 0).val
      ∧ (i 0).val < win0_13.index ⟨(i 0).val / 1024, ht⟩ (0 : Fin 2) * 1024 + 1024
    have hv : ((⟨(i 0).val / 1024, ht⟩ : Fin cfg0.N) : ℕ) = (i 0).val / 1024 := rfl
    omega
  | ⟨1, _⟩ =>
    show win0_13.index ⟨(i 0).val / 1024, ht⟩ (1 : Fin 2) * 56 ≤ (i 1).val
      ∧ (i 1).val < win0_13.index ⟨(i 0).val / 1024, ht⟩ (1 : Fin 2) * 56 + 56
    omega

/-- THE ARRAY after the region: the log-variance array of the features and the weights the region finds. -/
theorem final13 (c : Dev nD) : (dats m 0 c).arrAt 13 cfg0.N = logvarArr (regionWeights m c) (arr0 m c) :=
  (dats m 0 c).arrAt_eq_of_cover 13 _ (fun t _ => flushed13_eq m c t) cover13

/-! ## The latent (window 14) -/

/-- What point t writes back of the latent is block t of the latent array of what the region finds. -/
theorem flushed14_eq (c : Dev nD) (t : Fin cfg0.N) :
    (dats m 0 c).flushed 14 t = ((cfg0.win 14).blk t).view.read (Elt Ideal) (latentArr (regionWeights m c) (arr0 m c) (arr1 m c)) := by
  show (cfg0.win 14).cut (grid0.coords t) ((dats m 0 c).after 14 t) = _
  rw [after0_14]
  unfold out0_14
  rw [View.canon_unit_zero zeros2]
  simp only [View.ld_unit_zero (S := S1024x704) zeros2, View.ld_unit_zero (S := S704x1024) zeros2, View.ld_unit_zero (S := S1x1024) zeros2, View.ld_unit_zero (S := S1024x56) zeros2, View.ld_unit_zero (S := S1x56) zeros2, View.ld_unit_zero (S := S56x1024) zeros2, View.ld_unit_zero (S := S1x704) zeros2]
  refine funext fun (y : S1024x56.Idx) => ?_
  obtain ⟨p, q, rfl⟩ : ∃ (p : Fin 1024) (q : Fin 56), y = ix2 p q := ⟨y 0, y 1, eq_ix2 y⟩
  rw [View.read_apply, emb14, cast_eq]
  show k0_pay5 (F := Ideal) (iblk m c 0 t) (iblk m c 2 t) (iblk m c 3 t) (iblk m c 4 t) (iblk m c 5 t) (iblk m c 6 t) (iblk m c 7 t)
      (iblk m c 1 t) (ix2 p q) = _
  refine (latent_apply (regionWeights m c) (iblk m c 0 t) (iblk m c 2 t) (iblk m c 3 t) (iblk m c 4 t) (iblk m c 5 t)
    (iblk m c 6 t) (iblk m c 7 t) (iblk m c 1 t) (fun k j => iblk2_apply m c t k j) (fun j => iblk3_apply m c t 0 j) (fun j l => iblk4_apply m c t j l) (fun l => iblk5_apply m c t 0 l) (fun j l => iblk6_apply m c t j l) (fun l => iblk7_apply m c t 0 l) p q).trans ?_
  unfold latentArr
  rw [ofCoords_ix2]
  simp only [iblk0_apply m c t, iblk1_apply m c t]

/-- An index of the latent array is in point t's block iff each coordinate is in the block's range on its axis. -/
theorem mem_blk14 (t : Fin cfg0.N) (i : S32768x56.Idx) :
    i ∈ ((cfg0.win 14).blk t).view.set ↔ ∀ a : Fin 2, win0_14.index t a * S1024x56.size a ≤ (i a).val
      ∧ (i a).val < win0_14.index t a * S1024x56.size a + S1024x56.size a := by
  show i ∈ ((View.whole main_v55_2).slice (win0_14.rect t)).set ↔ _
  rw [View.set_slice_whole, Rect.mem_set_unit]
  exact Iff.rfl

/-- Row r of the latent array lies in the block of point r / 1024: the 32 blocks tile the array. -/
theorem cover14 (i : S32768x56.Idx) :
    ∃ t : Fin cfg0.N, (cfg0.win 14).flush t = true ∧ i ∈ ((cfg0.win 14).blk t).view.set := by
  have hi0 : (i 0).val < 32768 := idx2_lt0 i
  have hi1 : (i 1).val < 56 := idx2_lt1 i
  have ht : (i 0).val / 1024 < 32 := by omega
  obtain ⟨e0, e1, e2, e3, e4, e5, e6, e7, e8, e9, e10, e11⟩ := index_rows (⟨(i 0).val / 1024, ht⟩ : Fin cfg0.N)
  refine ⟨⟨(i 0).val / 1024, ht⟩, flush0_14 _, ?_⟩
  rw [mem_blk14]
  intro a
  match a with
  | ⟨0, _⟩ =>
    show win0_14.index ⟨(i 0).val / 1024, ht⟩ (0 : Fin 2) * 1024 ≤ (i 0).val
      ∧ (i 0).val < win0_14.index ⟨(i 0).val / 1024, ht⟩ (0 : Fin 2) * 1024 + 1024
    have hv : ((⟨(i 0).val / 1024, ht⟩ : Fin cfg0.N) : ℕ) = (i 0).val / 1024 := rfl
    omega
  | ⟨1, _⟩ =>
    show win0_14.index ⟨(i 0).val / 1024, ht⟩ (1 : Fin 2) * 56 ≤ (i 1).val
      ∧ (i 1).val < win0_14.index ⟨(i 0).val / 1024, ht⟩ (1 : Fin 2) * 56 + 56
    omega

/-- THE ARRAY after the region: the latent array of the features, the noise and the weights the region finds. -/
theorem final14 (c : Dev nD) : (dats m 0 c).arrAt 14 cfg0.N = latentArr (regionWeights m c) (arr0 m c) (arr1 m c) :=
  (dats m 0 c).arrAt_eq_of_cover 14 _ (fun t _ => flushed14_eq m c t) cover14

/-! ## The decoded rows (window 15) -/

/-- What point t writes back of the decoded rows is block t of the decoded rows array of what the region finds. -/
theorem flushed15_eq (c : Dev nD) (t : Fin cfg0.N) :
    (dats m 0 c).flushed 15 t = ((cfg0.win 15).blk t).view.read (Elt Ideal) (decodedArr (regionWeights m c) (arr0 m c) (arr1 m c)) := by
  show (cfg0.win 15).cut (grid0.coords t) ((dats m 0 c).after 15 t) = _
  rw [after0_15]
  unfold out0_15
  rw [View.canon_unit_zero zeros2]
  simp only [View.ld_unit_zero (S := S1024x704) zeros2, View.ld_unit_zero (S := S704x1024) zeros2, View.ld_unit_zero (S := S1x1024) zeros2, View.ld_unit_zero (S := S1024x56) zeros2, View.ld_unit_zero (S := S1x56) zeros2, View.ld_unit_zero (S := S56x1024) zeros2, View.ld_unit_zero (S := S1x704) zeros2]
  refine funext fun (y : S1024x704.Idx) => ?_
  obtain ⟨p, q, rfl⟩ : ∃ (p : Fin 1024) (q : Fin 704), y = ix2 p q := ⟨y 0, y 1, eq_ix2 y⟩
  rw [View.read_apply, emb15, cast_eq]
  show k0_pay1 (F := Ideal) (k0_pay6 (F := Ideal) (iblk m c 0 t) (iblk m c 2 t) (iblk m c 3 t) (iblk m c 4 t) (iblk m c 5 t)
      (iblk m c 6 t) (iblk m c 7 t) (iblk m c 1 t) (iblk m c 8 t)) (iblk m c 9 t) (iblk m c 10 t) (iblk m c 11 t) (ix2 p q) = _
  refine (decoded_apply (regionWeights m c)
    (latent (regionWeights m c) (fun k => iblk m c 0 t (ix2 p k)) (fun l => iblk m c 1 t (ix2 p l)))
    (k0_pay6 (F := Ideal) (iblk m c 0 t) (iblk m c 2 t) (iblk m c 3 t) (iblk m c 4 t) (iblk m c 5 t)
      (iblk m c 6 t) (iblk m c 7 t) (iblk m c 1 t) (iblk m c 8 t)) (iblk m c 9 t) (iblk m c 10 t) (iblk m c 11 t) p
    (fun j => decHiddenPre_apply (regionWeights m c) (iblk m c 0 t) (iblk m c 2 t) (iblk m c 3 t) (iblk m c 4 t) (iblk m c 5 t)
      (iblk m c 6 t) (iblk m c 7 t) (iblk m c 1 t) (iblk m c 8 t) (fun k j => iblk2_apply m c t k j) (fun j => iblk3_apply m c t 0 j) (fun j l => iblk4_apply m c t j l) (fun l => iblk5_apply m c t 0 l) (fun j l => iblk6_apply m c t j l) (fun l => iblk7_apply m c t 0 l)
      (fun l j => iblk8_apply m c t l j) p j)
    (fun j => iblk9_apply m c t 0 j) (fun j k => iblk10_apply m c t j k) (fun k => iblk11_apply m c t 0 k) q).trans ?_
  unfold decodedArr
  rw [ofCoords_ix2]
  simp only [iblk0_apply m c t, iblk1_apply m c t]
  rfl

/-- An index of the decoded array is in point t's block iff each coordinate is in the block's range on its axis. -/
theorem mem_blk15 (t : Fin cfg0.N) (i : S32768x704.Idx) :
    i ∈ ((cfg0.win 15).blk t).view.set ↔ ∀ a : Fin 2, win0_15.index t a * S1024x704.size a ≤ (i a).val
      ∧ (i a).val < win0_15.index t a * S1024x704.size a + S1024x704.size a := by
  show i ∈ ((View.whole main_v55_3).slice (win0_15.rect t)).set ↔ _
  rw [View.set_slice_whole, Rect.mem_set_unit]
  exact Iff.rfl

/-- Row r of the decoded array lies in the block of point r / 1024: the 32 blocks tile the array. -/
theorem cover15 (i : S32768x704.Idx) :
    ∃ t : Fin cfg0.N, (cfg0.win 15).flush t = true ∧ i ∈ ((cfg0.win 15).blk t).view.set := by
  have hi0 : (i 0).val < 32768 := idx2_lt0 i
  have hi1 : (i 1).val < 704 := idx2_lt1 i
  have ht : (i 0).val / 1024 < 32 := by omega
  obtain ⟨e0, e1, e2, e3, e4, e5, e6, e7, e8, e9, e10, e11⟩ := index_rows (⟨(i 0).val / 1024, ht⟩ : Fin cfg0.N)
  refine ⟨⟨(i 0).val / 1024, ht⟩, flush0_15 _, ?_⟩
  rw [mem_blk15]
  intro a
  match a with
  | ⟨0, _⟩ =>
    show win0_15.index ⟨(i 0).val / 1024, ht⟩ (0 : Fin 2) * 1024 ≤ (i 0).val
      ∧ (i 0).val < win0_15.index ⟨(i 0).val / 1024, ht⟩ (0 : Fin 2) * 1024 + 1024
    have hv : ((⟨(i 0).val / 1024, ht⟩ : Fin cfg0.N) : ℕ) = (i 0).val / 1024 := rfl
    omega
  | ⟨1, _⟩ =>
    show win0_15.index ⟨(i 0).val / 1024, ht⟩ (1 : Fin 2) * 704 ≤ (i 1).val
      ∧ (i 1).val < win0_15.index ⟨(i 0).val / 1024, ht⟩ (1 : Fin 2) * 704 + 704
    omega

/-- THE ARRAY after the region: the decoded array of the features, the noise and the weights the region finds. -/
theorem final15 (c : Dev nD) : (dats m 0 c).arrAt 15 cfg0.N = decodedArr (regionWeights m c) (arr0 m c) (arr1 m c) :=
  (dats m 0 c).arrAt_eq_of_cover 15 _ (fun t _ => flushed15_eq m c t) cover15

end Cert.KernelIdeal.Region

end
-- ==== Proof.KernelTail.lean ====
/-
  The kernel program's lines after the region: the second graph layer.

  From the decoded array d the region leaves (regrouped by node and multiplied by the last weight matrix), the lines
  gather each edge's source row, scale it by the edge's weight, sum the rows into their target nodes and add the bias.
  The edge lists and weights were computed before the region; here they are whatever the buffers hold, so the result is
  stated as ONE function of six buffers' contents, whatever the contents are.
-/
import proofs.«122469_j14886356648528_2_alg».proof.Proof.Gen.KernelIdeal.Frame
import Idealize.ShloMosaic.Lib.StableHlo.Run
import Idealize.ShloMosaic.PureOps.Ideal

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The second graph layer: d regrouped by node times the weights, gathered along the edges (a negative source number
    counting from the end), scaled by the edge weights, summed into the target nodes, plus the bias. -/
def outTail (d : (⟨S32768x704, .f32⟩ : BufTy).Contents (Elt F)) (src dst : (⟨S2097152, .i32⟩ : BufTy).Contents (Elt F)) (w : (⟨S2097152, .f32⟩ : BufTy).Contents (Elt F))
    (a15 : (⟨S32x3, .f32⟩ : BufTy).Contents (Elt F)) (a16 : (⟨S3, .f32⟩ : BufTy).Contents (Elt F)) : (⟨S720896x3, .f32⟩ : BufTy).Contents (Elt F) :=
  addf (Host.scatterAdd scatter_S720896x3_S2097152x1_S2097152x3_1_0_0_1 (broadcastInDim S720896x3 ![] bcast_S_S720896x3 (constant (F := F) S_ .f32 0x00000000#32)) (broadcastInDim S2097152x1 ![0] bcast_S2097152_S2097152x1_0 dst) (mulf (Host.gather gather_S720896x3_S2097152x1_S2097152x3_1_0_n_n_0_1_13 (Host.dotGeneral dot_S720896x32_S32x3_S720896x3_1_0_0_1_n_n none (shapeCast _ d shapeCasts_S32768x704_S720896x32) a15) (broadcastInDim S2097152x1 ![0] bcast_S2097152_S2097152x1_0 (select (cmpi .slt src (broadcastInDim S2097152 ![] bcast_S_S2097152 (constantI S_ 32 0#32))) (addi src (broadcastInDim S2097152 ![] bcast_S_S2097152 (constantI S_ 32 720896#32))) src))) (broadcastInDim S2097152x3 ![0, 1] bcast_S2097152x1_S2097152x3_0_1 (broadcastInDim S2097152x1 ![0] bcast_S2097152_S2097152x1_0 w)))) (broadcastInDim S720896x3 ![0, 1] bcast_S1x3_S720896x3_0_1 (broadcastInDim S1x3 ![1] bcast_S3_S1x3_1 a16))

/-- The lines after the region, from ANY buffer contents: the output buffer ends at the second graph layer of the six
    buffers the lines read. -/
theorem tail_generic (W : Valuation τ sig (Elt F)) :
    StableHlo.after (hostOps1 (F := F)) W (Proc.devRef .tc main_v73)
      = outTail (F := F) (W (Proc.devRef .tc main_v55_3)) (W (Proc.devRef .tc main_v5)) (W (Proc.devRef .tc main_v6))
          (W (Proc.devRef .tc main_v29)) (W (Proc.devRef .tc main_arg15)) (W (Proc.devRef .tc main_arg16)) := by
  unfold outTail
  after_results_simp <;> rfl

variable (m : (ℓ : Loc nD τ sig) → Buf (Elt F) ℓ)

/-- After the whole program the output buffer holds the second graph layer of the decoded array the region left, over the
    edge lists and weights computed before the region and the last layer's weights and bias. -/
theorem tail_out (c : Dev nD) :
    Pipeline.afterTail₀ cfgs (dats m) 0 (V0 m) [hostOps1] c main_v73
      = outTail (F := F) ((dats m 0 c).arrAt 15 cfg0.N) (V0 m c (Proc.devRef .tc main_v5)) (V0 m c (Proc.devRef .tc main_v6))
          (V0 m c (Proc.devRef .tc main_v29)) (m ((c.tc : Thread nD τ).loc main_arg15)) (m ((c.tc : Thread nD τ).loc main_arg16)) := by
  unfold Pipeline.afterTail₀
  show StableHlo.after (hostOps1 (F := F)) (Pipeline.withArrays spec0 c (V0 m c) fun w => (dats m 0 c).arrAt w cfg0.N)
    (Proc.devRef .tc main_v73) = _
  rw [tail_generic,
    show Pipeline.withArrays spec0 c (V0 m c) (fun w => (dats m 0 c).arrAt w cfg0.N) (Proc.devRef .tc main_v55_3)
        = (dats m 0 c).arrAt 15 cfg0.N from Pipeline.withArrays_arr spec0 launch0.win.arr_inj c _ _ 15,
    Pipeline.withArrays_of_ne _ c (V0 m c) _ main_v5 (by exact (by decide : ∀ w, Pipeline.arrRef spec0 w ≠ main_v5)),
    Pipeline.withArrays_of_ne _ c (V0 m c) _ main_v6 (by exact (by decide : ∀ w, Pipeline.arrRef spec0 w ≠ main_v6)),
    Pipeline.withArrays_of_ne _ c (V0 m c) _ main_v29 (by exact (by decide : ∀ w, Pipeline.arrRef spec0 w ≠ main_v29)),
    Pipeline.withArrays_of_ne _ c (V0 m c) _ main_arg15 (by exact (by decide : ∀ w, Pipeline.arrRef spec0 w ≠ main_arg15)),
    Pipeline.withArrays_of_ne _ c (V0 m c) _ main_arg16 (by exact (by decide : ∀ w, Pipeline.arrRef spec0 w ≠ main_arg16)),
    show V0 m c (Proc.devRef .tc main_arg15) = m ((c.tc : Thread nD τ).loc main_arg15) from V_main_arg15 m c,
    show V0 m c (Proc.devRef .tc main_arg16) = m ((c.tc : Thread nD τ).loc main_arg16) from V_main_arg16 m c]

end Cert.KernelIdeal.Tail

end
-- ==== Proof.KernelValue.lean ====
/-
  The kernel program's run, read: its four results.

  The frame run leaves each array of the region at what the 32 write-backs make of it and every other buffer at what the
  lines after the region leave. So the mean, the log-variance and the latent end at the region's whole-array functions
  (KernelRegion) of the features, the noise and the weights the region finds, and the output at the second graph layer
  (KernelTail) of the decoded array, over the edge lists and weights computed before the region.
-/
import proofs.«122469_j14886356648528_2_alg».proof.Proof.KernelRegion
import proofs.«122469_j14886356648528_2_alg».proof.Proof.KernelTail

set_option maxRecDepth 16384

noncomputable section

namespace Cert.KernelIdeal.Read

open Idealize.ShloMosaic Idealize.ShloMosaic.TcCoe Idealize.SL.Sem
open Idealize.ShloMosaic.Pipeline (Dat Cfg Window)
open Cert.KernelIdeal Cert.KernelIdeal.Gen Cert.MlpWhole Cert.KernelIdeal.Region Cert.KernelIdeal.Tail

variable (m : (ℓ : Loc nD τ sig) → Buf (Elt Ideal) ℓ) (ρ : Dev nD → PrngReg)

set_option maxHeartbeats 4000000 in
/-- The run restated: each result at its function of what the region finds, the arguments unchanged. -/
theorem run : θ_run defs (onTc (τ := τ) (main (F := Ideal))) ⟨m, fun _ => 0, ρ⟩ fun r => ∀ c : Dev nD,
      r.2.mem ((c.tc : Thread nD τ).loc main_v73) = outTail (F := Ideal) (decodedArr (regionWeights m c) (arr0 m c) (arr1 m c))
          (V0 m c (Proc.devRef .tc main_v5)) (V0 m c (Proc.devRef .tc main_v6)) (V0 m c (Proc.devRef .tc main_v29))
          (m ((c.tc : Thread nD τ).loc main_arg15)) (m ((c.tc : Thread nD τ).loc main_arg16))
      ∧ r.2.mem ((c.tc : Thread nD τ).loc main_v55_2) = latentArr (regionWeights m c) (arr0 m c) (arr1 m c)
      ∧ r.2.mem ((c.tc : Thread nD τ).loc main_v55_0) = meanArr (regionWeights m c) (arr0 m c)
      ∧ r.2.mem ((c.tc : Thread nD τ).loc main_v55_1) = logvarArr (regionWeights m c) (arr0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨((h c).2 main_v73 (Pipeline.mem_restRefs_of main_v73 (by decide) (by decide))).trans
        ((tail_out m c).trans (by rw [final15])),
      ((h c).1 14).trans (final14 m c),
      ((h c).1 12).trans (final12 m c),
      ((h c).1 13).trans (final13 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c)),
      ((h c).1 6).trans (((dats m 0 c).arrAt_in 6 rfl _).trans ((A_eq m c 6).trans (V_main_arg9 m c))),
      (((h c).2 main_arg10 (Pipeline.mem_restRefs_of main_arg10 (by decide) (by decide))).trans (W_main_arg10 m (dats m) c)),
      ((h c).1 8).trans (((dats m 0 c).arrAt_in 8 rfl _).trans ((A_eq m c 8).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩)
    (run_main m ρ)

end Cert.KernelIdeal.Read

end
-- ==== Proof.ReferenceStages.lean ====
/-
  The reference program's four results, stage by stage.

  The edge list is the given [2, 1376256] array with one self loop per node appended: `srcCat`, `dstCat` (2097152
  entries each). A negative node number counts from the end (`wrapNeg`). The degree of a node is the number of edges that
  end in it, its factor `degInv` the inverse square root of the degree where that is positive and zero elsewhere, and an
  edge's weight the product of the factors of its two ends. A graph layer sums into each node the rows its incoming edges
  gather, each scaled by the edge's weight (`aggregate32` for rows of 32, `aggregate3` for rows of 3). The features are
  the first layer's result plus its bias, regrouped 22 nodes to a row; then the encoder–decoder, layer by layer; then the
  second graph layer on the decoded rows regrouped by node.

  Each result of the program's run is, by unfolding alone, the composition of these stages at the program's arguments.
-/
import proofs.«122469_j14886356648528_2_alg».proof.Proof.ReferenceRunPatched

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: the given sources, then every node (its self loop). -/
def srcCat (ei : (⟨S2x1376256, .i32⟩ : BufTy).Contents (Elt F)) : (⟨S2097152, .i32⟩ : BufTy).Contents (Elt F) :=
  concatenate S2097152 0 [⟨S1376256, (shapeCast _ (extractStridedSlice S1x1376256 ![0, 0] ei slices_S2x1376256_S1x1376256_0_0) shapeCasts_S1x1376256_S1376256)⟩, ⟨S720896, (iotaInDim S720896 32 0)⟩] concatenates_S1376256_S720896_S2097152_d0
/-- The edges' target nodes. -/
def dstCat (ei : (⟨S2x1376256, .i32⟩ : BufTy).Contents (Elt F)) : (⟨S2097152, .i32⟩ : BufTy).Contents (Elt F) :=
  concatenate S2097152 0 [⟨S1376256, (shapeCast _ (extractStridedSlice S1x1376256 ![1, 0] ei slices_S2x1376256_S1x1376256_1_0) shapeCasts_S1x1376256_S1376256)⟩, ⟨S720896, (iotaInDim S720896 32 0)⟩] concatenates_S1376256_S720896_S2097152_d0
/-- A negative node number counts from the end. -/
def wrapNeg (v : (⟨S2097152, .i32⟩ : BufTy).Contents (Elt F)) : (⟨S2097152, .i32⟩ : BufTy).Contents (Elt F) :=
  select (cmpi .slt v (broadcastInDim S2097152 ![] bcast_S_S2097152 (constantI S_ 32 0#32))) (addi v (broadcastInDim S2097152 ![] bcast_S_S2097152 (constantI S_ 32 720896#32))) v
/-- A list of node numbers as a one-column array of indices. -/
def asCol (v : (⟨S2097152, .i32⟩ : BufTy).Contents (Elt F)) : (⟨S2097152x1, .i32⟩ : BufTy).Contents (Elt F) :=
  broadcastInDim S2097152x1 ![0] bcast_S2097152_S2097152x1_0 v
/-- Where an edge gathers from. -/
def srcIdx (ei : (⟨S2x1376256, .i32⟩ : BufTy).Contents (Elt F)) : (⟨S2097152x1, .i32⟩ : BufTy).Contents (Elt F) := asCol (wrapNeg (srcCat (F := F) ei))
/-- Where an edge's target factor is gathered from. -/
def dstWrapIdx (ei : (⟨S2x1376256, .i32⟩ : BufTy).Contents (Elt F)) : (⟨S2097152x1, .i32⟩ : BufTy).Contents (Elt F) := asCol (wrapNeg (dstCat (F := F) ei))
/-- Where an edge is summed into. -/
def dstIdx (ei : (⟨S2x1376256, .i32⟩ : BufTy).Contents (Elt F)) : (⟨S2097152x1, .i32⟩ : BufTy).Contents (Elt F) := asCol (dstCat (F := F) ei)

/-- The zero vector over the nodes. -/
def zeroNodes : (⟨S720896, .f32⟩ : BufTy).Contents (Elt F) := broadcastInDim S720896 ![] bcast_S_S720896 (constant (F := F) S_ .f32 0x00000000#32)
/-- The number of edges ending in each node. -/
def degree (ei : (⟨S2x1376256, .i32⟩ : BufTy).Contents (Elt F)) : (⟨S720896, .f32⟩ : BufTy).Contents (Elt F) :=
  Host.scatterAdd scatter_S720896_S2097152x1_S2097152_n_0_0_1 (zeroNodes (F := F)) (dstIdx (F := F) ei) (broadcastInDim S2097152 ![] bcast_S_S2097152 (constant (F := F) S_ .f32 0x3F800000#32))
/-- The inverse square root of the degree where it is positive, zero elsewhere. -/
def degInv (ei : (⟨S2x1376256, .i32⟩ : BufTy).Contents (Elt F)) : (⟨S720896, .f32⟩ : BufTy).Contents (Elt F) :=
  select (cmpf (F := F) .ogt (degree (F := F) ei) (zeroNodes (F := F))) (Host.rsqrt (degree (F := F) ei)) (broadcastInDim S720896 ![] bcast_S_S720896 (id (constant (F := F) S_ .f32 0x00000000#32)))
/-- An edge's weight: the product of its two ends' factors. -/
def edgeWeight (ei : (⟨S2x1376256, .i32⟩ : BufTy).Contents (Elt F)) : (⟨S2097152, .f32⟩ : BufTy).Contents (Elt F) :=
  mulf (Host.gather gather_S720896_S2097152x1_S2097152_n_0_n_n_0_1_1 (degInv (F := F) ei) (srcIdx (F := F) ei)) (Host.gather gather_S720896_S2097152x1_S2097152_n_0_n_n_0_1_1 (degInv (F := F) ei) (dstWrapIdx (F := F) ei))

/-- A graph layer's aggregation of rows of 32. -/
def aggregate32 (rows : (⟨S720896x32, .f32⟩ : BufTy).Contents (Elt F)) (ei : (⟨S2x1376256, .i32⟩ : BufTy).Contents (Elt F)) : (⟨S720896x32, .f32⟩ : BufTy).Contents (Elt F) :=
  Host.scatterAdd scatter_S720896x32_S2097152x1_S2097152x32_1_0_0_1 (broadcastInDim S720896x32 ![] bcast_S_S720896x32 (constant (F := F) S_ .f32 0x00000000#32)) (dstIdx (F := F) ei) (mulf (Host.gather gather_S720896x32_S2097152x1_S2097152x32_1_0_n_n_0_1_132 rows (srcIdx (F := F) ei)) (broadcastInDim S2097152x32 ![0, 1] bcast_S2097152x1_S2097152x32_0_1 (broadcastInDim S2097152x1 ![0] bcast_S2097152_S2097152x1_0 (edgeWeight (F := F) ei))))
/-- A graph layer's aggregation of rows of 3. -/
def aggregate3 (rows : (⟨S720896x3, .f32⟩ : BufTy).Contents (Elt F)) (ei : (⟨S2x1376256, .i32⟩ : BufTy).Contents (Elt F)) : (⟨S720896x3, .f32⟩ : BufTy).Contents (Elt F) :=
  Host.scatterAdd scatter_S720896x3_S2097152x1_S2097152x3_1_0_0_1 (broadcastInDim S720896x3 ![] bcast_S_S720896x3 (constant (F := F) S_ .f32 0x00000000#32)) (dstIdx (F := F) ei) (mulf (Host.gather gather_S720896x3_S2097152x1_S2097152x3_1_0_n_n_0_1_13 rows (srcIdx (F := F) ei)) (broadcastInDim S2097152x3 ![0, 1] bcast_S2097152x1_S2097152x3_0_1 (broadcastInDim S2097152x1 ![0] bcast_S2097152_S2097152x1_0 (edgeWeight (F := F) ei))))

/-- The node features by pose: the first graph layer of `x · W`, plus its bias, 22 nodes to a row. -/
def features (x : (⟨S720896x3, .f32⟩ : BufTy).Contents (Elt F)) (ei : (⟨S2x1376256, .i32⟩ : BufTy).Contents (Elt F)) (W : (⟨S3x32, .f32⟩ : BufTy).Contents (Elt F)) (b : (⟨S32, .f32⟩ : BufTy).Contents (Elt F)) : (⟨S32768x704, .f32⟩ : BufTy).Contents (Elt F) :=
  shapeCast _ (addf (aggregate32 (Host.dotGeneral dot_S720896x3_S3x32_S720896x32_1_0_0_1_n_n none x W) ei) (broadcastInDim S720896x32 ![0, 1] bcast_S1x32_S720896x32_0_1 (broadcastInDim S1x32 ![1] bcast_S32_S1x32_1 b))) shapeCasts_S720896x32_S32768x704

/-- The encoder's hidden layer. -/
def encHidden (h : (⟨S32768x704, .f32⟩ : BufTy).Contents (Elt F)) (a5 : (⟨S704x1024, .f32⟩ : BufTy).Contents (Elt F)) (a6 : (⟨S1024, .f32⟩ : BufTy).Contents (Elt F)) : (⟨S32768x1024, .f32⟩ : BufTy).Contents (Elt F) :=
  maximumf (addf (Host.dotGeneral dot_S32768x704_S704x1024_S32768x1024_1_0_0_1_n_n none h a5) (broadcastInDim S32768x1024 ![0, 1] bcast_S1x1024_S32768x1024_0_1 (broadcastInDim S1x1024 ![1] bcast_S1024_S1x1024_1 a6))) (broadcastInDim S32768x1024 ![] bcast_S_S32768x1024 (constant (F := F) S_ .f32 0x00000000#32))
/-- A 56-wide head on the hidden layer (the mean, the log-variance). -/
def head (h : (⟨S32768x704, .f32⟩ : BufTy).Contents (Elt F)) (a5 : (⟨S704x1024, .f32⟩ : BufTy).Contents (Elt F)) (a6 : (⟨S1024, .f32⟩ : BufTy).Contents (Elt F)) (w : (⟨S1024x56, .f32⟩ : BufTy).Contents (Elt F)) (b : (⟨S56, .f32⟩ : BufTy).Contents (Elt F)) : (⟨S32768x56, .f32⟩ : BufTy).Contents (Elt F) :=
  addf (Host.dotGeneral dot_S32768x1024_S1024x56_S32768x56_1_0_0_1_n_n none (encHidden h a5 a6) w) (broadcastInDim S32768x56 ![0, 1] bcast_S1x56_S32768x56_0_1 (broadcastInDim S1x56 ![1] bcast_S56_S1x56_1 b))
/-- The latent: the mean plus the noise times the exponential of half the log-variance. -/
def latent (h : (⟨S32768x704, .f32⟩ : BufTy).Contents (Elt F)) (e : (⟨S32768x56, .f32⟩ : BufTy).Contents (Elt F)) (a5 : (⟨S704x1024, .f32⟩ : BufTy).Contents (Elt F)) (a6 : (⟨S1024, .f32⟩ : BufTy).Contents (Elt F)) (a7 : (⟨S1024x56, .f32⟩ : BufTy).Contents (Elt F)) (a8 : (⟨S56, .f32⟩ : BufTy).Contents (Elt F)) (a9 : (⟨S1024x56, .f32⟩ : BufTy).Contents (Elt F)) (a10 : (⟨S56, .f32⟩ : BufTy).Contents (Elt F)) : (⟨S32768x56, .f32⟩ : BufTy).Contents (Elt F) :=
  addf (head h a5 a6 a7 a8) (mulf e (Host.exp (mulf (broadcastInDim S32768x56 ![] bcast_S_S32768x56 (constant (F := F) S_ .f32 0x3F000000#32)) (head h a5 a6 a9 a10))))
/-- The decoded rows from a latent array. -/
def decode (z : (⟨S32768x56, .f32⟩ : BufTy).Contents (Elt F)) (a11 : (⟨S56x1024, .f32⟩ : BufTy).Contents (Elt F)) (a12 : (⟨S1024, .f32⟩ : BufTy).Contents (Elt F)) (a13 : (⟨S1024x704, .f32⟩ : BufTy).Contents (Elt F)) (a14 : (⟨S704, .f32⟩ : BufTy).Contents (Elt F)) : (⟨S32768x704, .f32⟩ : BufTy).Contents (Elt F) :=
  maximumf (addf (Host.dotGeneral dot_S32768x1024_S1024x704_S32768x704_1_0_0_1_n_n none (maximumf (addf (Host.dotGeneral dot_S32768x56_S56x1024_S32768x1024_1_0_0_1_n_n none z a11) (broadcastInDim S32768x1024 ![0, 1] bcast_S1x1024_S32768x1024_0_1 (broadcastInDim S1x1024 ![1] bcast_S1024_S1x1024_1 a12))) (broadcastInDim S32768x1024 ![] bcast_S_S32768x1024 (constant (F := F) S_ .f32 0x00000000#32))) a13) (broadcastInDim S32768x704 ![0, 1] bcast_S1x704_S32768x704_0_1 (broadcastInDim S1x704 ![1] bcast_S704_S1x704_1 a14))) (broadcastInDim S32768x704 ![] bcast_S_S32768x704 (constant (F := F) S_ .f32 0x00000000#32))
/-- The second graph layer on the decoded rows, regrouped by node, plus its bias. -/
def output (d : (⟨S32768x704, .f32⟩ : BufTy).Contents (Elt F)) (ei : (⟨S2x1376256, .i32⟩ : BufTy).Contents (Elt F)) (a15 : (⟨S32x3, .f32⟩ : BufTy).Contents (Elt F)) (a16 : (⟨S3, .f32⟩ : BufTy).Contents (Elt F)) : (⟨S720896x3, .f32⟩ : BufTy).Contents (Elt F) :=
  addf (aggregate3 (Host.dotGeneral dot_S720896x32_S32x3_S720896x3_1_0_0_1_n_n none (shapeCast _ d shapeCasts_S32768x704_S720896x32) a15) ei) (broadcastInDim S720896x3 ![0, 1] bcast_S1x3_S720896x3_0_1 (broadcastInDim S1x3 ![1] bcast_S3_S1x3_1 a16))

variable (m : (ℓ : Loc nD τ sig) → Buf (Elt F) ℓ) (c : Dev nD)

/-- The features the reference computes from its arguments. -/
abbrev feat : (⟨S32768x704, .f32⟩ : BufTy).Contents (Elt F) :=
  features (m ((c.tc : Thread nD τ).loc main_arg0)) (m ((c.tc : Thread nD τ).loc main_arg1)) (m ((c.tc : Thread nD τ).loc main_arg3)) (m ((c.tc : Thread nD τ).loc main_arg4))
/-- The latent the reference computes from its arguments. -/
abbrev lat : (⟨S32768x56, .f32⟩ : BufTy).Contents (Elt F) :=
  latent (feat m c) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The run's mean is the mean head on the features. -/
theorem mean_eq : ValueP.res_main_v56 m c = head (feat m c) (m ((c.tc : Thread nD τ).loc main_arg5)) (m ((c.tc : Thread nD τ).loc main_arg6)) (m ((c.tc : Thread nD τ).loc main_arg7)) (m ((c.tc : Thread nD τ).loc main_arg8)) := by
  unfold ValueP.res_main_v56 feat head encHidden features aggregate32 edgeWeight degInv degree zeroNodes srcIdx dstWrapIdx dstIdx asCol wrapNeg srcCat dstCat
  rfl
/-- The run's log-variance is the log-variance head on the features. -/
theorem logvar_eq : ValueP.res_main_v60 m c = head (feat m c) (m ((c.tc : Thread nD τ).loc main_arg5)) (m ((c.tc : Thread nD τ).loc main_arg6)) (m ((c.tc : Thread nD τ).loc main_arg9)) (m ((c.tc : Thread nD τ).loc main_arg10)) := by
  unfold ValueP.res_main_v60 feat head encHidden features aggregate32 edgeWeight degInv degree zeroNodes srcIdx dstWrapIdx dstIdx asCol wrapNeg srcCat dstCat
  rfl
/-- The run's latent. -/
theorem latent_eq : ValueP.res_main_v65 m c = lat m c := by
  unfold ValueP.res_main_v65 lat feat latent head encHidden features aggregate32 edgeWeight degInv degree zeroNodes srcIdx dstWrapIdx dstIdx asCol wrapNeg srcCat dstCat
  rfl
/-- The run's output is the second graph layer on the decoded latent. -/
theorem output_eq : ValueP.res_main_v119 m c = output (decode (lat m c) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg1)) (m ((c.tc : Thread nD τ).loc main_arg15)) (m ((c.tc : Thread nD τ).loc main_arg16)) := by
  unfold ValueP.res_main_v119 lat feat output decode aggregate3 latent head encHidden features aggregate32 edgeWeight degInv degree zeroNodes srcIdx dstWrapIdx dstIdx asCol wrapNeg srcCat dstCat
  rfl

end Cert.ReferenceIdeal.Stages

end
-- ==== Proof.ReferenceRows.lean ====
/-
  The reference's stages between the graph layers, read row by row.

  On the host a layer is a contraction of the whole batch with a weight matrix, then the bias vector broadcast to a row
  and down the batch. At entry (r, j) that is the affine image of row r (LibDenseRow), so each stage is, row by row, the
  encoder–decoder's row function (MlpRow) and each result one of the four whole-array functions (MlpWhole) of the
  features and the noise, with the weights read by coordinates and each bias by its entry. Only the definitions of the
  operations on the extended reals are opened; no law of arithmetic is used.
-/
import proofs.«122469_j14886356648528_2_alg».proof.Proof.ReferenceStages
import proofs.«122469_j14886356648528_2_alg».proof.Proof.MlpWhole

noncomputable section

open scoped BigOperators

namespace Cert.ReferenceIdeal.Rows

open Cert.ReferenceIdeal Cert.ReferenceIdeal.Gen Idealize.ShloMosaic Idealize.ShloMosaic.ValueIdx
open Cert.LibDenseRow Cert.MlpRow Cert.MlpWhole

/-- The layers' weights as the reference reads them: the argument arrays themselves. -/
def refWeights (a5 : (⟨S704x1024, .f32⟩ : BufTy).Contents (Elt Ideal)) (a6 : (⟨S1024, .f32⟩ : BufTy).Contents (Elt Ideal)) (a7 : (⟨S1024x56, .f32⟩ : BufTy).Contents (Elt Ideal)) (a8 : (⟨S56, .f32⟩ : BufTy).Contents (Elt Ideal))
    (a9 : (⟨S1024x56, .f32⟩ : BufTy).Contents (Elt Ideal)) (a10 : (⟨S56, .f32⟩ : BufTy).Contents (Elt Ideal)) (a11 : (⟨S56x1024, .f32⟩ : BufTy).Contents (Elt Ideal)) (a12 : (⟨S1024, .f32⟩ : BufTy).Contents (Elt Ideal))
    (a13 : (⟨S1024x704, .f32⟩ : BufTy).Contents (Elt Ideal)) (a14 : (⟨S704, .f32⟩ : BufTy).Contents (Elt Ideal)) : Weights where
  We1 k j := a5 (ix2 k j)
  be1 j := a6 (ix1 j)
  Wmu k j := a7 (ix2 k j)
  bmu j := a8 (ix1 j)
  Wlv k j := a9 (ix2 k j)
  blv j := a10 (ix1 j)
  Wd1 k j := a11 (ix2 k j)
  bd1 j := a12 (ix1 j)
  Wd2 k j := a13 (ix2 k j)
  bd2 j := a14 (ix1 j)

variable (P : Weights)

/-- The encoder's hidden layer at an entry. -/
theorem encHidden_apply (h : (⟨S32768x704, .f32⟩ : BufTy).Contents (Elt Ideal)) (a5 : (⟨S704x1024, .f32⟩ : BufTy).Contents (Elt Ideal)) (a6 : (⟨S1024, .f32⟩ : BufTy).Contents (Elt Ideal))
    (hW : ∀ k j, a5 (ix2 k j) = P.We1 k j) (hb : ∀ j, a6 (ix1 j) = P.be1 j) (r : Fin 32768) (j : Fin 1024) :
    Stages.encHidden (F := Ideal) h a5 a6 (ix2 r j) = MlpRow.hidden P (rowOf h r) j := by
  unfold Stages.encHidden MlpRow.hidden relu affine
  show max (Host.dotGeneral (F := Ideal) (φ₁ := .f32) (φ₂ := .f32) dot_S32768x704_S704x1024_S32768x1024_1_0_0_1_n_n none h a5 (ix2 r j)
      + broadcastInDim S32768x1024 ![0, 1] bcast_S1x1024_S32768x1024_0_1 (broadcastInDim S1x1024 ![1] bcast_S1024_S1x1024_1 a6) (ix2 r j))
      (Ideal.ofBits .f32 0x00000000#32) = _
  rw [show Host.dotGeneral (F := Ideal) (φ₁ := .f32) (φ₂ := .f32) dot_S32768x704_S704x1024_S32768x1024_1_0_0_1_n_n none h a5 (ix2 r j)
        = ∑ k : Fin 704, h (ix2 r k) * a5 (ix2 k j) from dotGeneral_apply 32768 704 1024 none _ _ r j,
    biasVec_apply 32768 1024 a6 _ _ r j]
  simp only [hW, hb]

/-- A 56-wide head at an entry. -/
theorem head_apply (h : (⟨S32768x704, .f32⟩ : BufTy).Contents (Elt Ideal)) (a5 : (⟨S704x1024, .f32⟩ : BufTy).Contents (Elt Ideal)) (a6 : (⟨S1024, .f32⟩ : BufTy).Contents (Elt Ideal))
    (hW : ∀ k j, a5 (ix2 k j) = P.We1 k j) (hb : ∀ j, a6 (ix1 j) = P.be1 j)
    (w : (⟨S1024x56, .f32⟩ : BufTy).Contents (Elt Ideal)) (b : (⟨S56, .f32⟩ : BufTy).Contents (Elt Ideal)) (r : Fin 32768) (l : Fin 56) :
    Stages.head (F := Ideal) h a5 a6 w b (ix2 r l)
      = affine (MlpRow.hidden P (rowOf h r)) (fun j l => w (ix2 j l)) (fun l => b (ix1 l)) l := by
  unfold Stages.head affine
  show Host.dotGeneral (F := Ideal) (φ₁ := .f32) (φ₂ := .f32) dot_S32768x1024_S1024x56_S32768x56_1_0_0_1_n_n none (Stages.encHidden (F := Ideal) h a5 a6) w (ix2 r l)
      + broadcastInDim S32768x56 ![0, 1] bcast_S1x56_S32768x56_0_1 (broadcastInDim S1x56 ![1] bcast_S56_S1x56_1 b) (ix2 r l) = _
  rw [show Host.dotGeneral (F := Ideal) (φ₁ := .f32) (φ₂ := .f32) dot_S32768x1024_S1024x56_S32768x56_1_0_0_1_n_n none (Stages.encHidden (F := Ideal) h a5 a6) w (ix2 r l)
        = ∑ j : Fin 1024, Stages.encHidden (F := Ideal) h a5 a6 (ix2 r j) * w (ix2 j l) from dotGeneral_apply 32768 1024 56 none _ _ r l,
    biasVec_apply 32768 56 b _ _ r l]
  simp only [encHidden_apply P h a5 a6 hW hb r]

/-- The latent at an entry. -/
theorem latent_apply (h : (⟨S32768x704, .f32⟩ : BufTy).Contents (Elt Ideal)) (e : (⟨S32768x56, .f32⟩ : BufTy).Contents (Elt Ideal)) (a5 : (⟨S704x1024, .f32⟩ : BufTy).Contents (Elt Ideal)) (a6 : (⟨S1024, .f32⟩ : BufTy).Contents (Elt Ideal))
    (a7 : (⟨S1024x56, .f32⟩ : BufTy).Contents (Elt Ideal)) (a8 : (⟨S56, .f32⟩ : BufTy).Contents (Elt Ideal)) (a9 : (⟨S1024x56, .f32⟩ : BufTy).Contents (Elt Ideal)) (a10 : (⟨S56, .f32⟩ : BufTy).Contents (Elt Ideal))
    (hW : ∀ k j, a5 (ix2 k j) = P.We1 k j) (hb : ∀ j, a6 (ix1 j) = P.be1 j)
    (hWmu : ∀ j l, a7 (ix2 j l) = P.Wmu j l) (hbmu : ∀ l, a8 (ix1 l) = P.bmu l)
    (hWlv : ∀ j l, a9 (ix2 j l) = P.Wlv j l) (hblv : ∀ l, a10 (ix1 l) = P.blv l) (r : Fin 32768) (l : Fin 56) :
    Stages.latent (F := Ideal) h e a5 a6 a7 a8 a9 a10 (ix2 r l) = latent P (rowOf h r) (rowOf e r) l := by
  unfold Stages.latent latent mean logvar half
  show Stages.head (F := Ideal) h a5 a6 a7 a8 (ix2 r l)
      + e (ix2 r l) * Ideal.exp (Ideal.ofBits .f32 0x3F000000#32 * Stages.head (F := Ideal) h a5 a6 a9 a10 (ix2 r l)) = _
  rw [head_apply P h a5 a6 hW hb a7 a8 r l, head_apply P h a5 a6 hW hb a9 a10 r l]
  simp only [hWmu, hbmu, hWlv, hblv]

/-- The decoder at an entry, on ANY latent array. -/
theorem decode_apply (z : (⟨S32768x56, .f32⟩ : BufTy).Contents (Elt Ideal)) (a11 : (⟨S56x1024, .f32⟩ : BufTy).Contents (Elt Ideal)) (a12 : (⟨S1024, .f32⟩ : BufTy).Contents (Elt Ideal))
    (a13 : (⟨S1024x704, .f32⟩ : BufTy).Contents (Elt Ideal)) (a14 : (⟨S704, .f32⟩ : BufTy).Contents (Elt Ideal))
    (hWd1 : ∀ l j, a11 (ix2 l j) = P.Wd1 l j) (hbd1 : ∀ j, a12 (ix1 j) = P.bd1 j)
    (hWd2 : ∀ j k, a13 (ix2 j k) = P.Wd2 j k) (hbd2 : ∀ k, a14 (ix1 k) = P.bd2 k) (r : Fin 32768) (k : Fin 704) :
    Stages.decode (F := Ideal) z a11 a12 a13 a14 (ix2 r k)
      = relu (affine (fun j => relu (affine (rowOf z r) P.Wd1 P.bd1 j)) P.Wd2 P.bd2 k) := by
  unfold Stages.decode relu affine
  show max (Host.dotGeneral (F := Ideal) (φ₁ := .f32) (φ₂ := .f32) dot_S32768x1024_S1024x704_S32768x704_1_0_0_1_n_n none
        (maximumf (addf (Host.dotGeneral (F := Ideal) (φ₁ := .f32) (φ₂ := .f32) dot_S32768x56_S56x1024_S32768x1024_1_0_0_1_n_n none z a11)
          (broadcastInDim S32768x1024 ![0, 1] bcast_S1x1024_S32768x1024_0_1 (broadcastInDim S1x1024 ![1] bcast_S1024_S1x1024_1 a12)))
          (broadcastInDim S32768x1024 ![] bcast_S_S32768x1024 (constant (F := Ideal) S_ .f32 0x00000000#32))) a13 (ix2 r k)
      + broadcastInDim S32768x704 ![0, 1] bcast_S1x704_S32768x704_0_1 (broadcastInDim S1x704 ![1] bcast_S704_S1x704_1 a14) (ix2 r k))
      (Ideal.ofBits .f32 0x00000000#32) = _
  rw [show Host.dotGeneral (F := Ideal) (φ₁ := .f32) (φ₂ := .f32) dot_S32768x1024_S1024x704_S32768x704_1_0_0_1_n_n none
        (maximumf (addf (Host.dotGeneral (F := Ideal) (φ₁ := .f32) (φ₂ := .f32) dot_S32768x56_S56x1024_S32768x1024_1_0_0_1_n_n none z a11)
          (broadcastInDim S32768x1024 ![0, 1] bcast_S1x1024_S32768x1024_0_1 (broadcastInDim S1x1024 ![1] bcast_S1024_S1x1024_1 a12)))
          (broadcastInDim S32768x1024 ![] bcast_S_S32768x1024 (constant (F := Ideal) S_ .f32 0x00000000#32))) a13 (ix2 r k)
      = ∑ j : Fin 1024, max (Host.dotGeneral (F := Ideal) (φ₁ := .f32) (φ₂ := .f32) dot_S32768x56_S56x1024_S32768x1024_1_0_0_1_n_n none z a11 (ix2 r j)
            + broadcastInDim S32768x1024 ![0, 1] bcast_S1x1024_S32768x1024_0_1 (broadcastInDim S1x1024 ![1] bcast_S1024_S1x1024_1 a12) (ix2 r j))
          (Ideal.ofBits .f32 0x00000000#32) * a13 (ix2 j k)
      from dotGeneral_apply 32768 1024 704 none _ _ r k,
    biasVec_apply 32768 704 a14 _ _ r k]
  simp only [show ∀ j : Fin 1024, Host.dotGeneral (F := Ideal) (φ₁ := .f32) (φ₂ := .f32) dot_S32768x56_S56x1024_S32768x1024_1_0_0_1_n_n none z a11 (ix2 r j)
      = ∑ l : Fin 56, z (ix2 r l) * a11 (ix2 l j) from fun j => dotGeneral_apply 32768 56 1024 none _ _ r j,
    biasVec_apply 32768 1024 a12 _ _ r, hWd1, hbd1, hWd2, hbd2]

end Cert.ReferenceIdeal.Rows

end
-- ==== Proof.ReferenceValue.lean ====
/-
  The reference's run, read: its four results as whole-array functions.

  With F the features the reference computes from its arguments (the first graph layer, by pose), E the noise and P the
  weights read by coordinates, the run ends with the mean, the log-variance and the latent at MlpWhole's arrays of F
  (and E), and the output at the second graph layer of the decoded array of F and E.
-/
import proofs.«122469_j14886356648528_2_alg».proof.Proof.ReferenceRows

noncomputable section

namespace Cert.ReferenceIdeal.Read

open Cert.ReferenceIdeal Cert.ReferenceIdeal.Gen Idealize.ShloMosaic Idealize.ShloMosaic.TcCoe Idealize.ShloMosaic.ValueIdx Idealize.SL.Sem
open Cert.LibDenseRow Cert.MlpRow Cert.MlpWhole Cert.ReferenceIdeal.Rows

section Arrays
variable (h : (⟨S32768x704, .f32⟩ : BufTy).Contents (Elt Ideal)) (e : (⟨S32768x56, .f32⟩ : BufTy).Contents (Elt Ideal))
  (a5 : (⟨S704x1024, .f32⟩ : BufTy).Contents (Elt Ideal)) (a6 : (⟨S1024, .f32⟩ : BufTy).Contents (Elt Ideal)) (a7 : (⟨S1024x56, .f32⟩ : BufTy).Contents (Elt Ideal)) (a8 : (⟨S56, .f32⟩ : BufTy).Contents (Elt Ideal))
  (a9 : (⟨S1024x56, .f32⟩ : BufTy).Contents (Elt Ideal)) (a10 : (⟨S56, .f32⟩ : BufTy).Contents (Elt Ideal)) (a11 : (⟨S56x1024, .f32⟩ : BufTy).Contents (Elt Ideal)) (a12 : (⟨S1024, .f32⟩ : BufTy).Contents (Elt Ideal))
  (a13 : (⟨S1024x704, .f32⟩ : BufTy).Contents (Elt Ideal)) (a14 : (⟨S704, .f32⟩ : BufTy).Contents (Elt Ideal))

/-- The mean head is the mean array. -/
theorem mean_arr : Stages.head (F := Ideal) h a5 a6 a7 a8 = meanArr (refWeights a5 a6 a7 a8 a9 a10 a11 a12 a13 a14) h := by
  refine funext fun (i : S32768x56.Idx) => ?_
  obtain ⟨r, l, rfl⟩ : ∃ (r : Fin 32768) (l : Fin 56), i = ix2 r l := ⟨i 0, i 1, eq_ix2 i⟩
  rw [head_apply (refWeights a5 a6 a7 a8 a9 a10 a11 a12 a13 a14) h a5 a6 (fun _ _ => rfl) (fun _ => rfl) a7 a8 r l]
  unfold meanArr
  rw [ofCoords_ix2]
  rfl

/-- The log-variance head is the log-variance array. -/
theorem logvar_arr : Stages.head (F := Ideal) h a5 a6 a9 a10 = logvarArr (refWeights a5 a6 a7 a8 a9 a10 a11 a12 a13 a14) h := by
  refine funext fun (i : S32768x56.Idx) => ?_
  obtain ⟨r, l, rfl⟩ : ∃ (r : Fin 32768) (l : Fin 56), i = ix2 r l := ⟨i 0, i 1, eq_ix2 i⟩
  rw [head_apply (refWeights a5 a6 a7 a8 a9 a10 a11 a12 a13 a14) h a5 a6 (fun _ _ => rfl) (fun _ => rfl) a9 a10 r l]
  unfold logvarArr
  rw [ofCoords_ix2]
  rfl

/-- The latent stage is the latent array. -/
theorem latent_arr : Stages.latent (F := Ideal) h e a5 a6 a7 a8 a9 a10 = latentArr (refWeights a5 a6 a7 a8 a9 a10 a11 a12 a13 a14) h e := by
  refine funext fun (i : S32768x56.Idx) => ?_
  obtain ⟨r, l, rfl⟩ : ∃ (r : Fin 32768) (l : Fin 56), i = ix2 r l := ⟨i 0, i 1, eq_ix2 i⟩
  rw [latent_apply (refWeights a5 a6 a7 a8 a9 a10 a11 a12 a13 a14) h e a5 a6 a7 a8 a9 a10 (fun _ _ => rfl) (fun _ => rfl)
    (fun _ _ => rfl) (fun _ => rfl) (fun _ _ => rfl) (fun _ => rfl) r l]
  unfold latentArr
  rw [ofCoords_ix2]

/-- The decoder on the latent array is the decoded array. -/
theorem decoded_arr : Stages.decode (F := Ideal) (latentArr (refWeights a5 a6 a7 a8 a9 a10 a11 a12 a13 a14) h e) a11 a12 a13 a14
    = decodedArr (refWeights a5 a6 a7 a8 a9 a10 a11 a12 a13 a14) h e := by
  refine funext fun (i : S32768x704.Idx) => ?_
  obtain ⟨r, k, rfl⟩ : ∃ (r : Fin 32768) (k : Fin 704), i = ix2 r k := ⟨i 0, i 1, eq_ix2 i⟩
  rw [decode_apply (refWeights a5 a6 a7 a8 a9 a10 a11 a12 a13 a14) _ a11 a12 a13 a14 (fun _ _ => rfl) (fun _ => rfl)
    (fun _ _ => rfl) (fun _ => rfl) r k]
  unfold decodedArr
  rw [ofCoords_ix2]
  rfl

end Arrays

variable (m : (ℓ : Loc nD τ sig) → Buf (Elt Ideal) ℓ) (ρ : Dev nD → PrngReg)

/-- The weights as the reference reads them off its arguments. -/
abbrev weights (c : Dev nD) : Weights := (refWeights (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))

/-- The run restated: each result at its whole-array function of the features, the noise and the weights. -/
theorem run : θ_run defs (onTc (τ := τ) (main (F := Ideal))) ⟨m, fun _ => 0, ρ⟩ fun r => ∀ c : Dev nD,
      r.2.mem ((c.tc : Thread nD τ).loc main_v119) = Stages.output (F := Ideal) (decodedArr (weights m c) (Stages.feat m c) (m ((c.tc : Thread nD τ).loc main_arg2))) (m ((c.tc : Thread nD τ).loc main_arg1)) (m ((c.tc : Thread nD τ).loc main_arg15)) (m ((c.tc : Thread nD τ).loc main_arg16))
      ∧ r.2.mem ((c.tc : Thread nD τ).loc main_v65) = latentArr (weights m c) (Stages.feat m c) (m ((c.tc : Thread nD τ).loc main_arg2))
      ∧ r.2.mem ((c.tc : Thread nD τ).loc main_v56) = meanArr (weights m c) (Stages.feat m c)
      ∧ r.2.mem ((c.tc : Thread nD τ).loc main_v60) = logvarArr (weights m c) (Stages.feat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨(h c).1.trans ((Stages.output_eq m c).trans (by
        rw [show Stages.lat m c = latentArr (weights m c) (Stages.feat m c) (m ((c.tc : Thread nD τ).loc main_arg2)) from latent_arr _ _ _ _ _ _ _ _ _ _ _ _,
          decoded_arr])),
      (h c).2.1.trans ((Stages.latent_eq m c).trans (latent_arr _ _ _ _ _ _ _ _ _ _ _ _)),
      (h c).2.2.1.trans ((Stages.mean_eq m c).trans (mean_arr _ _ _ _ _ _ _ _ _ _ _)),
      (h c).2.2.2.1.trans ((Stages.logvar_eq m c).trans (logvar_arr _ _ _ _ _ _ _ _ _ _ _)),
      (h c).2.2.2.2⟩)
    (ValueP.run (F := Ideal) m ρ)

end Cert.ReferenceIdeal.Read

end
-- ==== Proof.KernelHost.lean ====
/-
  The kernel program's host operations before its one region, as terms of @main's arguments.

  Before the region @main builds the edge list (the given `[2, 1376256]` array with one self loop per node appended:
  `srcCat`, `dstCat`), the degree of every node and its factor `degInv` (the inverse square root of the degree where
  that is positive, zero elsewhere), the edge weights (the product of the two ends' factors), and the first graph layer:
  the rows of the node features gathered along the edges, scaled by the edge weights and summed into the target nodes
  (`aggregate3`), multiplied by the weight matrix, the bias added, regrouped 22 nodes to a row (`features`). It also
  narrows two weight matrices and turns five bias vectors into rows. The operations come in three stretches (the lines
  before the call of the function that selects the degree factor, that function's three lines, the lines after it); each
  stretch is read over arbitrary contents of the buffers it starts from, and the three are then composed.
-/
import proofs.«122469_j14886356648528_2_alg».proof.Proof.Gen.KernelIdeal.Frame
import Idealize.ShloMosaic.Lib.StableHlo.Run
import Idealize.ShloMosaic.PureOps.Ideal
import Idealize.ShloMosaic.Lib.ValueIdx
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem

/-! ## The stages -/

section Stages
variable {F : FTy → Type} [FloatOps F]

/-- The edges' source nodes: the given sources, then every node (its self loop). -/
def srcCat (ei : (⟨S2x1376256, .i32⟩ : BufTy).Contents (Elt F)) : (⟨S2097152, .i32⟩ : BufTy).Contents (Elt F) :=
  concatenate S2097152 0 [⟨S1376256, (shapeCast _ (extractStridedSlice S1x1376256 ![0, 0] ei Facts₀.slices_S2x1376256_S1x1376256_0_0) Facts₀.shapeCasts_S1x1376256_S1376256)⟩, ⟨S720896, (iotaInDim S720896 32 0)⟩] Facts₀.concatenates_S1376256_S720896_S2097152_d0
/-- The edges' target nodes. -/
def dstCat (ei : (⟨S2x1376256, .i32⟩ : BufTy).Contents (Elt F)) : (⟨S2097152, .i32⟩ : BufTy).Contents (Elt F) :=
  concatenate S2097152 0 [⟨S1376256, (shapeCast _ (extractStridedSlice S1x1376256 ![1, 0] ei Facts₀.slices_S2x1376256_S1x1376256_1_0) Facts₀.shapeCasts_S1x1376256_S1376256)⟩, ⟨S720896, (iotaInDim S720896 32 0)⟩] Facts₀.concatenates_S1376256_S720896_S2097152_d0
/-- A negative node number counts from the end. -/
def wrapNeg (v : (⟨S2097152, .i32⟩ : BufTy).Contents (Elt F)) : (⟨S2097152, .i32⟩ : BufTy).Contents (Elt F) :=
  select (cmpi .slt v (broadcastInDim S2097152 ![] Facts₀.bcast_S_S2097152 (constantI S_ 32 0#32))) (addi v (broadcastInDim S2097152 ![] Facts₀.bcast_S_S2097152 (constantI S_ 32 720896#32))) v
/-- A list of node numbers as a one-column array of indices. -/
def asCol (v : (⟨S2097152, .i32⟩ : BufTy).Contents (Elt F)) : (⟨S2097152x1, .i32⟩ : BufTy).Contents (Elt F) :=
  broadcastInDim S2097152x1 ![0] Facts₀.bcast_S2097152_S2097152x1_0 v
/-- Where an edge gathers from. -/
def srcIdx (ei : (⟨S2x1376256, .i32⟩ : BufTy).Contents (Elt F)) : (⟨S2097152x1, .i32⟩ : BufTy).Contents (Elt F) := asCol (wrapNeg (srcCat (F := F) ei))
/-- Where an edge's target factor is gathered from. -/
def dstWrapIdx (ei : (⟨S2x1376256, .i32⟩ : BufTy).Contents (Elt F)) : (⟨S2097152x1, .i32⟩ : BufTy).Contents (Elt F) := asCol (wrapNeg (dstCat (F := F) ei))
/-- Where an edge is summed into. -/
def dstIdx (ei : (⟨S2x1376256, .i32⟩ : BufTy).Contents (Elt F)) : (⟨S2097152x1, .i32⟩ : BufTy).Contents (Elt F) := asCol (dstCat (F := F) ei)

/-- The zero vector over the nodes. -/
def zeroNodes : (⟨S720896, .f32⟩ : BufTy).Contents (Elt F) := broadcastInDim S720896 ![] Facts₀.bcast_S_S720896 (constant (F := F) S_ .f32 0x00000000#32)
/-- The number of edges ending in each node. -/
def degree (ei : (⟨S2x1376256, .i32⟩ : BufTy).Contents (Elt F)) : (⟨S720896, .f32⟩ : BufTy).Contents (Elt F) :=
  Host.scatterAdd scatter_S720896_S2097152x1_S2097152_n_0_0_1 (zeroNodes (F := F)) (dstIdx (F := F) ei) (broadcastInDim S2097152 ![] Facts₀.bcast_S_S2097152 (constant (F := F) S_ .f32 0x3F800000#32))
/-- The inverse square root of the degree where it is positive, zero elsewhere. -/
def degInv (ei : (⟨S2x1376256, .i32⟩ : BufTy).Contents (Elt F)) : (⟨S720896, .f32⟩ : BufTy).Contents (Elt F) :=
  select (cmpf (F := F) .ogt (degree (F := F) ei) (zeroNodes (F := F))) (Host.rsqrt (degree (F := F) ei)) (broadcastInDim S720896 ![] Facts₀.bcast_S_S720896 (id (constant (F := F) S_ .f32 0x00000000#32)))
/-- An edge's weight: the product of its two ends' factors. -/
def edgeWeight (ei : (⟨S2x1376256, .i32⟩ : BufTy).Contents (Elt F)) : (⟨S2097152, .f32⟩ : BufTy).Contents (Elt F) :=
  mulf (Host.gather gather_S720896_S2097152x1_S2097152_n_0_n_n_0_1_1 (degInv (F := F) ei) (srcIdx (F := F) ei)) (Host.gather gather_S720896_S2097152x1_S2097152_n_0_n_n_0_1_1 (degInv (F := F) ei) (dstWrapIdx (F := F) ei))

/-- A graph layer's aggregation of rows of 3. -/
def aggregate3 (rows : (⟨S720896x3, .f32⟩ : BufTy).Contents (Elt F)) (ei : (⟨S2x1376256, .i32⟩ : BufTy).Contents (Elt F)) : (⟨S720896x3, .f32⟩ : BufTy).Contents (Elt F) :=
  Host.scatterAdd scatter_S720896x3_S2097152x1_S2097152x3_1_0_0_1 (broadcastInDim S720896x3 ![] Facts₀.bcast_S_S720896x3 (constant (F := F) S_ .f32 0x00000000#32)) (dstIdx (F := F) ei) (mulf (Host.gather gather_S720896x3_S2097152x1_S2097152x3_1_0_n_n_0_1_13 rows (srcIdx (F := F) ei)) (broadcastInDim S2097152x3 ![0, 1] Facts₀.bcast_S2097152x1_S2097152x3_0_1 (broadcastInDim S2097152x1 ![0] Facts₀.bcast_S2097152_S2097152x1_0 (edgeWeight (F := F) ei))))

/-- The node features by pose, as this program computes them: the first graph layer's aggregation of `x`, times `W`,
    plus its bias, 22 nodes to a row. -/
def features (x : (⟨S720896x3, .f32⟩ : BufTy).Contents (Elt F)) (ei : (⟨S2x1376256, .i32⟩ : BufTy).Contents (Elt F)) (W : (⟨S3x32, .f32⟩ : BufTy).Contents (Elt F)) (b : (⟨S32, .f32⟩ : BufTy).Contents (Elt F)) : (⟨S32768x704, .f32⟩ : BufTy).Contents (Elt F) :=
  shapeCast _ (addf (Host.dotGeneral dot_S720896x3_S3x32_S720896x32_1_0_0_1_n_n none (aggregate3 x ei) W) (broadcastInDim S720896x32 ![0, 1] Facts₀.bcast_S1x32_S720896x32_0_1 (broadcastInDim S1x32 ![1] Facts₀.bcast_S32_S1x32_1 b))) Facts₀.shapeCasts_S720896x32_S32768x704

/-- The degree factors from the pieces the first stretch leaves: the flag "the degree is positive", the inverse square
    roots, and the zero that is broadcast over the nodes in their place. -/
def degInvOf (pos : (⟨S720896, .i1⟩ : BufTy).Contents (Elt F)) (rs : (⟨S720896, .f32⟩ : BufTy).Contents (Elt F)) (z : (⟨S_, .f32⟩ : BufTy).Contents (Elt F)) : (⟨S720896, .f32⟩ : BufTy).Contents (Elt F) :=
  select pos rs (broadcastInDim S720896 ![] Facts₀.bcast_S_S720896 (id z))

/-- The edge weights from the source and target nodes as given and the degree factors. -/
def edgeWeightOf (s d : (⟨S2097152, .i32⟩ : BufTy).Contents (Elt F)) (dinv : (⟨S720896, .f32⟩ : BufTy).Contents (Elt F)) : (⟨S2097152, .f32⟩ : BufTy).Contents (Elt F) :=
  mulf (Host.gather gather_S720896_S2097152x1_S2097152_n_0_n_n_0_1_1 dinv (asCol (wrapNeg s))) (Host.gather gather_S720896_S2097152x1_S2097152_n_0_n_n_0_1_1 dinv (asCol (wrapNeg d)))

/-- The features from the pieces the earlier stretches leave: the source and target nodes as given and the degree
    factors. -/
def featuresOf (x : (⟨S720896x3, .f32⟩ : BufTy).Contents (Elt F)) (s d : (⟨S2097152, .i32⟩ : BufTy).Contents (Elt F)) (dinv : (⟨S720896, .f32⟩ : BufTy).Contents (Elt F)) (W : (⟨S3x32, .f32⟩ : BufTy).Contents (Elt F)) (b : (⟨S32, .f32⟩ : BufTy).Contents (Elt F)) : (⟨S32768x704, .f32⟩ : BufTy).Contents (Elt F) :=
  shapeCast _ (addf (Host.dotGeneral dot_S720896x3_S3x32_S720896x32_1_0_0_1_n_n none (Host.scatterAdd scatter_S720896x3_S2097152x1_S2097152x3_1_0_0_1 (broadcastInDim S720896x3 ![] Facts₀.bcast_S_S720896x3 (constant (F := F) S_ .f32 0x00000000#32)) (asCol d) (mulf (Host.gather gather_S720896x3_S2097152x1_S2097152x3_1_0_n_n_0_1_13 x (asCol (wrapNeg s))) (broadcastInDim S2097152x3 ![0, 1] Facts₀.bcast_S2097152x1_S2097152x3_0_1 (broadcastInDim S2097152x1 ![0] Facts₀.bcast_S2097152_S2097152x1_0 (edgeWeightOf s d dinv))))) W) (broadcastInDim S720896x32 ![0, 1] Facts₀.bcast_S1x32_S720896x32_0_1 (broadcastInDim S1x32 ![1] Facts₀.bcast_S32_S1x32_1 b))) Facts₀.shapeCasts_S720896x32_S32768x704

end Stages

/-! ## Reading a stretch of operations -/

/-- An operation's result at its own buffer is its function's value, at any other buffer what was there before: applied
    wherever a result is still unread (inside the pairs a concatenation is given its operands in, too). -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- One stretch of operations read at one buffer: each operation's result at its own buffer is its function's value, at
    any other buffer what was there; what is left is the stated term. -/
local macro "stretch" : tactic =>
  `(tactic| (after_results_simp <;> (results_rw <;> rfl)))

/-- Operations run one list after another are their concatenation run as one. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons, ih]

/-! ## The first stretch: the edge lists and the degrees -/

/-- The first stretch leaves in the buffer of `%5` the edges' source nodes. -/
theorem s0_v5 (Vl : Valuation τ sig (Elt Ideal)) :
    (StableHlo.after hostOps0 Vl (Proc.devRef .tc main_v5) : (⟨S2097152, .i32⟩ : BufTy).Contents (Elt Ideal)) = srcCat (F := Ideal) (Vl (Proc.devRef .tc main_arg1)) := by
  simp only [hostOps0]
  stretch

/-- The first stretch leaves in the buffer of `%6` the edges' target nodes. -/
theorem s0_v6 (Vl : Valuation τ sig (Elt Ideal)) :
    (StableHlo.after hostOps0 Vl (Proc.devRef .tc main_v6) : (⟨S2097152, .i32⟩ : BufTy).Contents (Elt Ideal)) = dstCat (F := Ideal) (Vl (Proc.devRef .tc main_arg1)) := by
  simp only [hostOps0]
  stretch

/-- The first stretch leaves in the buffer of `%12`, per node, whether its degree is positive. -/
theorem s0_v12 (Vl : Valuation τ sig (Elt Ideal)) :
    (StableHlo.after hostOps0 Vl (Proc.devRef .tc main_v12) : (⟨S720896, .i1⟩ : BufTy).Contents (Elt Ideal)) = cmpf (F := Ideal) (φ := .f32) .ogt (degree (F := Ideal) (Vl (Proc.devRef .tc main_arg1))) (zeroNodes (F := Ideal)) := by
  simp only [hostOps0]
  stretch

/-- The first stretch leaves in the buffer of `%13` the inverse square roots of the degrees. -/
theorem s0_v13 (Vl : Valuation τ sig (Elt Ideal)) :
    (StableHlo.after hostOps0 Vl (Proc.devRef .tc main_v13) : (⟨S720896, .f32⟩ : BufTy).Contents (Elt Ideal)) = Host.rsqrt (F := Ideal) (s := S720896) (φ := .f32) (degree (F := Ideal) (Vl (Proc.devRef .tc main_arg1))) := by
  simp only [hostOps0]
  stretch

/-- The first stretch leaves zero in the buffer of `%cst_2`. -/
theorem s0_cst_2 (Vl : Valuation τ sig (Elt Ideal)) :
    (StableHlo.after hostOps0 Vl (Proc.devRef .tc main_cst_2) : (⟨S_, .f32⟩ : BufTy).Contents (Elt Ideal)) = constant (F := Ideal) S_ .f32 0x00000000#32 := by
  simp only [hostOps0]
  stretch

/-- The first stretch leaves the buffer of `%arg0`. -/
theorem s0_arg0 (Vl : Valuation τ sig (Elt Ideal)) :
    (StableHlo.after hostOps0 Vl (Proc.devRef .tc main_arg0) : (⟨S720896x3, .f32⟩ : BufTy).Contents (Elt Ideal)) = (Vl (Proc.devRef .tc main_arg0)) := by
  simp only [hostOps0]
  stretch

/-- The first stretch leaves the buffer of `%arg3`. -/
theorem s0_arg3 (Vl : Valuation τ sig (Elt Ideal)) :
    (StableHlo.after hostOps0 Vl (Proc.devRef .tc main_arg3) : (⟨S3x32, .f32⟩ : BufTy).Contents (Elt Ideal)) = (Vl (Proc.devRef .tc main_arg3)) := by
  simp only [hostOps0]
  stretch

/-- The first stretch leaves the buffer of `%arg4`. -/
theorem s0_arg4 (Vl : Valuation τ sig (Elt Ideal)) :
    (StableHlo.after hostOps0 Vl (Proc.devRef .tc main_arg4) : (⟨S32, .f32⟩ : BufTy).Contents (Elt Ideal)) = (Vl (Proc.devRef .tc main_arg4)) := by
  simp only [hostOps0]
  stretch

/-- The first stretch leaves the buffer of `%arg5`. -/
theorem s0_arg5 (Vl : Valuation τ sig (Elt Ideal)) :
    (StableHlo.after hostOps0 Vl (Proc.devRef .tc main_arg5) : (⟨S704x1024, .f32⟩ : BufTy).Contents (Elt Ideal)) = (Vl (Proc.devRef .tc main_arg5)) := by
  simp only [hostOps0]
  stretch

/-- The first stretch leaves the buffer of `%arg6`. -/
theorem s0_arg6 (Vl : Valuation τ sig (Elt Ideal)) :
    (StableHlo.after hostOps0 Vl (Proc.devRef .tc main_arg6) : (⟨S1024, .f32⟩ : BufTy).Contents (Elt Ideal)) = (Vl (Proc.devRef .tc main_arg6)) := by
  simp only [hostOps0]
  stretch

/-- The first stretch leaves the buffer of `%arg8`. -/
theorem s0_arg8 (Vl : Valuation τ sig (Elt Ideal)) :
    (StableHlo.after hostOps0 Vl (Proc.devRef .tc main_arg8) : (⟨S56, .f32⟩ : BufTy).Contents (Elt Ideal)) = (Vl (Proc.devRef .tc main_arg8)) := by
  simp only [hostOps0]
  stretch

/-- The first stretch leaves the buffer of `%arg10`. -/
theorem s0_arg10 (Vl : Valuation τ sig (Elt Ideal)) :
    (StableHlo.after hostOps0 Vl (Proc.devRef .tc main_arg10) : (⟨S56, .f32⟩ : BufTy).Contents (Elt Ideal)) = (Vl (Proc.devRef .tc main_arg10)) := by
  simp only [hostOps0]
  stretch

/-- The first stretch leaves the buffer of `%arg12`. -/
theorem s0_arg12 (Vl : Valuation τ sig (Elt Ideal)) :
    (StableHlo.after hostOps0 Vl (Proc.devRef .tc main_arg12) : (⟨S1024, .f32⟩ : BufTy).Contents (Elt Ideal)) = (Vl (Proc.devRef .tc main_arg12)) := by
  simp only [hostOps0]
  stretch

/-- The first stretch leaves the buffer of `%arg13`. -/
theorem s0_arg13 (Vl : Valuation τ sig (Elt Ideal)) :
    (StableHlo.after hostOps0 Vl (Proc.devRef .tc main_arg13) : (⟨S1024x704, .f32⟩ : BufTy).Contents (Elt Ideal)) = (Vl (Proc.devRef .tc main_arg13)) := by
  simp only [hostOps0]
  stretch

/-- The first stretch leaves the buffer of `%arg14`. -/
theorem s0_arg14 (Vl : Valuation τ sig (Elt Ideal)) :
    (StableHlo.after hostOps0 Vl (Proc.devRef .tc main_arg14) : (⟨S704, .f32⟩ : BufTy).Contents (Elt Ideal)) = (Vl (Proc.devRef .tc main_arg14)) := by
  simp only [hostOps0]
  stretch

/-! ## The second stretch: the degree factors -/

/-- The second stretch leaves in the buffer of `%14` the selection, per node, between the buffer of `%13` and the broadcast buffer of `%cst_2`, by the buffer of `%12`. -/
theorem s1_v14 (Vl : Valuation τ sig (Elt Ideal)) :
    (StableHlo.after hostOps0_1 Vl (Proc.devRef .tc main_v14) : (⟨S720896, .f32⟩ : BufTy).Contents (Elt Ideal)) = degInvOf (F := Ideal) (Vl (Proc.devRef .tc main_v12)) (Vl (Proc.devRef .tc main_v13)) (Vl (Proc.devRef .tc main_cst_2)) := by
  simp only [hostOps0_1]
  stretch

/-- The second stretch leaves the buffer of `%5`. -/
theorem s1_v5 (Vl : Valuation τ sig (Elt Ideal)) :
    (StableHlo.after hostOps0_1 Vl (Proc.devRef .tc main_v5) : (⟨S2097152, .i32⟩ : BufTy).Contents (Elt Ideal)) = (Vl (Proc.devRef .tc main_v5)) := by
  simp only [hostOps0_1]
  stretch

/-- The second stretch leaves the buffer of `%6`. -/
theorem s1_v6 (Vl : Valuation τ sig (Elt Ideal)) :
    (StableHlo.after hostOps0_1 Vl (Proc.devRef .tc main_v6) : (⟨S2097152, .i32⟩ : BufTy).Contents (Elt Ideal)) = (Vl (Proc.devRef .tc main_v6)) := by
  simp only [hostOps0_1]
  stretch

/-- The second stretch leaves the buffer of `%arg0`. -/
theorem s1_arg0 (Vl : Valuation τ sig (Elt Ideal)) :
    (StableHlo.after hostOps0_1 Vl (Proc.devRef .tc main_arg0) : (⟨S720896x3, .f32⟩ : BufTy).Contents (Elt Ideal)) = (Vl (Proc.devRef .tc main_arg0)) := by
  simp only [hostOps0_1]
  stretch

/-- The second stretch leaves the buffer of `%arg3`. -/
theorem s1_arg3 (Vl : Valuation τ sig (Elt Ideal)) :
    (StableHlo.after hostOps0_1 Vl (Proc.devRef .tc main_arg3) : (⟨S3x32, .f32⟩ : BufTy).Contents (Elt Ideal)) = (Vl (Proc.devRef .tc main_arg3)) := by
  simp only [hostOps0_1]
  stretch

/-- The second stretch leaves the buffer of `%arg4`. -/
theorem s1_arg4 (Vl : Valuation τ sig (Elt Ideal)) :
    (StableHlo.after hostOps0_1 Vl (Proc.devRef .tc main_arg4) : (⟨S32, .f32⟩ : BufTy).Contents (Elt Ideal)) = (Vl (Proc.devRef .tc main_arg4)) := by
  simp only [hostOps0_1]
  stretch

/-- The second stretch leaves the buffer of `%arg5`. -/
theorem s1_arg5 (Vl : Valuation τ sig (Elt Ideal)) :
    (StableHlo.after hostOps0_1 Vl (Proc.devRef .tc main_arg5) : (⟨S704x1024, .f32⟩ : BufTy).Contents (Elt Ideal)) = (Vl (Proc.devRef .tc main_arg5)) := by
  simp only [hostOps0_1]
  stretch

/-- The second stretch leaves the buffer of `%arg6`. -/
theorem s1_arg6 (Vl : Valuation τ sig (Elt Ideal)) :
    (StableHlo.after hostOps0_1 Vl (Proc.devRef .tc main_arg6) : (⟨S1024, .f32⟩ : BufTy).Contents (Elt Ideal)) = (Vl (Proc.devRef .tc main_arg6)) := by
  simp only [hostOps0_1]
  stretch

/-- The second stretch leaves the buffer of `%arg8`. -/
theorem s1_arg8 (Vl : Valuation τ sig (Elt Ideal)) :
    (StableHlo.after hostOps0_1 Vl (Proc.devRef .tc main_arg8) : (⟨S56, .f32⟩ : BufTy).Contents (Elt Ideal)) = (Vl (Proc.devRef .tc main_arg8)) := by
  simp only [hostOps0_1]
  stretch

/-- The second stretch leaves the buffer of `%arg10`. -/
theorem s1_arg10 (Vl : Valuation τ sig (Elt Ideal)) :
    (StableHlo.after hostOps0_1 Vl (Proc.devRef .tc main_arg10) : (⟨S56, .f32⟩ : BufTy).Contents (Elt Ideal)) = (Vl (Proc.devRef .tc main_arg10)) := by
  simp only [hostOps0_1]
  stretch

/-- The second stretch leaves the buffer of `%arg12`. -/
theorem s1_arg12 (Vl : Valuation τ sig (Elt Ideal)) :
    (StableHlo.after hostOps0_1 Vl (Proc.devRef .tc main_arg12) : (⟨S1024, .f32⟩ : BufTy).Contents (Elt Ideal)) = (Vl (Proc.devRef .tc main_arg12)) := by
  simp only [hostOps0_1]
  stretch

/-- The second stretch leaves the buffer of `%arg13`. -/
theorem s1_arg13 (Vl : Valuation τ sig (Elt Ideal)) :
    (StableHlo.after hostOps0_1 Vl (Proc.devRef .tc main_arg13) : (⟨S1024x704, .f32⟩ : BufTy).Contents (Elt Ideal)) = (Vl (Proc.devRef .tc main_arg13)) := by
  simp only [hostOps0_1]
  stretch

/-- The second stretch leaves the buffer of `%arg14`. -/
theorem s1_arg14 (Vl : Valuation τ sig (Elt Ideal)) :
    (StableHlo.after hostOps0_1 Vl (Proc.devRef .tc main_arg14) : (⟨S704, .f32⟩ : BufTy).Contents (Elt Ideal)) = (Vl (Proc.devRef .tc main_arg14)) := by
  simp only [hostOps0_1]
  stretch

/-! ## The third stretch: the edge weights, the first graph layer, and the kernel's other inputs -/

/-- The third stretch leaves in the buffer of `%29` the edge weights. -/
theorem s2_v29 (Vl : Valuation τ sig (Elt Ideal)) :
    (StableHlo.after hostOps0_2 Vl (Proc.devRef .tc main_v29) : (⟨S2097152, .f32⟩ : BufTy).Contents (Elt Ideal)) = edgeWeightOf (F := Ideal) (Vl (Proc.devRef .tc main_v5)) (Vl (Proc.devRef .tc main_v6)) (Vl (Proc.devRef .tc main_v14)) := by
  simp only [hostOps0_2]
  stretch

/-- The third stretch leaves in the buffer of `%47` the first graph layer's output. -/
theorem s2_v47 (Vl : Valuation τ sig (Elt Ideal)) :
    (StableHlo.after hostOps0_2 Vl (Proc.devRef .tc main_v47) : (⟨S32768x704, .f32⟩ : BufTy).Contents (Elt Ideal)) = featuresOf (F := Ideal) (Vl (Proc.devRef .tc main_arg0)) (Vl (Proc.devRef .tc main_v5)) (Vl (Proc.devRef .tc main_v6)) (Vl (Proc.devRef .tc main_v14)) (Vl (Proc.devRef .tc main_arg3)) (Vl (Proc.devRef .tc main_arg4)) := by
  simp only [hostOps0_2]
  stretch

/-- The third stretch leaves the buffer of `%5`. -/
theorem s2_v5 (Vl : Valuation τ sig (Elt Ideal)) :
    (StableHlo.after hostOps0_2 Vl (Proc.devRef .tc main_v5) : (⟨S2097152, .i32⟩ : BufTy).Contents (Elt Ideal)) = (Vl (Proc.devRef .tc main_v5)) := by
  simp only [hostOps0_2]
  stretch

/-- The third stretch leaves the buffer of `%6`. -/
theorem s2_v6 (Vl : Valuation τ sig (Elt Ideal)) :
    (StableHlo.after hostOps0_2 Vl (Proc.devRef .tc main_v6) : (⟨S2097152, .i32⟩ : BufTy).Contents (Elt Ideal)) = (Vl (Proc.devRef .tc main_v6)) := by
  simp only [hostOps0_2]
  stretch

/-- The third stretch leaves in the buffer of `%48` the first dense layer's weights, narrowed. -/
theorem s2_v48 (Vl : Valuation τ sig (Elt Ideal)) :
    (StableHlo.after hostOps0_2 Vl (Proc.devRef .tc main_v48) : (⟨S704x1024, .bf16⟩ : BufTy).Contents (Elt Ideal)) = truncf (F := Ideal) (s := S704x1024) (φ := .f32) .bf16 (Vl (Proc.devRef .tc main_arg5)) Facts₀.bitsLt_bf16_f32 := by
  simp only [hostOps0_2]
  stretch

/-- The third stretch leaves in the buffer of `%49` the last dense layer's weights, narrowed. -/
theorem s2_v49 (Vl : Valuation τ sig (Elt Ideal)) :
    (StableHlo.after hostOps0_2 Vl (Proc.devRef .tc main_v49) : (⟨S1024x704, .bf16⟩ : BufTy).Contents (Elt Ideal)) = truncf (F := Ideal) (s := S1024x704) (φ := .f32) .bf16 (Vl (Proc.devRef .tc main_arg13)) Facts₀.bitsLt_bf16_f32 := by
  simp only [hostOps0_2]
  stretch

/-- The third stretch leaves in the buffer of `%50` the first dense layer's bias as a row. -/
theorem s2_v50 (Vl : Valuation τ sig (Elt Ideal)) :
    (StableHlo.after hostOps0_2 Vl (Proc.devRef .tc main_v50) : (⟨S1x1024, .f32⟩ : BufTy).Contents (Elt Ideal)) = shapeCast S1x1024 ((Vl (Proc.devRef .tc main_arg6)) : (⟨S1024, .f32⟩ : BufTy).Contents (Elt Ideal)) Facts₀.shapeCasts_S1024_S1x1024 := by
  simp only [hostOps0_2]
  stretch

/-- The third stretch leaves in the buffer of `%51` the mean head's bias as a row. -/
theorem s2_v51 (Vl : Valuation τ sig (Elt Ideal)) :
    (StableHlo.after hostOps0_2 Vl (Proc.devRef .tc main_v51) : (⟨S1x56, .f32⟩ : BufTy).Contents (Elt Ideal)) = shapeCast S1x56 ((Vl (Proc.devRef .tc main_arg8)) : (⟨S56, .f32⟩ : BufTy).Contents (Elt Ideal)) Facts₀.shapeCasts_S56_S1x56 := by
  simp only [hostOps0_2]
  stretch

/-- The third stretch leaves in the buffer of `%52` the log-variance head's bias as a row. -/
theorem s2_v52 (Vl : Valuation τ sig (Elt Ideal)) :
    (StableHlo.after hostOps0_2 Vl (Proc.devRef .tc main_v52) : (⟨S1x56, .f32⟩ : BufTy).Contents (Elt Ideal)) = shapeCast S1x56 ((Vl (Proc.devRef .tc main_arg10)) : (⟨S56, .f32⟩ : BufTy).Contents (Elt Ideal)) Facts₀.shapeCasts_S56_S1x56 := by
  simp only [hostOps0_2]
  stretch

/-- The third stretch leaves in the buffer of `%53` the decoder's first bias as a row. -/
theorem s2_v53 (Vl : Valuation τ sig (Elt Ideal)) :
    (StableHlo.after hostOps0_2 Vl (Proc.devRef .tc main_v53) : (⟨S1x1024, .f32⟩ : BufTy).Contents (Elt Ideal)) = shapeCast S1x1024 ((Vl (Proc.devRef .tc main_arg12)) : (⟨S1024, .f32⟩ : BufTy).Contents (Elt Ideal)) Facts₀.shapeCasts_S1024_S1x1024 := by
  simp only [hostOps0_2]
  stretch

/-- The third stretch leaves in the buffer of `%54` the decoder's last bias as a row. -/
theorem s2_v54 (Vl : Valuation τ sig (Elt Ideal)) :
    (StableHlo.after hostOps0_2 Vl (Proc.devRef .tc main_v54) : (⟨S1x704, .f32⟩ : BufTy).Contents (Elt Ideal)) = shapeCast S1x704 ((Vl (Proc.devRef .tc main_arg14)) : (⟨S704, .f32⟩ : BufTy).Contents (Elt Ideal)) Facts₀.shapeCasts_S704_S1x704 := by
  simp only [hostOps0_2]
  stretch

/-! ## The three stretches composed: what the region finds -/

section Compose
variable (m : (ℓ : Loc nD τ sig) → Buf (Elt Ideal) ℓ) (c : Dev nD)

/-- The contents the region finds are the launch contents after the three stretches, one after the other. -/
theorem V0_eq : V0 m c
    = StableHlo.after hostOps0_2 (StableHlo.after hostOps0_1 (StableHlo.after hostOps0 (fun b => m (c, b)))) := by
  show StableHlo.after (List.flatten [hostOps0, hostOps0_1, hostOps0_2]) (fun b => m (c, b)) = _
  rw [List.flatten_cons, List.flatten_cons, List.flatten_cons, List.flatten_nil, List.append_nil, after_append, after_append]

/-- THE KERNEL'S FIRST INPUT: when the region is entered, the buffer of `%47` holds the features — the first graph layer's aggregation of the node features, times its weight matrix, plus its bias, 22 nodes to a row. -/
theorem V_main_v47 : (V m c main_v47 : (⟨S32768x704, .f32⟩ : BufTy).Contents (Elt Ideal)) = features (F := Ideal) (m ((c : Thread nD τ).loc main_arg0)) (m ((c : Thread nD τ).loc main_arg1)) (m ((c : Thread nD τ).loc main_arg3)) (m ((c : Thread nD τ).loc main_arg4)) := by
  show V0 m c (Proc.devRef .tc main_v47) = _
  rw [V0_eq, s2_v47, s1_arg0, s0_arg0, s1_v5, s0_v5, s1_v6, s0_v6, s1_v14, s0_v12, s0_v13, s0_cst_2, s1_arg3, s0_arg3, s1_arg4, s0_arg4]
  all_goals rfl

/-- When the region is entered, the buffer of `%5` holds the edges' source nodes. -/
theorem V_main_v5 : (V m c main_v5 : (⟨S2097152, .i32⟩ : BufTy).Contents (Elt Ideal)) = srcCat (F := Ideal) (m ((c : Thread nD τ).loc main_arg1)) := by
  show V0 m c (Proc.devRef .tc main_v5) = _
  rw [V0_eq, s2_v5, s1_v5, s0_v5]
  all_goals rfl

/-- When the region is entered, the buffer of `%6` holds the edges' target nodes. -/
theorem V_main_v6 : (V m c main_v6 : (⟨S2097152, .i32⟩ : BufTy).Contents (Elt Ideal)) = dstCat (F := Ideal) (m ((c : Thread nD τ).loc main_arg1)) := by
  show V0 m c (Proc.devRef .tc main_v6) = _
  rw [V0_eq, s2_v6, s1_v6, s0_v6]
  all_goals rfl

/-- When the region is entered, the buffer of `%29` holds the edge weights. -/
theorem V_main_v29 : (V m c main_v29 : (⟨S2097152, .f32⟩ : BufTy).Contents (Elt Ideal)) = edgeWeight (F := Ideal) (m ((c : Thread nD τ).loc main_arg1)) := by
  show V0 m c (Proc.devRef .tc main_v29) = _
  rw [V0_eq, s2_v29, s1_v5, s0_v5, s1_v6, s0_v6, s1_v14, s0_v12, s0_v13, s0_cst_2]
  all_goals rfl

/-- When the region is entered, the buffer of `%48` holds the first dense layer's weights, narrowed. -/
theorem V_main_v48 : (V m c main_v48 : (⟨S704x1024, .bf16⟩ : BufTy).Contents (Elt Ideal)) = truncf (F := Ideal) (s := S704x1024) (φ := .f32) .bf16 (m ((c : Thread nD τ).loc main_arg5)) Facts₀.bitsLt_bf16_f32 := by
  show V0 m c (Proc.devRef .tc main_v48) = _
  rw [V0_eq, s2_v48, s1_arg5, s0_arg5]
  all_goals rfl

/-- When the region is entered, the buffer of `%49` holds the last dense layer's weights, narrowed. -/
theorem V_main_v49 : (V m c main_v49 : (⟨S1024x704, .bf16⟩ : BufTy).Contents (Elt Ideal)) = truncf (F := Ideal) (s := S1024x704) (φ := .f32) .bf16 (m ((c : Thread nD τ).loc main_arg13)) Facts₀.bitsLt_bf16_f32 := by
  show V0 m c (Proc.devRef .tc main_v49) = _
  rw [V0_eq, s2_v49, s1_arg13, s0_arg13]
  all_goals rfl

/-- When the region is entered, the buffer of `%50` holds the first dense layer's bias as a row. -/
theorem V_main_v50 : (V m c main_v50 : (⟨S1x1024, .f32⟩ : BufTy).Contents (Elt Ideal)) = shapeCast S1x1024 (m ((c : Thread nD τ).loc main_arg6)) Facts₀.shapeCasts_S1024_S1x1024 := by
  show V0 m c (Proc.devRef .tc main_v50) = _
  rw [V0_eq, s2_v50, s1_arg6, s0_arg6]
  all_goals rfl

/-- When the region is entered, the buffer of `%51` holds the mean head's bias as a row. -/
theorem V_main_v51 : (V m c main_v51 : (⟨S1x56, .f32⟩ : BufTy).Contents (Elt Ideal)) = shapeCast S1x56 (m ((c : Thread nD τ).loc main_arg8)) Facts₀.shapeCasts_S56_S1x56 := by
  show V0 m c (Proc.devRef .tc main_v51) = _
  rw [V0_eq, s2_v51, s1_arg8, s0_arg8]
  all_goals rfl

/-- When the region is entered, the buffer of `%52` holds the log-variance head's bias as a row. -/
theorem V_main_v52 : (V m c main_v52 : (⟨S1x56, .f32⟩ : BufTy).Contents (Elt Ideal)) = shapeCast S1x56 (m ((c : Thread nD τ).loc main_arg10)) Facts₀.shapeCasts_S56_S1x56 := by
  show V0 m c (Proc.devRef .tc main_v52) = _
  rw [V0_eq, s2_v52, s1_arg10, s0_arg10]
  all_goals rfl

/-- When the region is entered, the buffer of `%53` holds the decoder's first bias as a row. -/
theorem V_main_v53 : (V m c main_v53 : (⟨S1x1024, .f32⟩ : BufTy).Contents (Elt Ideal)) = shapeCast S1x1024 (m ((c : Thread nD τ).loc main_arg12)) Facts₀.shapeCasts_S1024_S1x1024 := by
  show V0 m c (Proc.devRef .tc main_v53) = _
  rw [V0_eq, s2_v53, s1_arg12, s0_arg12]
  all_goals rfl

/-- When the region is entered, the buffer of `%54` holds the decoder's last bias as a row. -/
theorem V_main_v54 : (V m c main_v54 : (⟨S1x704, .f32⟩ : BufTy).Contents (Elt Ideal)) = shapeCast S1x704 (m ((c : Thread nD τ).loc main_arg14)) Facts₀.shapeCasts_S704_S1x704 := by
  show V0 m c (Proc.devRef .tc main_v54) = _
  rw [V0_eq, s2_v54, s1_arg14, s0_arg14]
  all_goals rfl

end Compose

end Cert.KernelIdeal.Host

end
-- ==== Proof.LibLinearAgg.lean ====
/-
  Linear aggregation commutes with a matrix product, on the extended reals, when every entry is a real number.

  A graph layer sums, into node p, the rows X(r e) of the edges e that end in p, each scaled by an edge weight n e. Whether
  the rows are multiplied by a weight matrix W before they are summed or after is the same by linearity:

      ∑ₖ (∑ₑ X(r e, k) · n e) · W(k, c)  =  ∑ₑ (∑ₖ X(r e, k) · W(k, c)) · n e.

  On the extended reals this needs care: multiplication does not distribute over a sum that holds both infinities. When
  every X, W and n is (the image of) a real number both sides are the image of one real sum, and the law is the real one.
  The file also shows that the degree factor of a normalised graph layer, "rsqrt (max d 1) where d > 0, else 0", is a real
  number whatever extended real the degree d is, so that an edge weight built from two such factors is real.
-/
import Mathlib.Data.EReal.Basic
import Mathlib.Algebra.BigOperators.Ring.Finset
import Idealize.ShloMosaic.PureOps.Ideal
import Idealize.ShloMosaic.PureOps.Ideal.Laws

noncomputable section

open scoped BigOperators

namespace Cert.LibLinearAgg

open Idealize.ShloMosaic

/-- An extended real that is the image of a real number. -/
def IsReal (a : EReal) : Prop := ∃ r : ℝ, a = (r : EReal)

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem isReal_zero : IsReal 0 := ⟨0, EReal.coe_zero.symm⟩

/-- The image of a finite real sum is the sum of the images. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The law for images of reals. -/
theorem agg_mm_real {ε κ : Type} [Fintype κ] (S : Finset ε) (x : ε → κ → ℝ) (w : κ → ℝ) (n : ε → ℝ) :
    ∑ k, ((0 : EReal) + ∑ e ∈ S, (x e k : EReal) * (n e : EReal)) * (w k : EReal)
      = (0 : EReal) + ∑ e ∈ S, (∑ k, (x e k : EReal) * (w k : EReal)) * (n e : EReal) := by
  simp only [zero_add]
  have hl : ∀ k, (∑ e ∈ S, (x e k : EReal) * (n e : EReal)) * (w k : EReal)
      = (((∑ e ∈ S, x e k * n e) * w k : ℝ) : EReal) := fun k => by
    rw [EReal.coe_mul, coe_sum]; simp only [EReal.coe_mul]
  have hr : ∀ e, (∑ k, (x e k : EReal) * (w k : EReal)) * (n e : EReal) = (((∑ k, x e k * w k) * n e : ℝ) : EReal) := fun e => by
    rw [EReal.coe_mul, coe_sum]; simp only [EReal.coe_mul]
  simp only [hl, hr, ← coe_sum]
  refine congrArg _ ?_
  simp only [Finset.sum_mul]
  rw [Finset.sum_comm]
  exact Finset.sum_congr rfl fun e _ => Finset.sum_congr rfl fun k _ => by ring

/-- Aggregating scaled rows and then multiplying by a matrix column is multiplying each row and then aggregating, when
    every entry is real. The leading zeros are the zero array the aggregation accumulates into. -/
theorem agg_mm {ε κ : Type} [Fintype κ] (S : Finset ε) (X : ε → κ → EReal) (W : κ → EReal) (N : ε → EReal)
    (hX : ∀ e k, IsReal (X e k)) (hW : ∀ k, IsReal (W k)) (hN : ∀ e, IsReal (N e)) :
    ∑ k, ((0 : EReal) + ∑ e ∈ S, X e k * N e) * W k = (0 : EReal) + ∑ e ∈ S, (∑ k, X e k * W k) * N e := by
  choose x hx using hX
  choose w hw using hW
  choose n hn using hN
  simp only [hx, hw, hn]
  exact agg_mm_real S x w n

/-- The f32 word of 1.0 denotes the real number one. -/
theorem ofBits_one_f32 : Ideal.ofBits .f32 0x3F800000#32 = 1 := by
  simp [Ideal.ofBits, Ideal.ieee, -EReal.coe_mul]; norm_num

/-- The inverse square root of "the degree, or one if that is larger" is a real number for every extended real degree:
    at the upper infinity it is zero, and everywhere else its argument is a real number that is at least one. -/
theorem isReal_rsqrt_max_one (d : EReal) : IsReal (Ideal.rsqrt (max d 1)) := by
  induction d using EReal.rec with
  | bot =>
    rw [max_eq_right bot_le, ← EReal.coe_one, Ideal.rsqrt_coe, if_neg (by norm_num), if_neg (by norm_num)]
    exact ⟨_, rfl⟩
  | top => rw [max_eq_left le_top, Ideal.rsqrt_top]; exact isReal_zero
  | coe r =>
    rcases le_total (r : EReal) 1 with h | h
    · rw [max_eq_right h, ← EReal.coe_one, Ideal.rsqrt_coe, if_neg (by norm_num), if_neg (by norm_num)]
      exact ⟨_, rfl⟩
    · rw [max_eq_left h, Ideal.rsqrt_coe]
      have h1 : (1 : ℝ) ≤ r := by exact_mod_cast h
      rw [if_neg (by linarith), if_neg (by linarith)]
      exact ⟨_, rfl⟩

/-- The degree factor "rsqrt (max d 1) where the flag is set, else zero" is real, whatever the flag and the degree. -/
theorem isReal_degree_factor (b : BitVec 1) (d : EReal) :
    IsReal (Scalar.select b (Ideal.rsqrt (max d 1)) (0 : EReal)) := by
  unfold Scalar.select
  split
  · exact isReal_rsqrt_max_one d
  · exact isReal_zero

end Cert.LibLinearAgg

end
-- ==== Proof.LibRowGatherScatter.lean ====
/-
  Rows gathered, rows scattered and added, and a matrix product, each read at one element.

  A graph layer moves whole rows: edge `e` reads the row of its source node out of an array `[N, C]` (a gather with one
  start index per edge), and the rows of all edges that end in node `p` are added into row `p` of another array (a
  scatter with an `add` body). This file reads both operations, at the dimension numbers such a layer has, at one
  element `(e, c)` resp. `(p, c)`:

    • the gathered element `(e, c)` is the operand at `(rowOf idx e, c)`, where `rowOf idx e` is edge `e`'s index word read
      as a signed integer and clamped into `[0, N − 1]`;
    • the scattered-and-added element `(p, c)` is the operand's plus the sum, over the edges `e` whose index word read as a
      signed integer is `p` (`edgesInto idx p`), of the update at `(e, c)`; an index word outside `[0, N − 1]` names no node
      and its row is dropped.

  Neither the row `rowOf idx e` nor the edge set `edgesInto idx p` depends on the row width `C`: the same edges feed node
  `p` whether rows of width 3 or of width 32 are moved. The file also reads the product of an `[N, K]` by a `[K, M]`
  matrix at `(p, j)` as the sum over `k` of the products, and the three broadcasts such a layer uses (a scalar to any
  shape, a vector `[E]` to a column `[E, 1]`, a column `[E, 1]` to `[E, C]`) at one element.

  Everything is stated for arbitrary extents `N`, `E`, `C`, `K`, `M`; the dimension-number records are written out with
  their well-formedness condition as a parameter, so a record with the same lists over literal shapes is one of these
  by unfolding.
-/
import Idealize.ShloMosaic.Lib.ValueIdx
import Idealize.ShloMosaic.PureOps.Ideal.Laws
import Idealize.ShloMosaic.Lib.Pipeline.Value

noncomputable section

open scoped BigOperators

namespace Cert.LibRowGatherScatter

open Idealize.ShloMosaic Idealize.ShloMosaic.ValueIdx

/-! ## Gathering rows -/

/-- The dimension numbers of a gather of rows: operand `[N, C]`, one start index per edge (`[E, 1]`, the index vector on
    axis 1), result `[E, C]`; the operand's axis 0 is indexed and collapsed, its axis 1 is the result's offset axis 1, a
    slice is one whole row (`[1, C]`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index word as a signed integer, clamped into `[0, N − 1]`. It does not depend on the row
    width. -/
def rowOf {N E w : Nat} (hN : 0 < N) (idx : IVec ⟨2, ![E, 1]⟩ w) (e : Fin E) : Fin N :=
  ⟨min (idx (ix2 e 0)).toInt.toNat (N - 1), by omega⟩

/-- On the operand's row axis, the element a gather of rows reads for result element `(e, c)` lies in row `rowOf idx e`:
    the start index is clamped to `N − 1` (a slice is one row), and neither a batching nor an offset coordinate is added
    on a collapsed axis. -/
theorem operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (0 : Fin 2) : Fin N) : ℕ) = (rowOf hN idx e : ℕ) := by
  show (rowGatherDims N E C wf).start (ix2 e c) idx (0 : Fin 2) + (rowGatherDims N E C wf).batchCoord (ix2 e c) (0 : Fin 2)
    + (rowGatherDims N E C wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the operand's column axis, the element a gather of rows reads for result element `(e, c)` is in column `c`: the
    axis is not indexed (start `0`) and the result's offset coordinate is `c`. -/
theorem operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (1 : Fin 2) : Fin C) : ℕ) = (c : ℕ) := by
  show (rowGatherDims N E C wf).start (ix2 e c) idx (1 : Fin 2) + (rowGatherDims N E C wf).batchCoord (ix2 e c) (1 : Fin 2)
    + (rowGatherDims N E C wf).offCoord (ix2 e c) (1 : Fin 2) = _
  rw [GatherDims.batchCoord_eq_zero _ _ _ List.not_mem_nil]
  have hs : (rowGatherDims N E C wf).start (ix2 e c) idx (1 : Fin 2) = 0 := by
    unfold GatherDims.start
    rw [dif_neg (show (1 : Fin 2) ∉ ([0] : List (Fin 2)) by decide)]
  rw [hs]
  have hk : (1 : Fin 2) ∈ (rowGatherDims N E C wf).sKept :=
    (GatherDims.mem_sKept _ _).2 ⟨show (1 : Fin 2) ∉ ([0] : List (Fin 2)) by decide, List.not_mem_nil⟩
  unfold GatherDims.offCoord
  rw [dif_pos hk]
  simp only [Nat.zero_add, Nat.add_zero]
  rfl

/-- A GATHER OF ROWS READ AT `(e, c)`: the operand at row `rowOf idx e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  match a with
  | ⟨0, _⟩ => exact Fin.ext (operandIdx_row hN wf idx e c)
  | ⟨1, _⟩ => exact Fin.ext (operandIdx_col wf idx e c)

/-! ## Scattering rows and adding them -/

/-- The dimension numbers of a scatter of rows: operand `[N, C]`, one scatter index per edge (`[E, 1]`, the index vector
    on axis 1), updates `[E, C]`; the scatter index names the operand's axis 0, which is an inserted window axis, and
    the updates' axis 1 is the window axis, going to the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges that end in node `p`: those whose index word, read as a signed integer, is `p`. It does not depend on the row
    width. -/
def edgesInto {N E w : Nat} (idx : IVec ⟨2, ![E, 1]⟩ w) (p : Fin N) : Finset (Fin E) :=
  Finset.univ.filter fun e => (idx (ix2 e 0)).toInt = (p.val : ℤ)

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the operand's row axis the window of update `(e, c)` starts at edge `e`'s index word, read signed, not clamped. -/
theorem scatter_start_row :
    (rowScatterDims N E C wf).start (ix2 e c) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which no scatter index names, the window starts at `0`. -/
theorem scatter_start_col :
    (rowScatterDims N E C wf).start (ix2 e c) idx (1 : Fin 2) = 0 := by
  unfold ScatterDims.start
  rw [dif_neg (show (1 : Fin 2) ∉ ([0] : List (Fin 2)) by decide)]

/-- The row axis is an inserted window axis: the window coordinate there is `0`. -/
theorem scatter_window_row :
    (rowScatterDims N E C wf).window (ix2 e c) (0 : Fin 2) = 0 := by
  unfold ScatterDims.window
  rw [dif_neg (by simp [ScatterDims.sKept, Shape.kept])]

/-- The column axis carries the updates' window axis: the window coordinate there is `c`. -/
theorem scatter_window_col :
    (rowScatterDims N E C wf).window (ix2 e c) (1 : Fin 2) = c.val := by
  unfold ScatterDims.window
  rw [dif_pos (by simp [ScatterDims.sKept, Shape.kept])]
  rfl

/-- Start plus window coordinate on the row axis: edge `e`'s index word, read signed. -/
theorem scatter_sum_row :
    (rowScatterDims N E C wf).start (ix2 e c) idx (0 : Fin 2) + ((rowScatterDims N E C wf).window (ix2 e c) (0 : Fin 2) : ℤ)
      = (idx (ix2 e 0)).toInt := by
  rw [scatter_start_row, scatter_window_row]; simp

/-- Start plus window coordinate on the column axis: `c`. -/
theorem scatter_sum_col :
    (rowScatterDims N E C wf).start (ix2 e c) idx (1 : Fin 2) + ((rowScatterDims N E C wf).window (ix2 e c) (1 : Fin 2) : ℤ)
      = (c.val : ℤ) := by
  rw [scatter_start_col, scatter_window_col]; simp

/-- WHERE AN UPDATE LANDS: update `(e, c)` lands at operand element `(p, c')` exactly when edge `e`'s index word, read
    signed, is `p` and `c = c'`. (An index word that is negative or at least `N` lands nowhere.) -/
theorem resultIdx?_rows_eq_some_iff (p : Fin N) (c' : Fin C) :
    (rowScatterDims N E C wf).resultIdx? (ix2 e c) idx = some (ix2 p c') ↔ ((idx (ix2 e 0)).toInt = (p.val : ℤ) ∧ c = c') := by
  have h0 := scatter_sum_row wf idx e c
  have h1 := scatter_sum_col wf idx e c
  unfold ScatterDims.resultIdx?
  split
  · rename_i h
    rw [Option.some.injEq]
    constructor
    · intro hf
      have e0 : ((rowScatterDims N E C wf).start (ix2 e c) idx (0 : Fin 2)
          + ((rowScatterDims N E C wf).window (ix2 e c) (0 : Fin 2) : ℤ)).toNat = p.val :=
        congrArg Fin.val (congrFun hf (0 : Fin 2))
      have e1 : ((rowScatterDims N E C wf).start (ix2 e c) idx (1 : Fin 2)
          + ((rowScatterDims N E C wf).window (ix2 e c) (1 : Fin 2) : ℤ)).toNat = c'.val :=
        congrArg Fin.val (congrFun hf (1 : Fin 2))
      have hh := (h (0 : Fin 2)).1
      rw [h0] at e0 hh
      rw [h1] at e1
      exact ⟨by omega, Fin.ext (by omega)⟩
    · rintro ⟨ht, rfl⟩
      funext a
      match a with
      | ⟨0, _⟩ =>
        refine Fin.ext ?_
        show ((rowScatterDims N E C wf).start (ix2 e c) idx (0 : Fin 2)
          + ((rowScatterDims N E C wf).window (ix2 e c) (0 : Fin 2) : ℤ)).toNat = p.val
        rw [h0, ht]; simp
      | ⟨1, _⟩ =>
        refine Fin.ext ?_
        show ((rowScatterDims N E C wf).start (ix2 e c) idx (1 : Fin 2)
          + ((rowScatterDims N E C wf).window (ix2 e c) (1 : Fin 2) : ℤ)).toNat = c.val
        rw [h1]; simp
  · rename_i h
    constructor
    · intro hf; cases hf
    · rintro ⟨ht, rfl⟩
      exfalso; apply h; intro a
      match a with
      | ⟨0, _⟩ =>
        show 0 ≤ (rowScatterDims N E C wf).start (ix2 e c) idx (0 : Fin 2)
            + ((rowScatterDims N E C wf).window (ix2 e c) (0 : Fin 2) : ℤ)
          ∧ (rowScatterDims N E C wf).start (ix2 e c) idx (0 : Fin 2)
            + ((rowScatterDims N E C wf).window (ix2 e c) (0 : Fin 2) : ℤ) < ((N : ℕ) : ℤ)
        rw [h0, ht]
        have := p.isLt
        omega
      | ⟨1, _⟩ =>
        show 0 ≤ (rowScatterDims N E C wf).start (ix2 e c) idx (1 : Fin 2)
            + ((rowScatterDims N E C wf).window (ix2 e c) (1 : Fin 2) : ℤ)
          ∧ (rowScatterDims N E C wf).start (ix2 e c) idx (1 : Fin 2)
            + ((rowScatterDims N E C wf).window (ix2 e c) (1 : Fin 2) : ℤ) < ((C : ℕ) : ℤ)
        rw [h1]
        have := c.isLt
        omega

end Scatter

/-- A SCATTER-ADD OF ROWS READ AT `(p, c)`, on the extended reals: the operand's element plus the sum over the edges that
    end in `p` of the update at `(e, c)`. The sum over all update elements that land at `(p, c)` is split by
    coordinates; in row `e` only column `c` can land there, and it does exactly when `e` ends in `p`. -/
theorem scatterAdd_rows_apply {N E C w : Nat} (wf : ScatterDims.WF ⟨2, ![N, C]⟩ ⟨2, ![E, 1]⟩ ⟨2, ![E, C]⟩ [1] [0] [0] 1)
    (idx : IVec ⟨2, ![E, 1]⟩ w) {φ : FTy} (x : FVec Ideal ⟨2, ![N, C]⟩ φ) (upd : FVec Ideal ⟨2, ![E, C]⟩ φ)
    (p : Fin N) (c : Fin C) :
    Host.scatterAdd (F := Ideal) (rowScatterDims N E C wf) x idx upd (ix2 p c)
      = x (ix2 p c) + ∑ e ∈ edgesInto idx p, upd (ix2 e c) := by
  show x (ix2 p c) + ∑ j ∈ Finset.univ.filter (fun j => (rowScatterDims N E C wf).resultIdx? j idx = some (ix2 p c)), upd j = _
  congr 1
  unfold edgesInto
  rw [Finset.sum_filter, Finset.sum_filter, sum_idx2]
  refine Finset.sum_congr rfl fun e _ => ?_
  simp only [resultIdx?_rows_eq_some_iff]
  by_cases ht : (idx (ix2 e 0)).toInt = (p.val : ℤ)
  · simp only [ht, true_and, if_true]
    exact Finset.sum_ite_eq' Finset.univ c (fun b => upd (ix2 e b)) |>.trans (by simp)
  · simp [ht]

/-! ## A matrix product -/

/-- The dimension numbers of the product of an `[N, K]` by a `[K, M]` matrix: the left operand's axis 1 contracted with
    the right operand's axis 0, no batch axes. -/
abbrev rowDotDims (N K M : Nat)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

section Dot
variable {N K M : Nat} (wf : DotDims.WF ⟨2, ![N, K]⟩ ⟨2, ![K, M]⟩ ⟨2, ![N, M]⟩ [1] [0] [0] [1] [] [])

/-- The left operand is read in the result's row. -/
theorem dot_lhs_row (i : (⟨2, ![N, M]⟩ : Shape).Idx) (q : (rowDotDims N K M wf).contr.Idx) :
    ((rowDotDims N K M wf).lhsIdx i q (0 : Fin 2)).val = (i 0).val := by
  unfold DotDims.lhsIdx
  rw [dif_neg (show (0 : Fin 2) ∉ (rowDotDims N K M wf).lhsBatch from List.not_mem_nil),
    dif_pos (show (0 : Fin 2) ∈ (rowDotDims N K M wf).lhsNonContracting from List.mem_singleton.mpr rfl)]
  rfl

/-- The left operand is read in the column the contraction position names. -/
theorem dot_lhs_col (i : (⟨2, ![N, M]⟩ : Shape).Idx) (q : (rowDotDims N K M wf).contr.Idx) :
    ((rowDotDims N K M wf).lhsIdx i q (1 : Fin 2)).val = (q ⟨0, Nat.one_pos⟩).val :=
  (rowDotDims N K M wf).lhsIdx_val_of_single rfl i q

/-- The right operand is read in the row the contraction position names. -/
theorem dot_rhs_row (i : (⟨2, ![N, M]⟩ : Shape).Idx) (q : (rowDotDims N K M wf).contr.Idx) :
    ((rowDotDims N K M wf).rhsIdx i q (0 : Fin 2)).val = (q ⟨0, Nat.one_pos⟩).val :=
  (rowDotDims N K M wf).rhsIdx_val_of_single rfl i q

/-- The right operand is read in the result's column. -/
theorem dot_rhs_col (i : (⟨2, ![N, M]⟩ : Shape).Idx) (q : (rowDotDims N K M wf).contr.Idx) :
    ((rowDotDims N K M wf).rhsIdx i q (1 : Fin 2)).val = (i 1).val := by
  unfold DotDims.rhsIdx
  rw [dif_neg (show (1 : Fin 2) ∉ (rowDotDims N K M wf).rhsBatch from List.not_mem_nil),
    dif_pos (show (1 : Fin 2) ∈ (rowDotDims N K M wf).rhsNonContracting from List.mem_singleton.mpr rfl)]
  rfl

/-- A MATRIX PRODUCT READ AT `(p, j)`, on the extended reals: the sum over `k` of left `(p, k)` times right `(k, j)`. -/
theorem dotGeneral_rows_apply {φ₁ φ₂ : FTy} (prec : Option ContractPrecision)
    (l : FVec Ideal ⟨2, ![N, K]⟩ φ₁) (r : FVec Ideal ⟨2, ![K, M]⟩ φ₂) (p : Fin N) (j : Fin M) :
    Host.dotGeneral (rowDotDims N K M wf) prec l r (ix2 p j) = ∑ k : Fin K, l (ix2 p k) * r (ix2 k j) := by
  simp only [Host.dotGeneral]
  rw [Ideal.dotGeneral_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Dot

/-! ## Broadcasts -/

section Broadcast
variable {α : Type}

/-- A scalar broadcast to any shape reads the scalar everywhere. -/
theorem bcast_scalar_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector `[E]` (more than one element, or none) broadcast to a column `[E, 1]` reads element `e` in row `e`. -/
theorem bcast_col_apply {E : Nat} (hE : E ≠ 1)
    (h : (⟨1, ![E]⟩ : Shape).BroadcastsInDim ⟨2, ![E, 1]⟩ (![0] : Fin 1 → Fin 2))
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column `[E, 1]` broadcast along its unit axis to `[E, C]` reads the column's element of row `e` everywhere in row
    `e`. -/
theorem bcast_row_apply {E C : Nat} (hE : E ≠ 1)
    (h : (⟨2, ![E, 1]⟩ : Shape).BroadcastsInDim ⟨2, ![E, C]⟩ (![0, 1] : Fin 2 → Fin 2))
    (y : (⟨2, ![E, 1]⟩ : Shape).Idx → α) (e : Fin E) (c : Fin C) :
    broadcastInDim ⟨2, ![E, C]⟩ ![0, 1] h y (ix2 e c) = y (ix2 e 0) :=
  broadcastInDim_apply _ h y (ix2 e c) (ix2 e 0) (fun a => match a with
    | ⟨0, _⟩ => by show e.val = if E = 1 then 0 else e.val; rw [if_neg hE]
    | ⟨1, _⟩ => by show 0 = if (1 : Nat) = 1 then 0 else c.val; rw [if_pos rfl])

end Broadcast

end Cert.LibRowGatherScatter

end
-- ==== Proof.GraphLayerLinear.lean ====
/-
  The first layer of the graph network is linear in its input rows: aggregating over the edges and then multiplying by
  the weight matrix is multiplying first and aggregating afterwards.

  With `n` nodes, `E` edges (source node `S e`, target node `D e`, weight `w e`), node features `x : [n, 3]` and a weight
  matrix `W : [3, 32]`, one program computes, for node `p` and column `j`,

      ∑ₖ (0 + ∑_{e : D e = p} x(S e, k) · w e) · W(k, j),

  gathering the width-3 rows, scaling them, adding them into the target nodes and multiplying the `[n, 3]` result by
  `W`; the other computes

      0 + ∑_{e : D e = p} (∑ₖ x(S e, k) · W(k, j)) · w e,

  multiplying `x` by `W` first and then gathering, scaling and adding the width-32 rows. The two are equal when every
  entry of `x`, `W` and `w` is a real number (on the extended reals a product does not distribute over a sum that holds
  both infinities, so realness is needed). The source row of an edge (its index word read signed and clamped) and the set
  of edges that end in a node (those whose index word read signed is that node) are the same for both row widths.
-/
import proofs.«122469_j14886356648528_2_alg».proof.KernelIdeal
import proofs.«122469_j14886356648528_2_alg».proof.ReferenceIdeal
import proofs.«122469_j14886356648528_2_alg».proof.Proof.LibLinearAgg
import proofs.«122469_j14886356648528_2_alg».proof.Proof.LibRowGatherScatter

noncomputable section

open scoped BigOperators

namespace Cert.GraphLayerLinear

open Idealize.ShloMosaic Idealize.ShloMosaic.ValueIdx Cert.LibLinearAgg Cert.LibRowGatherScatter

variable [Cert.KernelIdeal.Facts₀] [Cert.ReferenceIdeal.Facts₀]

/-- There is at least one node. -/
theorem nodes_pos : 0 < 720896 := by decide

/-- There is more than one edge. -/
theorem edges_ne_one : (2097152 : Nat) ≠ 1 := by decide

/-! ## The two programs' operations, read at one element -/

/-- The first program's matrix product at `(p, j)`. -/
theorem kernel_dot_apply (A : FVec Ideal ⟨2, ![720896, 3]⟩ .f32) (W : FVec Ideal ⟨2, ![3, 32]⟩ .f32) (p : Fin 720896) (j : Fin 32) :
    Host.dotGeneral Cert.KernelIdeal.dot_S720896x3_S3x32_S720896x32_1_0_0_1_n_n none A W (ix2 p j)
      = ∑ k : Fin 3, A (ix2 p k) * W (ix2 k j) :=
  dotGeneral_rows_apply Cert.KernelIdeal.Facts₀.dot_S720896x3_S3x32_S720896x32_1_0_0_1_n_n_wf none A W p j

/-- The second program's matrix product at `(p, j)`. -/
theorem reference_dot_apply (A : FVec Ideal ⟨2, ![720896, 3]⟩ .f32) (W : FVec Ideal ⟨2, ![3, 32]⟩ .f32) (p : Fin 720896) (j : Fin 32) :
    Host.dotGeneral Cert.ReferenceIdeal.dot_S720896x3_S3x32_S720896x32_1_0_0_1_n_n none A W (ix2 p j)
      = ∑ k : Fin 3, A (ix2 p k) * W (ix2 k j) :=
  dotGeneral_rows_apply Cert.ReferenceIdeal.Facts₀.dot_S720896x3_S3x32_S720896x32_1_0_0_1_n_n_wf none A W p j

/-- The first program's gather of width-3 rows at `(e, k)`. -/
theorem kernel_gather_apply (x : FVec Ideal ⟨2, ![720896, 3]⟩ .f32) (S : IVec ⟨2, ![2097152, 1]⟩ 32) (e : Fin 2097152) (k : Fin 3) :
    Host.gather Cert.KernelIdeal.gather_S720896x3_S2097152x1_S2097152x3_1_0_n_n_0_1_13 x S (ix2 e k)
      = x (ix2 (rowOf nodes_pos S e) k) :=
  gather_rows_apply nodes_pos Cert.KernelIdeal.Facts₀.gather_S720896x3_S2097152x1_S2097152x3_1_0_n_n_0_1_13_wf x S e k

/-- The second program's gather of width-32 rows at `(e, j)`. -/
theorem reference_gather_apply (y : FVec Ideal ⟨2, ![720896, 32]⟩ .f32) (S : IVec ⟨2, ![2097152, 1]⟩ 32) (e : Fin 2097152) (j : Fin 32) :
    Host.gather Cert.ReferenceIdeal.gather_S720896x32_S2097152x1_S2097152x32_1_0_n_n_0_1_132 y S (ix2 e j)
      = y (ix2 (rowOf nodes_pos S e) j) :=
  gather_rows_apply nodes_pos Cert.ReferenceIdeal.Facts₀.gather_S720896x32_S2097152x1_S2097152x32_1_0_n_n_0_1_132_wf y S e j

/-- The first program's scatter-add of width-3 rows at `(p, k)`. -/
theorem kernel_scatter_apply (z : FVec Ideal ⟨2, ![720896, 3]⟩ .f32) (D : IVec ⟨2, ![2097152, 1]⟩ 32)
    (u : FVec Ideal ⟨2, ![2097152, 3]⟩ .f32) (p : Fin 720896) (k : Fin 3) :
    Host.scatterAdd (F := Ideal) Cert.KernelIdeal.scatter_S720896x3_S2097152x1_S2097152x3_1_0_0_1 z D u (ix2 p k)
      = z (ix2 p k) + ∑ e ∈ edgesInto D p, u (ix2 e k) :=
  scatterAdd_rows_apply Cert.KernelIdeal.Facts₀.scatter_S720896x3_S2097152x1_S2097152x3_1_0_0_1_wf D z u p k

/-- The second program's scatter-add of width-32 rows at `(p, j)`. -/
theorem reference_scatter_apply (z : FVec Ideal ⟨2, ![720896, 32]⟩ .f32) (D : IVec ⟨2, ![2097152, 1]⟩ 32)
    (u : FVec Ideal ⟨2, ![2097152, 32]⟩ .f32) (p : Fin 720896) (j : Fin 32) :
    Host.scatterAdd (F := Ideal) Cert.ReferenceIdeal.scatter_S720896x32_S2097152x1_S2097152x32_1_0_0_1 z D u (ix2 p j)
      = z (ix2 p j) + ∑ e ∈ edgesInto D p, u (ix2 e j) :=
  scatterAdd_rows_apply Cert.ReferenceIdeal.Facts₀.scatter_S720896x32_S2097152x1_S2097152x32_1_0_0_1_wf D z u p j

/-- The first program's edge weights, broadcast to width-3 rows, read the weight of edge `e` everywhere in row `e`. -/
theorem kernel_weight_apply (w : FVec Ideal ⟨1, ![2097152]⟩ .f32) (e : Fin 2097152) (k : Fin 3) :
    broadcastInDim Cert.KernelIdeal.S2097152x3 ![0, 1] Cert.KernelIdeal.Facts₀.bcast_S2097152x1_S2097152x3_0_1
        (broadcastInDim Cert.KernelIdeal.S2097152x1 ![0] Cert.KernelIdeal.Facts₀.bcast_S2097152_S2097152x1_0 w) (ix2 e k) = w (ix1 e) :=
  (bcast_row_apply edges_ne_one Cert.KernelIdeal.Facts₀.bcast_S2097152x1_S2097152x3_0_1 _ e k).trans
    (bcast_col_apply edges_ne_one Cert.KernelIdeal.Facts₀.bcast_S2097152_S2097152x1_0 w e 0)

/-- The second program's edge weights, broadcast to width-32 rows, read the weight of edge `e` everywhere in row `e`. -/
theorem reference_weight_apply (w : FVec Ideal ⟨1, ![2097152]⟩ .f32) (e : Fin 2097152) (j : Fin 32) :
    broadcastInDim Cert.ReferenceIdeal.S2097152x32 ![0, 1] Cert.ReferenceIdeal.Facts₀.bcast_S2097152x1_S2097152x32_0_1
        (broadcastInDim Cert.ReferenceIdeal.S2097152x1 ![0] Cert.ReferenceIdeal.Facts₀.bcast_S2097152_S2097152x1_0 w) (ix2 e j) = w (ix1 e) :=
  (bcast_row_apply edges_ne_one Cert.ReferenceIdeal.Facts₀.bcast_S2097152x1_S2097152x32_0_1 _ e j).trans
    (bcast_col_apply edges_ne_one Cert.ReferenceIdeal.Facts₀.bcast_S2097152_S2097152x1_0 w e 0)

/-- The first program's array of zeros that the rows are added into. -/
theorem kernel_zeros_apply (i : Cert.KernelIdeal.S720896x3.Idx) :
    broadcastInDim Cert.KernelIdeal.S720896x3 ![] Cert.KernelIdeal.Facts₀.bcast_S_S720896x3 (constant (F := Ideal) Cert.KernelIdeal.S_ .f32 0x00000000#32) i = 0 :=
  (bcast_scalar_apply Cert.KernelIdeal.Facts₀.bcast_S_S720896x3 _ i).trans Ideal.ofBits_zero_f32

/-- The second program's array of zeros that the rows are added into. -/
theorem reference_zeros_apply (i : Cert.ReferenceIdeal.S720896x32.Idx) :
    broadcastInDim Cert.ReferenceIdeal.S720896x32 ![] Cert.ReferenceIdeal.Facts₀.bcast_S_S720896x32 (constant (F := Ideal) Cert.ReferenceIdeal.S_ .f32 0x00000000#32) i = 0 :=
  (bcast_scalar_apply Cert.ReferenceIdeal.Facts₀.bcast_S_S720896x32 _ i).trans Ideal.ofBits_zero_f32

/-- The first program's aggregation at `(p, k)`: zero plus the sum, over the edges that end in `p`, of the source row's
    column `k` times the edge weight. -/
theorem kernel_agg_apply (x : FVec Ideal ⟨2, ![720896, 3]⟩ .f32) (S D : IVec ⟨2, ![2097152, 1]⟩ 32)
    (w : FVec Ideal ⟨1, ![2097152]⟩ .f32) (p : Fin 720896) (k : Fin 3) :
    Host.scatterAdd (F := Ideal) Cert.KernelIdeal.scatter_S720896x3_S2097152x1_S2097152x3_1_0_0_1
        (broadcastInDim Cert.KernelIdeal.S720896x3 ![] Cert.KernelIdeal.Facts₀.bcast_S_S720896x3 (constant (F := Ideal) Cert.KernelIdeal.S_ .f32 0x00000000#32)) D
        (mulf (Host.gather Cert.KernelIdeal.gather_S720896x3_S2097152x1_S2097152x3_1_0_n_n_0_1_13 x S)
          (broadcastInDim Cert.KernelIdeal.S2097152x3 ![0, 1] Cert.KernelIdeal.Facts₀.bcast_S2097152x1_S2097152x3_0_1
            (broadcastInDim Cert.KernelIdeal.S2097152x1 ![0] Cert.KernelIdeal.Facts₀.bcast_S2097152_S2097152x1_0 w))) (ix2 p k)
      = 0 + ∑ e ∈ edgesInto D p, x (ix2 (rowOf nodes_pos S e) k) * w (ix1 e) := by
  rw [kernel_scatter_apply, kernel_zeros_apply]
  refine congrArg _ (Finset.sum_congr rfl fun e _ => ?_)
  rw [mulf_apply, kernel_gather_apply, kernel_weight_apply]

/-- The second program's aggregation of an array `y` of width-32 rows at `(p, j)`: zero plus the sum, over the edges that
    end in `p`, of the source row's column `j` times the edge weight. -/
theorem reference_agg_apply (y : FVec Ideal ⟨2, ![720896, 32]⟩ .f32) (S D : IVec ⟨2, ![2097152, 1]⟩ 32)
    (w : FVec Ideal ⟨1, ![2097152]⟩ .f32) (p : Fin 720896) (j : Fin 32) :
    Host.scatterAdd (F := Ideal) Cert.ReferenceIdeal.scatter_S720896x32_S2097152x1_S2097152x32_1_0_0_1
        (broadcastInDim Cert.ReferenceIdeal.S720896x32 ![] Cert.ReferenceIdeal.Facts₀.bcast_S_S720896x32 (constant (F := Ideal) Cert.ReferenceIdeal.S_ .f32 0x00000000#32)) D
        (mulf (Host.gather Cert.ReferenceIdeal.gather_S720896x32_S2097152x1_S2097152x32_1_0_n_n_0_1_132 y S)
          (broadcastInDim Cert.ReferenceIdeal.S2097152x32 ![0, 1] Cert.ReferenceIdeal.Facts₀.bcast_S2097152x1_S2097152x32_0_1
            (broadcastInDim Cert.ReferenceIdeal.S2097152x1 ![0] Cert.ReferenceIdeal.Facts₀.bcast_S2097152_S2097152x1_0 w))) (ix2 p j)
      = 0 + ∑ e ∈ edgesInto D p, y (ix2 (rowOf nodes_pos S e) j) * w (ix1 e) := by
  rw [reference_scatter_apply, reference_zeros_apply]
  refine congrArg _ (Finset.sum_congr rfl fun e _ => ?_)
  rw [mulf_apply, reference_gather_apply, reference_weight_apply]

/-! ## The law -/

/-- THE LAYER IS LINEAR. For real-valued node features `x`, weight matrix `W` and edge weights `w`, and ANY index arrays
    `S` (sources) and `D` (targets): gathering the rows of `x`, scaling them by the edge weights, adding them into the
    target nodes and then multiplying by `W` gives the same array as multiplying `x` by `W` first and then gathering,
    scaling and adding the wider rows. At element `(p, j)` both sides are read as sums over the three feature columns and
    over the edges that end in `p`, and the two double sums are equal by linearity of the real sum. -/
theorem graph_layer_linear
    (x : (⟨Cert.KernelIdeal.S720896x3, .f32⟩ : BufTy).Contents (Elt Ideal))
    (W : (⟨Cert.KernelIdeal.S3x32, .f32⟩ : BufTy).Contents (Elt Ideal))
    (S D : (⟨Cert.KernelIdeal.S2097152x1, .i32⟩ : BufTy).Contents (Elt Ideal))
    (w : (⟨Cert.KernelIdeal.S2097152, .f32⟩ : BufTy).Contents (Elt Ideal))
    (hx : ∀ i, IsReal (x i)) (hW : ∀ i, IsReal (W i)) (hw : ∀ e, IsReal (w e)) :
    Host.dotGeneral (φ₁ := .f32) (φ₂ := .f32) Cert.KernelIdeal.dot_S720896x3_S3x32_S720896x32_1_0_0_1_n_n none
        (Host.scatterAdd (F := Ideal) Cert.KernelIdeal.scatter_S720896x3_S2097152x1_S2097152x3_1_0_0_1
          (broadcastInDim Cert.KernelIdeal.S720896x3 ![] Cert.KernelIdeal.Facts₀.bcast_S_S720896x3 (constant (F := Ideal) Cert.KernelIdeal.S_ .f32 0x00000000#32)) D
          (mulf (Host.gather Cert.KernelIdeal.gather_S720896x3_S2097152x1_S2097152x3_1_0_n_n_0_1_13 x S)
            (broadcastInDim Cert.KernelIdeal.S2097152x3 ![0, 1] Cert.KernelIdeal.Facts₀.bcast_S2097152x1_S2097152x3_0_1
              (broadcastInDim Cert.KernelIdeal.S2097152x1 ![0] Cert.KernelIdeal.Facts₀.bcast_S2097152_S2097152x1_0 w)))) W
      = Host.scatterAdd (F := Ideal) Cert.ReferenceIdeal.scatter_S720896x32_S2097152x1_S2097152x32_1_0_0_1
          (broadcastInDim Cert.ReferenceIdeal.S720896x32 ![] Cert.ReferenceIdeal.Facts₀.bcast_S_S720896x32 (constant (F := Ideal) Cert.ReferenceIdeal.S_ .f32 0x00000000#32)) D
          (mulf (Host.gather Cert.ReferenceIdeal.gather_S720896x32_S2097152x1_S2097152x32_1_0_n_n_0_1_132
              (Host.dotGeneral (φ₁ := .f32) (φ₂ := .f32) Cert.ReferenceIdeal.dot_S720896x3_S3x32_S720896x32_1_0_0_1_n_n none x W) S)
            (broadcastInDim Cert.ReferenceIdeal.S2097152x32 ![0, 1] Cert.ReferenceIdeal.Facts₀.bcast_S2097152x1_S2097152x32_0_1
              (broadcastInDim Cert.ReferenceIdeal.S2097152x1 ![0] Cert.ReferenceIdeal.Facts₀.bcast_S2097152_S2097152x1_0 w))) := by
  funext i
  obtain ⟨p, j, rfl⟩ : ∃ p j, i = ix2 p j := ⟨i 0, i 1, eq_ix2 i⟩
  rw [kernel_dot_apply, reference_agg_apply]
  calc _ = ∑ k : Fin 3, ((0 : EReal) + ∑ e ∈ edgesInto D p, x (ix2 (rowOf nodes_pos S e) k) * w (ix1 e)) * W (ix2 k j) :=
        Finset.sum_congr rfl fun k _ => by rw [kernel_agg_apply]
    _ = (0 : EReal) + ∑ e ∈ edgesInto D p, (∑ k : Fin 3, x (ix2 (rowOf nodes_pos S e) k) * W (ix2 k j)) * w (ix1 e) :=
        agg_mm (edgesInto D p) (fun e k => x (ix2 (rowOf nodes_pos S e) k)) (fun k => W (ix2 k j)) (fun e => w (ix1 e))
          (fun _ _ => hx _) (fun _ => hW _) (fun _ => hw _)
    _ = _ := congrArg _ (Finset.sum_congr rfl fun e _ => by rw [reference_dot_apply])

end Cert.GraphLayerLinear

end
-- ==== Proof.EdgeWeightReal.lean ====
/-
  Every edge weight of the normalised graph layer is a real number.

  The layer scales the row that travels along edge `e` by `dinv(S e) · dinv(D e)`, where for a node `p` of degree `deg p`

      dinv p = 1 / √(deg p)  if deg p > 0,   and  0  otherwise.

  On the extended reals the degree may be any value, yet `dinv p` is always (the image of) a real number: a positive
  real degree has a real inverse square root, the inverse square root of the upper infinity is zero, and every other
  degree is sent to zero by the condition. An element of a gathered array is an element of the array gathered from,
  whatever the indices are, so both factors of an edge weight are values of `dinv`, and a product of two reals is real.
-/
import proofs.«122469_j14886356648528_2_alg».proof.KernelIdeal
import proofs.«122469_j14886356648528_2_alg».proof.ReferenceIdeal
import proofs.«122469_j14886356648528_2_alg».proof.Proof.LibLinearAgg
import proofs.«122469_j14886356648528_2_alg».proof.Proof.LibRowGatherScatter

noncomputable section

namespace Cert.EdgeWeightReal

open Idealize.ShloMosaic Idealize.ShloMosaic.ValueIdx Cert.LibLinearAgg Cert.LibRowGatherScatter

/-! ## The degree factor -/

/-- The comparison "`d` is greater than zero" holds exactly when `0 < d`. -/
theorem cmp_ogt_zero_eq_one_iff (d : EReal) : Ideal.cmp .ogt d 0 = 1#1 ↔ 0 < d := by
  unfold Ideal.cmp
  by_cases h : (0 : EReal) < d
  · simp [h]
  · simp [h]

/-- "The inverse square root of `d` where `d > 0`, else zero" is a real number for EVERY extended real `d`: a positive
    real has a real inverse square root, the upper infinity has inverse square root zero, and everything else is not
    greater than zero. -/
theorem isReal_rsqrt_where_pos (d : EReal) :
    IsReal (Scalar.select (Ideal.cmp .ogt d 0) (Ideal.rsqrt d) (0 : EReal)) := by
  unfold Scalar.select
  split
  · rename_i h
    have hd : (0 : EReal) < d := (cmp_ogt_zero_eq_one_iff d).1 h
    induction d using EReal.rec with
    | bot => exact absurd hd (by simp)
    | top => rw [Ideal.rsqrt_top]; exact isReal_zero
    | coe r =>
      have hr : 0 < r := by exact_mod_cast hd
      rw [Ideal.rsqrt_coe, if_neg (by linarith), if_neg hr.ne']
      exact ⟨_, rfl⟩
  · exact isReal_zero

/-- The array of degree factors, "`rsqrt deg` where `deg > 0`, else zero" with both zeros a broadcast zero constant, is
    real at every node, whatever the degrees are. -/
theorem isReal_where_rsqrt {s : Shape} (h : (⟨0, ![]⟩ : Shape).BroadcastsInDim s (![] : Fin 0 → Fin s.rank))
    (deg : FVec Ideal s .f32) (p : s.Idx) :
    IsReal (select (cmpf .ogt deg (broadcastInDim s ![] h (constant (F := Ideal) ⟨0, ![]⟩ .f32 0x00000000#32)))
      (Host.rsqrt deg) (broadcastInDim s ![] h (id (constant (F := Ideal) ⟨0, ![]⟩ .f32 0x00000000#32))) p) := by
  have hz : broadcastInDim s ![] h (constant (F := Ideal) ⟨0, ![]⟩ .f32 0x00000000#32) p = (0 : EReal) :=
    (bcast_scalar_apply h _ p).trans Ideal.ofBits_zero_f32
  show IsReal (Scalar.select
    (Ideal.cmp .ogt (deg p) (broadcastInDim s ![] h (constant (F := Ideal) ⟨0, ![]⟩ .f32 0x00000000#32) p))
    (Ideal.rsqrt (deg p)) (broadcastInDim s ![] h (constant (F := Ideal) ⟨0, ![]⟩ .f32 0x00000000#32) p))
  rw [hz]
  exact isReal_rsqrt_where_pos (deg p)

/-! ## An edge weight -/

/-- An element of a gathered array is an element of the array gathered from: a property of every element of the operand
    holds of every element of the result, whatever the dimension numbers and the indices. -/
theorem gather_of_forall {α : Type} {s si t : Shape} {w : Nat} (d : GatherDims s si t) (x : s.Idx → α) (idx : IVec si w)
    (P : α → Prop) (hx : ∀ p, P (x p)) (y : t.Idx) : P (Host.gather d x idx y) :=
  hx _

/-- The product of two arrays gathered from an array of reals is real at every element. -/
theorem isReal_mulf_gather {s si t : Shape} {w : Nat} (d₁ d₂ : GatherDims s si t) (x : FVec Ideal s .f32)
    (hx : ∀ p, IsReal (x p)) (i₁ i₂ : IVec si w) (e : t.Idx) :
    IsReal (mulf (Host.gather d₁ x i₁) (Host.gather d₂ x i₂) e) :=
  IsReal.mul (gather_of_forall d₁ x i₁ IsReal hx e) (gather_of_forall d₂ x i₂ IsReal hx e)

section Programs
variable [Cert.KernelIdeal.Facts₀] [Cert.ReferenceIdeal.Facts₀]

/-- THE FIRST PROGRAM'S EDGE WEIGHTS ARE REAL: for every array of degrees and all index arrays, the product of the degree
    factor gathered at the sources and the degree factor gathered at the targets is real at every edge. -/
theorem kernel_edge_weight_isReal (deg : (⟨Cert.KernelIdeal.S720896, .f32⟩ : BufTy).Contents (Elt Ideal))
    (S' D' : (⟨Cert.KernelIdeal.S2097152x1, .i32⟩ : BufTy).Contents (Elt Ideal)) (e : Cert.KernelIdeal.S2097152.Idx) :
    IsReal (mulf
      (Host.gather Cert.KernelIdeal.gather_S720896_S2097152x1_S2097152_n_0_n_n_0_1_1
        (select (cmpf .ogt deg (broadcastInDim Cert.KernelIdeal.S720896 ![] Cert.KernelIdeal.Facts₀.bcast_S_S720896 (constant (F := Ideal) Cert.KernelIdeal.S_ .f32 0x00000000#32)))
          (Host.rsqrt deg)
          (broadcastInDim Cert.KernelIdeal.S720896 ![] Cert.KernelIdeal.Facts₀.bcast_S_S720896 (id (constant (F := Ideal) Cert.KernelIdeal.S_ .f32 0x00000000#32)))) S')
      (Host.gather Cert.KernelIdeal.gather_S720896_S2097152x1_S2097152_n_0_n_n_0_1_1
        (select (cmpf .ogt deg (broadcastInDim Cert.KernelIdeal.S720896 ![] Cert.KernelIdeal.Facts₀.bcast_S_S720896 (constant (F := Ideal) Cert.KernelIdeal.S_ .f32 0x00000000#32)))
          (Host.rsqrt deg)
          (broadcastInDim Cert.KernelIdeal.S720896 ![] Cert.KernelIdeal.Facts₀.bcast_S_S720896 (id (constant (F := Ideal) Cert.KernelIdeal.S_ .f32 0x00000000#32)))) D') e) :=
  isReal_mulf_gather _ _ _ (isReal_where_rsqrt Cert.KernelIdeal.Facts₀.bcast_S_S720896 deg) S' D' e

/-- THE SECOND PROGRAM'S EDGE WEIGHTS ARE REAL, likewise. -/
theorem reference_edge_weight_isReal (deg : (⟨Cert.ReferenceIdeal.S720896, .f32⟩ : BufTy).Contents (Elt Ideal))
    (S' D' : (⟨Cert.ReferenceIdeal.S2097152x1, .i32⟩ : BufTy).Contents (Elt Ideal)) (e : Cert.ReferenceIdeal.S2097152.Idx) :
    IsReal (mulf
      (Host.gather Cert.ReferenceIdeal.gather_S720896_S2097152x1_S2097152_n_0_n_n_0_1_1
        (select (cmpf .ogt deg (broadcastInDim Cert.ReferenceIdeal.S720896 ![] Cert.ReferenceIdeal.Facts₀.bcast_S_S720896 (constant (F := Ideal) Cert.ReferenceIdeal.S_ .f32 0x00000000#32)))
          (Host.rsqrt deg)
          (broadcastInDim Cert.ReferenceIdeal.S720896 ![] Cert.ReferenceIdeal.Facts₀.bcast_S_S720896 (id (constant (F := Ideal) Cert.ReferenceIdeal.S_ .f32 0x00000000#32)))) S')
      (Host.gather Cert.ReferenceIdeal.gather_S720896_S2097152x1_S2097152_n_0_n_n_0_1_1
        (select (cmpf .ogt deg (broadcastInDim Cert.ReferenceIdeal.S720896 ![] Cert.ReferenceIdeal.Facts₀.bcast_S_S720896 (constant (F := Ideal) Cert.ReferenceIdeal.S_ .f32 0x00000000#32)))
          (Host.rsqrt deg)
          (broadcastInDim Cert.ReferenceIdeal.S720896 ![] Cert.ReferenceIdeal.Facts₀.bcast_S_S720896 (id (constant (F := Ideal) Cert.ReferenceIdeal.S_ .f32 0x00000000#32)))) D') e) :=
  isReal_mulf_gather _ _ _ (isReal_where_rsqrt Cert.ReferenceIdeal.Facts₀.bcast_S_S720896 deg) S' D' e

end Programs

end Cert.EdgeWeightReal

end
-- ==== Proof.InputsReal.lean ====
/-
  The precondition "every float input is finite" gives real entries.

  The precondition is the conjunction, over the sixteen float argument arrays `a`, of "every element of `a` has
  `|a i| < +∞`", each conjunct a reduction by `and` of the elementwise comparison, and the conjunction a chain of `and`s
  that takes the arrays in order. On the extended reals `|x| = max x (−x)`, and `max x (−x) < ⊤` excludes both
  infinities, so `x` is (the image of) a real number. Here the chain is followed down to the node features (the first
  array) and the first layer's weight matrix (the fourth), the two arrays whose realness the linearity of the first
  graph layer needs.
-/
import proofs.«122469_j14886356648528_2_alg».proof.Defs
import proofs.«122469_j14886356648528_2_alg».proof.Proof.LibLinearAgg
import Idealize.ShloMosaic.Lib.ReduceAll
import Idealize.ShloMosaic.Lib.ValueIdx
import Idealize.ShloMosaic.Lib.Pipeline.Value

noncomputable section

namespace Cert.InputsReal

open Idealize.ShloMosaic Idealize.ShloMosaic.ValueIdx Idealize.SL.Sem Cert.LibLinearAgg

/-- The scalar shape has one index. -/
instance : Subsingleton Cert.Pre_finite_inputs.S_.Idx := ⟨fun _ _ => funext fun d => d.elim0⟩

/-! ## One element -/

/-- The f32 word `0x7F800000` denotes the upper infinity. -/
theorem ofBits_inf_f32 : Ideal.ofBits .f32 0x7F800000#32 = ⊤ := by simp [Ideal.ofBits, Ideal.ieee]

/-- An extended real whose absolute value `max x (−x)` is below the upper infinity is a real number. -/
theorem isReal_of_abs_lt_top (x : EReal) (h : Ideal.cmp .olt (max x (-x)) ⊤ = 1#1) : IsReal x := by
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-! ## One array -/

/-- `jnp.all(|a| < +∞)` is one: every element of `a` is real. The reduction by `and` over all axes is one only if
    the comparison is one at every element. -/
theorem isReal_of_all_finite {s : Shape} {axes : List (Fin s.rank)}
    (hb : Cert.Pre_finite_inputs.S_.BroadcastsInDim s (![] : Fin 0 → Fin s.rank)) (hr : s.ReducesTo axes Cert.Pre_finite_inputs.S_) (hu : 0 < Cert.Pre_finite_inputs.S_.numel)
    (a : FVec Ideal s .f32)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) (i : s.Idx) : IsReal (a i) := by
  have hi := Host.reduce_andi_all _ _ hr hu ix0 e i
  have hinf : broadcastInDim s ![] hb (constant (F := Ideal) Cert.Pre_finite_inputs.S_ .f32 0x7F800000#32) i = (⊤ : EReal) :=
    (broadcastInDim_apply _ hb _ i ix0 (fun a => a.elim0)).trans ofBits_inf_f32
  have hi' : Ideal.cmp .olt (max (a i) (-(a i)))
      (broadcastInDim s ![] hb (constant (F := Ideal) Cert.Pre_finite_inputs.S_ .f32 0x7F800000#32) i) = 1#1 := hi
  rw [hinf] at hi'
  exact isReal_of_abs_lt_top _ hi'

/-! ## The chain of conjunctions -/

section Chain
variable [Cert.Pre_finite_inputs.Facts]

/-- If the last part of the chain is one, the flag it was entered with is one. -/
theorem part4_flag (a15 : FVec Ideal Cert.Pre_finite_inputs.S32x3 .f32) (a16 : FVec Ideal Cert.Pre_finite_inputs.S3 .f32) (v63 v67 : IVec Cert.Pre_finite_inputs.S_ 1)
    (h : Cert.Pre_finite_inputs.fn_part4 (F := Ideal) a15 a16 v63 v67 ix0 = 1#1) : v63 ix0 = 1#1 := by
  unfold Cert.Pre_finite_inputs.fn_part4 at h
  dsimp only at h
  exact (IntOp.andi_eq_one.1 (IntOp.andi_eq_one.1 (IntOp.andi_eq_one.1 h).1).1).1

/-- If the third part of the chain is one, the flag it was entered with is one. -/
theorem part3_flag (a12 : FVec Ideal Cert.Pre_finite_inputs.S1024 .f32) (a13 : FVec Ideal Cert.Pre_finite_inputs.S1024x704 .f32) (a14 : FVec Ideal Cert.Pre_finite_inputs.S704 .f32)
    (a15 : FVec Ideal Cert.Pre_finite_inputs.S32x3 .f32) (a16 : FVec Ideal Cert.Pre_finite_inputs.S3 .f32) (v48 : IVec Cert.Pre_finite_inputs.S_ 1)
    (v49 v50 : FVec Ideal Cert.Pre_finite_inputs.S56x1024 .f32)
    (h : Cert.Pre_finite_inputs.fn_part3 (F := Ideal) a12 a13 a14 a15 a16 v48 v49 v50 ix0 = 1#1) : v48 ix0 = 1#1 := by
  unfold Cert.Pre_finite_inputs.fn_part3 at h
  dsimp only at h
  have h63 := part4_flag _ _ _ _ h
  exact (IntOp.andi_eq_one.1 (IntOp.andi_eq_one.1 (IntOp.andi_eq_one.1 h63).1).1).1

/-- If the second part of the chain is one, the flag it was entered with is one. -/
theorem part2_flag (a8 : FVec Ideal Cert.Pre_finite_inputs.S56 .f32) (a9 : FVec Ideal Cert.Pre_finite_inputs.S1024x56 .f32) (a10 : FVec Ideal Cert.Pre_finite_inputs.S56 .f32)
    (a11 : FVec Ideal Cert.Pre_finite_inputs.S56x1024 .f32) (a12 : FVec Ideal Cert.Pre_finite_inputs.S1024 .f32) (a13 : FVec Ideal Cert.Pre_finite_inputs.S1024x704 .f32)
    (a14 : FVec Ideal Cert.Pre_finite_inputs.S704 .f32) (a15 : FVec Ideal Cert.Pre_finite_inputs.S32x3 .f32) (a16 : FVec Ideal Cert.Pre_finite_inputs.S3 .f32) (v33 : IVec Cert.Pre_finite_inputs.S_ 1)
    (h : Cert.Pre_finite_inputs.fn_part2 (F := Ideal) a8 a9 a10 a11 a12 a13 a14 a15 a16 v33 ix0 = 1#1) : v33 ix0 = 1#1 := by
  unfold Cert.Pre_finite_inputs.fn_part2 at h
  dsimp only at h
  have h48 := part3_flag _ _ _ _ _ _ _ _ h
  exact (IntOp.andi_eq_one.1 (IntOp.andi_eq_one.1 (IntOp.andi_eq_one.1 h48).1).1).1

/-- If the first part of the chain is one, the flag it was entered with is one. -/
theorem part1_flag (a5 : FVec Ideal Cert.Pre_finite_inputs.S704x1024 .f32) (a6 : FVec Ideal Cert.Pre_finite_inputs.S1024 .f32) (a7 : FVec Ideal Cert.Pre_finite_inputs.S1024x56 .f32)
    (a8 : FVec Ideal Cert.Pre_finite_inputs.S56 .f32) (a9 : FVec Ideal Cert.Pre_finite_inputs.S1024x56 .f32) (a10 : FVec Ideal Cert.Pre_finite_inputs.S56 .f32)
    (a11 : FVec Ideal Cert.Pre_finite_inputs.S56x1024 .f32) (a12 : FVec Ideal Cert.Pre_finite_inputs.S1024 .f32) (a13 : FVec Ideal Cert.Pre_finite_inputs.S1024x704 .f32)
    (a14 : FVec Ideal Cert.Pre_finite_inputs.S704 .f32) (a15 : FVec Ideal Cert.Pre_finite_inputs.S32x3 .f32) (a16 : FVec Ideal Cert.Pre_finite_inputs.S3 .f32) (v13 : IVec Cert.Pre_finite_inputs.S_ 1)
    (v16 : IVec Cert.Pre_finite_inputs.S32 1)
    (h : Cert.Pre_finite_inputs.fn_part1 (F := Ideal) a5 a6 a7 a8 a9 a10 a11 a12 a13 a14 a15 a16 v13 v16 ix0 = 1#1) : v13 ix0 = 1#1 := by
  unfold Cert.Pre_finite_inputs.fn_part1 at h
  dsimp only at h
  have h33 := part2_flag _ _ _ _ _ _ _ _ _ _ h
  exact (IntOp.andi_eq_one.1 (IntOp.andi_eq_one.1 (IntOp.andi_eq_one.1 (IntOp.andi_eq_one.1 h33).1).1).1).1

/-- THE PREDICATE DECODED for the first and the fourth array: if "every float input is finite" is one, every entry of
    the node features and of the first weight matrix is real. -/
theorem isReal_of_fn (a0 : FVec Ideal Cert.Pre_finite_inputs.S720896x3 .f32) (a1 : IVec Cert.Pre_finite_inputs.S2x1376256 32) (a2 : FVec Ideal Cert.Pre_finite_inputs.S32768x56 .f32)
    (a3 : FVec Ideal Cert.Pre_finite_inputs.S3x32 .f32) (a4 : FVec Ideal Cert.Pre_finite_inputs.S32 .f32) (a5 : FVec Ideal Cert.Pre_finite_inputs.S704x1024 .f32)
    (a6 : FVec Ideal Cert.Pre_finite_inputs.S1024 .f32) (a7 : FVec Ideal Cert.Pre_finite_inputs.S1024x56 .f32) (a8 : FVec Ideal Cert.Pre_finite_inputs.S56 .f32)
    (a9 : FVec Ideal Cert.Pre_finite_inputs.S1024x56 .f32) (a10 : FVec Ideal Cert.Pre_finite_inputs.S56 .f32) (a11 : FVec Ideal Cert.Pre_finite_inputs.S56x1024 .f32)
    (a12 : FVec Ideal Cert.Pre_finite_inputs.S1024 .f32) (a13 : FVec Ideal Cert.Pre_finite_inputs.S1024x704 .f32) (a14 : FVec Ideal Cert.Pre_finite_inputs.S704 .f32)
    (a15 : FVec Ideal Cert.Pre_finite_inputs.S32x3 .f32) (a16 : FVec Ideal Cert.Pre_finite_inputs.S3 .f32)
    (h : Cert.Pre_finite_inputs.fn (F := Ideal) a0 a1 a2 a3 a4 a5 a6 a7 a8 a9 a10 a11 a12 a13 a14 a15 a16 ix0 = 1#1) :
    (∀ i, IsReal (a0 i)) ∧ (∀ i, IsReal (a3 i)) := by
  unfold Cert.Pre_finite_inputs.fn at h
  dsimp only at h
  have h13 := part1_flag _ _ _ _ _ _ _ _ _ _ _ _ _ _ h
  obtain ⟨h8, h12⟩ := IntOp.andi_eq_one.1 h13
  obtain ⟨h3, -⟩ := IntOp.andi_eq_one.1 h8
  exact ⟨isReal_of_all_finite _ _ _ a0 h3, isReal_of_all_finite _ _ _ a3 h12⟩

end Chain

/-! ## The program's arguments -/

section Program
variable [Cert.Pre_finite_inputs.Facts]

/-- Under the precondition, on every device, every entry of the node features (the first argument) is real. -/
theorem arg0_isReal (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S720896x3.Idx) :
    IsReal (m ((c.tc : Thread Cert.KernelIdeal.nD Cert.KernelIdeal.τ).loc Cert.KernelIdeal.main_arg0) i) :=
  (isReal_of_fn _ _ _ _ _ _ _ _ _ _ _ _ _ _ _ _ _ (congrFun (h c) ix0)).1 i

/-- Under the precondition, on every device, every entry of the first layer's weight matrix (the fourth argument) is
    real. -/
theorem arg3_isReal (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S3x32.Idx) :
    IsReal (m ((c.tc : Thread Cert.KernelIdeal.nD Cert.KernelIdeal.τ).loc Cert.KernelIdeal.main_arg3) i) :=
  (isReal_of_fn _ _ _ _ _ _ _ _ _ _ _ _ _ _ _ _ _ (congrFun (h c) ix0)).2 i

end Program

end Cert.InputsReal

end
-- ==== Proof.Bridge.lean ====
/-
  The two programs compute the same four results.

  Both runs have been read as: the mean, log-variance and latent arrays (MlpWhole) of the features F, the noise E and the
  weights P, and the second graph layer of the decoded array. It remains that the two programs feed these the same F, E
  and P and the same edge lists and weights, when their arguments agree:

  * the edge lists, the degrees and the edge weights are the same operations of the edge array in both programs;
  * the kernel's weights are the arguments themselves: a change of float format is the identity on the extended reals,
    and a bias reshaped to one row reads its entries;
  * the FEATURES are where the two programs differ. The kernel aggregates the width-3 rows of x along the edges and
    then multiplies by W; the reference multiplies every row by W and aggregates the width-32 rows. By linearity these
    agree (GraphLayerLinear) because every entry of x and W is a real number — this is where the precondition is used
    (InputsReal) — and every edge weight is real whatever the degrees are (EdgeWeightReal).
-/
import proofs.«122469_j14886356648528_2_alg».proof.Proof.KernelValue
import proofs.«122469_j14886356648528_2_alg».proof.Proof.ReferenceValue
import proofs.«122469_j14886356648528_2_alg».proof.Proof.KernelHost
import proofs.«122469_j14886356648528_2_alg».proof.Proof.GraphLayerLinear
import proofs.«122469_j14886356648528_2_alg».proof.Proof.EdgeWeightReal
import proofs.«122469_j14886356648528_2_alg».proof.Proof.InputsReal
import proofs.«122469_j14886356648528_2_alg».proof.Proof.Gen.Pre_finite_inputs
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Cert.MlpRow Cert.MlpWhole Cert.LibLinearAgg

/-! ## The graph's edge lists and weights are one function of the edge array in both programs -/

section Stages
variable (ei : (⟨Cert.KernelIdeal.S2x1376256, .i32⟩ : BufTy).Contents (Elt Ideal))

theorem srcCat_eq : Cert.KernelIdeal.Host.srcCat (F := Ideal) ei = Cert.ReferenceIdeal.Stages.srcCat (F := Ideal) ei := by
  unfold Cert.KernelIdeal.Host.srcCat Cert.ReferenceIdeal.Stages.srcCat; rfl
theorem dstCat_eq : Cert.KernelIdeal.Host.dstCat (F := Ideal) ei = Cert.ReferenceIdeal.Stages.dstCat (F := Ideal) ei := by
  unfold Cert.KernelIdeal.Host.dstCat Cert.ReferenceIdeal.Stages.dstCat; rfl
theorem srcIdx_eq : Cert.KernelIdeal.Host.srcIdx (F := Ideal) ei = Cert.ReferenceIdeal.Stages.srcIdx (F := Ideal) ei := by
  unfold Cert.KernelIdeal.Host.srcIdx Cert.ReferenceIdeal.Stages.srcIdx Cert.KernelIdeal.Host.asCol Cert.ReferenceIdeal.Stages.asCol Cert.KernelIdeal.Host.wrapNeg Cert.ReferenceIdeal.Stages.wrapNeg
  rw [srcCat_eq]
theorem dstIdx_eq : Cert.KernelIdeal.Host.dstIdx (F := Ideal) ei = Cert.ReferenceIdeal.Stages.dstIdx (F := Ideal) ei := by
  unfold Cert.KernelIdeal.Host.dstIdx Cert.ReferenceIdeal.Stages.dstIdx Cert.KernelIdeal.Host.asCol Cert.ReferenceIdeal.Stages.asCol
  rw [dstCat_eq]
theorem dstWrapIdx_eq : Cert.KernelIdeal.Host.dstWrapIdx (F := Ideal) ei = Cert.ReferenceIdeal.Stages.dstWrapIdx (F := Ideal) ei := by
  unfold Cert.KernelIdeal.Host.dstWrapIdx Cert.ReferenceIdeal.Stages.dstWrapIdx Cert.KernelIdeal.Host.asCol Cert.ReferenceIdeal.Stages.asCol Cert.KernelIdeal.Host.wrapNeg Cert.ReferenceIdeal.Stages.wrapNeg
  rw [dstCat_eq]
theorem degInv_eq : Cert.KernelIdeal.Host.degInv (F := Ideal) ei = Cert.ReferenceIdeal.Stages.degInv (F := Ideal) ei := by
  unfold Cert.KernelIdeal.Host.degInv Cert.ReferenceIdeal.Stages.degInv Cert.KernelIdeal.Host.degree Cert.ReferenceIdeal.Stages.degree Cert.KernelIdeal.Host.zeroNodes Cert.ReferenceIdeal.Stages.zeroNodes
  rw [dstIdx_eq]; rfl
theorem edgeWeight_eq : Cert.KernelIdeal.Host.edgeWeight (F := Ideal) ei = Cert.ReferenceIdeal.Stages.edgeWeight (F := Ideal) ei := by
  unfold Cert.KernelIdeal.Host.edgeWeight Cert.ReferenceIdeal.Stages.edgeWeight
  rw [degInv_eq, srcIdx_eq, dstWrapIdx_eq]; rfl

end Stages

/-! ## The features: aggregate then multiply is multiply then aggregate, on real entries -/

/-- The first graph layer in the kernel's order is the first graph layer in the reference's order. -/
theorem layer_eq (x : (⟨Cert.KernelIdeal.S720896x3, .f32⟩ : BufTy).Contents (Elt Ideal)) (ei : (⟨Cert.KernelIdeal.S2x1376256, .i32⟩ : BufTy).Contents (Elt Ideal)) (W : (⟨Cert.KernelIdeal.S3x32, .f32⟩ : BufTy).Contents (Elt Ideal))
    (hx : ∀ i, IsReal (x i)) (hW : ∀ i, IsReal (W i)) :
    Host.dotGeneral (F := Ideal) (φ₁ := .f32) (φ₂ := .f32) Cert.KernelIdeal.dot_S720896x3_S3x32_S720896x32_1_0_0_1_n_n none (Cert.KernelIdeal.Host.aggregate3 (F := Ideal) x ei) W
      = Cert.ReferenceIdeal.Stages.aggregate32 (F := Ideal) (Host.dotGeneral (F := Ideal) (φ₁ := .f32) (φ₂ := .f32) Cert.ReferenceIdeal.dot_S720896x3_S3x32_S720896x32_1_0_0_1_n_n none x W) ei := by
  unfold Cert.ReferenceIdeal.Stages.aggregate32
  rw [← dstIdx_eq, ← srcIdx_eq, ← edgeWeight_eq]
  unfold Cert.KernelIdeal.Host.aggregate3
  exact Cert.GraphLayerLinear.graph_layer_linear x W (Cert.KernelIdeal.Host.srcIdx (F := Ideal) ei) (Cert.KernelIdeal.Host.dstIdx (F := Ideal) ei)
    (Cert.KernelIdeal.Host.edgeWeight (F := Ideal) ei) hx hW (fun e => Cert.EdgeWeightReal.kernel_edge_weight_isReal _ _ _ e)

/-- The features the two programs compute from the same real arrays are the same array. -/
theorem features_eq (x : (⟨Cert.KernelIdeal.S720896x3, .f32⟩ : BufTy).Contents (Elt Ideal)) (ei : (⟨Cert.KernelIdeal.S2x1376256, .i32⟩ : BufTy).Contents (Elt Ideal)) (W : (⟨Cert.KernelIdeal.S3x32, .f32⟩ : BufTy).Contents (Elt Ideal)) (b : (⟨Cert.KernelIdeal.S32, .f32⟩ : BufTy).Contents (Elt Ideal))
    (hx : ∀ i, IsReal (x i)) (hW : ∀ i, IsReal (W i)) :
    Cert.KernelIdeal.Host.features (F := Ideal) x ei W b = Cert.ReferenceIdeal.Stages.features (F := Ideal) x ei W b := by
  unfold Cert.KernelIdeal.Host.features Cert.ReferenceIdeal.Stages.features
  rw [layer_eq x ei W hx hW]

/-! ## What the region finds -/

section Region
variable (m : (ℓ : Loc Cert.KernelIdeal.nD Cert.KernelIdeal.τ Cert.KernelIdeal.sig) → Buf (Elt Ideal) ℓ)

theorem V_heq (c : Dev Cert.KernelIdeal.nD) {b b' : Ref Cert.KernelIdeal.sig .tc} (h : b = b') : HEq (Cert.KernelIdeal.Gen.V m c b) (Cert.KernelIdeal.Gen.V m c b') := by
  subst h; rfl

theorem arrRef0 : Pipeline.arrRef Cert.KernelIdeal.spec0 0 = Cert.KernelIdeal.main_v47 := rfl
theorem arr0_eq (c : Dev Cert.KernelIdeal.nD) : Cert.KernelIdeal.Region.arr0 m c = Cert.KernelIdeal.Gen.V m c Cert.KernelIdeal.main_v47 :=
  (Cert.KernelIdeal.Region.arr0_def m c).trans (eq_of_heq (V_heq m c arrRef0))
theorem arrRef1 : Pipeline.arrRef Cert.KernelIdeal.spec0 1 = Cert.KernelIdeal.main_arg2 := rfl
theorem arr1_eq (c : Dev Cert.KernelIdeal.nD) : Cert.KernelIdeal.Region.arr1 m c = Cert.KernelIdeal.Gen.V m c Cert.KernelIdeal.main_arg2 :=
  (Cert.KernelIdeal.Region.arr1_def m c).trans (eq_of_heq (V_heq m c arrRef1))
theorem arrRef2 : Pipeline.arrRef Cert.KernelIdeal.spec0 2 = Cert.KernelIdeal.main_v48 := rfl
theorem arr2_eq (c : Dev Cert.KernelIdeal.nD) : Cert.KernelIdeal.Region.arr2 m c = Cert.KernelIdeal.Gen.V m c Cert.KernelIdeal.main_v48 :=
  (Cert.KernelIdeal.Region.arr2_def m c).trans (eq_of_heq (V_heq m c arrRef2))
theorem arrRef3 : Pipeline.arrRef Cert.KernelIdeal.spec0 3 = Cert.KernelIdeal.main_v50 := rfl
theorem arr3_eq (c : Dev Cert.KernelIdeal.nD) : Cert.KernelIdeal.Region.arr3 m c = Cert.KernelIdeal.Gen.V m c Cert.KernelIdeal.main_v50 :=
  (Cert.KernelIdeal.Region.arr3_def m c).trans (eq_of_heq (V_heq m c arrRef3))
theorem arrRef4 : Pipeline.arrRef Cert.KernelIdeal.spec0 4 = Cert.KernelIdeal.main_arg7 := rfl
theorem arr4_eq (c : Dev Cert.KernelIdeal.nD) : Cert.KernelIdeal.Region.arr4 m c = Cert.KernelIdeal.Gen.V m c Cert.KernelIdeal.main_arg7 :=
  (Cert.KernelIdeal.Region.arr4_def m c).trans (eq_of_heq (V_heq m c arrRef4))
theorem arrRef5 : Pipeline.arrRef Cert.KernelIdeal.spec0 5 = Cert.KernelIdeal.main_v51 := rfl
theorem arr5_eq (c : Dev Cert.KernelIdeal.nD) : Cert.KernelIdeal.Region.arr5 m c = Cert.KernelIdeal.Gen.V m c Cert.KernelIdeal.main_v51 :=
  (Cert.KernelIdeal.Region.arr5_def m c).trans (eq_of_heq (V_heq m c arrRef5))
theorem arrRef6 : Pipeline.arrRef Cert.KernelIdeal.spec0 6 = Cert.KernelIdeal.main_arg9 := rfl
theorem arr6_eq (c : Dev Cert.KernelIdeal.nD) : Cert.KernelIdeal.Region.arr6 m c = Cert.KernelIdeal.Gen.V m c Cert.KernelIdeal.main_arg9 :=
  (Cert.KernelIdeal.Region.arr6_def m c).trans (eq_of_heq (V_heq m c arrRef6))
theorem arrRef7 : Pipeline.arrRef Cert.KernelIdeal.spec0 7 = Cert.KernelIdeal.main_v52 := rfl
theorem arr7_eq (c : Dev Cert.KernelIdeal.nD) : Cert.KernelIdeal.Region.arr7 m c = Cert.KernelIdeal.Gen.V m c Cert.KernelIdeal.main_v52 :=
  (Cert.KernelIdeal.Region.arr7_def m c).trans (eq_of_heq (V_heq m c arrRef7))
theorem arrRef8 : Pipeline.arrRef Cert.KernelIdeal.spec0 8 = Cert.KernelIdeal.main_arg11 := rfl
theorem arr8_eq (c : Dev Cert.KernelIdeal.nD) : Cert.KernelIdeal.Region.arr8 m c = Cert.KernelIdeal.Gen.V m c Cert.KernelIdeal.main_arg11 :=
  (Cert.KernelIdeal.Region.arr8_def m c).trans (eq_of_heq (V_heq m c arrRef8))
theorem arrRef9 : Pipeline.arrRef Cert.KernelIdeal.spec0 9 = Cert.KernelIdeal.main_v53 := rfl
theorem arr9_eq (c : Dev Cert.KernelIdeal.nD) : Cert.KernelIdeal.Region.arr9 m c = Cert.KernelIdeal.Gen.V m c Cert.KernelIdeal.main_v53 :=
  (Cert.KernelIdeal.Region.arr9_def m c).trans (eq_of_heq (V_heq m c arrRef9))
theorem arrRef10 : Pipeline.arrRef Cert.KernelIdeal.spec0 10 = Cert.KernelIdeal.main_v49 := rfl
theorem arr10_eq (c : Dev Cert.KernelIdeal.nD) : Cert.KernelIdeal.Region.arr10 m c = Cert.KernelIdeal.Gen.V m c Cert.KernelIdeal.main_v49 :=
  (Cert.KernelIdeal.Region.arr10_def m c).trans (eq_of_heq (V_heq m c arrRef10))
theorem arrRef11 : Pipeline.arrRef Cert.KernelIdeal.spec0 11 = Cert.KernelIdeal.main_v54 := rfl
theorem arr11_eq (c : Dev Cert.KernelIdeal.nD) : Cert.KernelIdeal.Region.arr11 m c = Cert.KernelIdeal.Gen.V m c Cert.KernelIdeal.main_v54 :=
  (Cert.KernelIdeal.Region.arr11_def m c).trans (eq_of_heq (V_heq m c arrRef11))

/-- A bias reshaped to one row reads its entries. -/
theorem oneRow_read {α : Type} {N : Nat} (v : (⟨1, ![N]⟩ : Shape).Idx → α) (h : (⟨1, ![N]⟩ : Shape).ShapeCasts ⟨2, ![1, N]⟩) (j : Fin N) :
    shapeCast ⟨2, ![1, N]⟩ v h (ix2 0 j) = v (ix1 j) := by
  rw [shapeCast_addUnit_apply ![N] v h (ix2 0 j)]
  refine congrArg v (funext fun a => ?_)
  match a with
  | ⟨0, _⟩ => rfl

variable (m' : (ℓ : Loc Cert.ReferenceIdeal.nD Cert.ReferenceIdeal.τ Cert.ReferenceIdeal.sig) → Buf (Elt Ideal) ℓ) (c : Dev Cert.KernelIdeal.nD)

/-- The weights the region finds are the reference's weights, when the arguments agree. -/
theorem weights_eq (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))) (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))) :
    Cert.KernelIdeal.Region.regionWeights m c = Cert.ReferenceIdeal.Read.weights m' c := by
  have e2 : ∀ k j, Cert.KernelIdeal.Region.arr2 m c (ix2 k j) = (m' ((c.tc : Thread Cert.ReferenceIdeal.nD Cert.ReferenceIdeal.τ).loc Cert.ReferenceIdeal.main_arg5)) (ix2 k j) := fun k j => by
    rw [arr2_eq m c, Cert.KernelIdeal.Host.V_main_v48 m c, h5]; rfl
  have e3 : ∀ j, Cert.KernelIdeal.Region.arr3 m c (ix2 0 j) = (m' ((c.tc : Thread Cert.ReferenceIdeal.nD Cert.ReferenceIdeal.τ).loc Cert.ReferenceIdeal.main_arg6)) (ix1 j) := fun j => by
    rw [arr3_eq m c, Cert.KernelIdeal.Host.V_main_v50 m c, h6]; exact oneRow_read _ _ j
  have e4 : ∀ k j, Cert.KernelIdeal.Region.arr4 m c (ix2 k j) = (m' ((c.tc : Thread Cert.ReferenceIdeal.nD Cert.ReferenceIdeal.τ).loc Cert.ReferenceIdeal.main_arg7)) (ix2 k j) := fun k j => by
    rw [arr4_eq m c, Cert.KernelIdeal.Gen.V_main_arg7 m c, h7]
  have e5 : ∀ j, Cert.KernelIdeal.Region.arr5 m c (ix2 0 j) = (m' ((c.tc : Thread Cert.ReferenceIdeal.nD Cert.ReferenceIdeal.τ).loc Cert.ReferenceIdeal.main_arg8)) (ix1 j) := fun j => by
    rw [arr5_eq m c, Cert.KernelIdeal.Host.V_main_v51 m c, h8]; exact oneRow_read _ _ j
  have e6 : ∀ k j, Cert.KernelIdeal.Region.arr6 m c (ix2 k j) = (m' ((c.tc : Thread Cert.ReferenceIdeal.nD Cert.ReferenceIdeal.τ).loc Cert.ReferenceIdeal.main_arg9)) (ix2 k j) := fun k j => by
    rw [arr6_eq m c, Cert.KernelIdeal.Gen.V_main_arg9 m c, h9]
  have e7 : ∀ j, Cert.KernelIdeal.Region.arr7 m c (ix2 0 j) = (m' ((c.tc : Thread Cert.ReferenceIdeal.nD Cert.ReferenceIdeal.τ).loc Cert.ReferenceIdeal.main_arg10)) (ix1 j) := fun j => by
    rw [arr7_eq m c, Cert.KernelIdeal.Host.V_main_v52 m c, h10]; exact oneRow_read _ _ j
  have e8 : ∀ k j, Cert.KernelIdeal.Region.arr8 m c (ix2 k j) = (m' ((c.tc : Thread Cert.ReferenceIdeal.nD Cert.ReferenceIdeal.τ).loc Cert.ReferenceIdeal.main_arg11)) (ix2 k j) := fun k j => by
    rw [arr8_eq m c, Cert.KernelIdeal.Gen.V_main_arg11 m c, h11]
  have e9 : ∀ j, Cert.KernelIdeal.Region.arr9 m c (ix2 0 j) = (m' ((c.tc : Thread Cert.ReferenceIdeal.nD Cert.ReferenceIdeal.τ).loc Cert.ReferenceIdeal.main_arg12)) (ix1 j) := fun j => by
    rw [arr9_eq m c, Cert.KernelIdeal.Host.V_main_v53 m c, h12]; exact oneRow_read _ _ j
  have e10 : ∀ k j, Cert.KernelIdeal.Region.arr10 m c (ix2 k j) = (m' ((c.tc : Thread Cert.ReferenceIdeal.nD Cert.ReferenceIdeal.τ).loc Cert.ReferenceIdeal.main_arg13)) (ix2 k j) := fun k j => by
    rw [arr10_eq m c, Cert.KernelIdeal.Host.V_main_v49 m c, h13]; rfl
  have e11 : ∀ j, Cert.KernelIdeal.Region.arr11 m c (ix2 0 j) = (m' ((c.tc : Thread Cert.ReferenceIdeal.nD Cert.ReferenceIdeal.τ).loc Cert.ReferenceIdeal.main_arg14)) (ix1 j) := fun j => by
    rw [arr11_eq m c, Cert.KernelIdeal.Host.V_main_v54 m c, h14]; exact oneRow_read _ _ j
  unfold Cert.KernelIdeal.Region.regionWeights Cert.ReferenceIdeal.Read.weights Cert.ReferenceIdeal.Rows.refWeights
  simp only [e2, e3, e4, e5, e6, e7, e8, e9, e10, e11]

/-- The noise the region finds is the reference's noise. -/
theorem noise_eq (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) : Cert.KernelIdeal.Region.arr1 m c = (m' ((c.tc : Thread Cert.ReferenceIdeal.nD Cert.ReferenceIdeal.τ).loc Cert.ReferenceIdeal.main_arg2)) := by
  rw [arr1_eq m c, Cert.KernelIdeal.Gen.V_main_arg2 m c, h2]

/-- The features the region finds are the reference's features, under the precondition. -/
theorem feat_eq (hpre : Cert.Pre_KernelIdeal m) (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) :
    Cert.KernelIdeal.Region.arr0 m c = Cert.ReferenceIdeal.Stages.feat m' c := by
  rw [arr0_eq m c, Cert.KernelIdeal.Host.V_main_v47 m c,
    features_eq _ _ _ _ (fun i => Cert.InputsReal.arg0_isReal m hpre c i) (fun i => Cert.InputsReal.arg3_isReal m hpre c i)]
  unfold Cert.ReferenceIdeal.Stages.feat
  rw [h0, h1, h3, h4]

/-- The kernel's lines after the region are the reference's last stage, on any decoded array. -/
theorem out_eq (d : (⟨Cert.KernelIdeal.S32768x704, .f32⟩ : BufTy).Contents (Elt Ideal)) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))) :
    Cert.KernelIdeal.Tail.outTail (F := Ideal) d (Cert.KernelIdeal.Gen.V0 m c (Proc.devRef .tc Cert.KernelIdeal.main_v5)) (Cert.KernelIdeal.Gen.V0 m c (Proc.devRef .tc Cert.KernelIdeal.main_v6))
        (Cert.KernelIdeal.Gen.V0 m c (Proc.devRef .tc Cert.KernelIdeal.main_v29)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
      = Cert.ReferenceIdeal.Stages.output (F := Ideal) d (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) := by
  rw [show Cert.KernelIdeal.Gen.V0 m c (Proc.devRef .tc Cert.KernelIdeal.main_v5) = Cert.KernelIdeal.Host.srcCat (F := Ideal) (m ((c.tc : Thread Cert.KernelIdeal.nD Cert.KernelIdeal.τ).loc Cert.KernelIdeal.main_arg1)) from Cert.KernelIdeal.Host.V_main_v5 m c,
    show Cert.KernelIdeal.Gen.V0 m c (Proc.devRef .tc Cert.KernelIdeal.main_v6) = Cert.KernelIdeal.Host.dstCat (F := Ideal) (m ((c.tc : Thread Cert.KernelIdeal.nD Cert.KernelIdeal.τ).loc Cert.KernelIdeal.main_arg1)) from Cert.KernelIdeal.Host.V_main_v6 m c,
    show Cert.KernelIdeal.Gen.V0 m c (Proc.devRef .tc Cert.KernelIdeal.main_v29) = Cert.KernelIdeal.Host.edgeWeight (F := Ideal) (m ((c.tc : Thread Cert.KernelIdeal.nD Cert.KernelIdeal.τ).loc Cert.KernelIdeal.main_arg1)) from Cert.KernelIdeal.Host.V_main_v29 m c,
    srcCat_eq, dstCat_eq, edgeWeight_eq, h1, h15, h16]
  unfold Cert.KernelIdeal.Tail.outTail Cert.ReferenceIdeal.Stages.output Cert.ReferenceIdeal.Stages.aggregate3 Cert.ReferenceIdeal.Stages.srcIdx Cert.ReferenceIdeal.Stages.dstIdx Cert.ReferenceIdeal.Stages.asCol Cert.ReferenceIdeal.Stages.wrapNeg
  rfl

end Region

end Cert.Bridge

end
-- ==== Proof.lean ====
/-
  A graph variational autoencoder over 32768 poses of 22 joints: the kernel and the reference compute the same four
  results on the extended reals.

  Both programs run  x → graph layer → encoder → (mean, log-variance) → latent → decoder → graph layer  on a graph of
  720896 nodes whose edges are the given 1376256 plus one self loop per node, each edge weighted by the inverse square
  roots of its two ends' degrees (zero where a degree is not positive).

  * Between the graph layers every layer acts on each row of the batch by itself. The kernel computes them block by
    block (1024 rows per grid point, weights whole), the reference on the whole batch; read at an entry both are the same
    row function (MlpRow), so the region's four arrays (KernelRegion) and the reference's four stages (ReferenceRows)
    are the same whole-array functions (MlpWhole) of the features, the noise and the weights. No law of arithmetic is
    used there: a matrix product is the same sum on both sides, and a change of float format is the identity.
  * The second graph layer is the same operations in both programs (KernelTail, Bridge.out_eq).
  * The FIRST graph layer is where they differ: the kernel aggregates the width-3 rows of x along the edges and then
    multiplies by the 3 × 32 weights; the reference multiplies first and aggregates width-32 rows. On the extended reals
    a product does not distribute over a sum that may hold both infinities, so this needs every entry to be real: x and
    the weights by the precondition (InputsReal), every edge weight because the inverse square root of a positive
    extended real is real and a non-positive degree contributes zero (EdgeWeightReal). Then both are the one real sum
    ∑ₑ (∑ₖ x(src e, k) · W(k, j)) · w(e) over the edges e ending in the node (GraphLayerLinear, LibLinearAgg).

  The three frames are the generated ones (the reference's is its run with the results dropped), and the idealization's
  ledger is empty.
-/
import proofs.«122469_j14886356648528_2_alg».proof.Defs
import proofs.«122469_j14886356648528_2_alg».proof.Proof.Gen.Kernel
import proofs.«122469_j14886356648528_2_alg».proof.Proof.Gen.Kernel.Frame
import proofs.«122469_j14886356648528_2_alg».proof.Proof.Gen.KernelIdeal
import proofs.«122469_j14886356648528_2_alg».proof.Proof.Gen.KernelIdeal.Frame
import proofs.«122469_j14886356648528_2_alg».proof.Proof.Gen.ReferenceIdeal
import proofs.«122469_j14886356648528_2_alg».proof.Proof.Gen.Pre_finite_inputs
import proofs.«122469_j14886356648528_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.MlpWhole

/-- The kernel as printed runs, faults nowhere and leaves its arguments unchanged. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- So does the reference: its run, with the results dropped. -/
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-- The idealization rewrote nothing. -/
theorem preserves : Cert.preserves_Kernel_KernelIdeal := trivial

set_option maxHeartbeats 1000000 in
/-- From memories agreeing on the arguments, under the precondition, both programs end with the same four results: the
    reference's, to which the kernel's are equal because it is fed the same features, noise, weights and edges. -/
theorem algebraic : Cert.algebraic_KernelIdeal_ReferenceIdeal := by
  intro m ρ m' ρ' hpre hagree
  refine ⟨fun c => Cert.ReferenceIdeal.Stages.output (F := Ideal) (decodedArr (Cert.ReferenceIdeal.Read.weights m' c) (Cert.ReferenceIdeal.Stages.feat m' c) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)),
    fun c => latentArr (Cert.ReferenceIdeal.Read.weights m' c) (Cert.ReferenceIdeal.Stages.feat m' c) (m' ((c.tc : Thread Cert.ReferenceIdeal.nD Cert.ReferenceIdeal.τ).loc Cert.ReferenceIdeal.main_arg2)),
    fun c => meanArr (Cert.ReferenceIdeal.Read.weights m' c) (Cert.ReferenceIdeal.Stages.feat m' c),
    fun c => logvarArr (Cert.ReferenceIdeal.Read.weights m' c) (Cert.ReferenceIdeal.Stages.feat m' c), ?_, Cert.ReferenceIdeal.Read.run m' ρ'⟩
  refine (θ_run Cert.KernelIdeal.defs _ _).mono (fun _ h c => ?_) (Cert.KernelIdeal.Read.run m ρ)
  obtain ⟨g0, g1, g2, g3, g4, g5, g6, g7, g8, g9, g10, g11, g12, g13, g14, g15, g16⟩ := hagree c
  have hW := Cert.Bridge.weights_eq m m' c g5 g6 g7 g8 g9 g10 g11 g12 g13 g14
  have hE := Cert.Bridge.noise_eq m m' c g2
  have hF := Cert.Bridge.feat_eq m m' c hpre g0 g1 g3 g4
  refine ⟨(h c).1.trans ?_, (h c).2.1.trans ?_, (h c).2.2.1.trans ?_, (h c).2.2.2.1.trans ?_, (h c).2.2.2.2⟩
  · rw [hW, hE, hF]
    exact Cert.Bridge.out_eq m m' c _ g1 g15 g16
  · rw [hW, hE, hF]
  · rw [hW, hF]
  · rw [hW, hF]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
